-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v0_0)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v0) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x32x2048 : Shape := ⟨3, ![1000, 32, 2048]⟩
abbrev S_ : Shape := ⟨0, ![]⟩

class Facts : Prop where
  bcast_S_S1000x32x2048 : S_.BroadcastsInDim S1000x32x2048 (![] : Fin 0 → Fin S1000x32x2048.rank)
  reducesTo_S1000x32x2048_S_d0_1_2 : S1000x32x2048.ReducesTo [0, 1, 2] S_
  h_S_ : 0 < S_.numel

variable [Facts]

def fn {F : FTy → Type} [FloatOps F] (main_arg0 : FVec F S1000x32x2048 .f32) : IVec S_ 1 :=
  let main_v0 : FVec F S1000x32x2048 .f32 := Host.absf main_arg0
  let main_cst : FVec F S_ .f32 := constant S_ .f32 0x7F800000#32
  let main_v1 : FVec F S1000x32x2048 .f32 := broadcastInDim S1000x32x2048 ![] bcast_S_S1000x32x2048 main_cst
  let main_v2 : IVec S1000x32x2048 1 := cmpf .olt main_v0 main_v1
  let main_c : IVec S_ 1 := constantI S_ 1 1#1
  let main_v3 : IVec S_ 1 := (fun x v => Host.reduce IntOp.andi x v reducesTo_S1000x32x2048_S_d0_1_2 h_S_) main_v2 main_c
  main_v3
-- ==== Kernel.lean ====
abbrev S1000x32x2048 : Shape := ⟨3, ![1000, 32, 2048]⟩
abbrev S32x2048 : Shape := ⟨2, ![32, 2048]⟩
abbrev S1000x32 : Shape := ⟨2, ![1000, 32]⟩
abbrev S40x32x2048 : Shape := ⟨3, ![40, 32, 2048]⟩
abbrev S40x32 : Shape := ⟨2, ![40, 32]⟩
abbrev S1x32x2048 : Shape := ⟨3, ![1, 32, 2048]⟩
abbrev S_ : Shape := ⟨0, ![]⟩
abbrev S32 : Shape := ⟨1, ![32]⟩
abbrev S1x32 : Shape := ⟨2, ![1, 32]⟩
abbrev S999x32 : Shape := ⟨2, ![999, 32]⟩

abbrev nBuf : Space → Nat
  | .hbm => 78
  | .vmem => 10
  | .smem => 0
  | _ => 0

abbrev bufTy : (tb : Table) → Fin (tcTables nBuf tb) → BufTy
  | .hbm, ⟨0, _⟩ => ⟨S1000x32x2048, .f32⟩
  | .hbm, ⟨1, _⟩ => ⟨S32x2048, .f32⟩
  | .hbm, ⟨2, _⟩ => ⟨S32x2048, .f32⟩
  | .hbm, ⟨3, _⟩ => ⟨S1000x32, .f32⟩
  | .hbm, ⟨4, _⟩ => ⟨S_, .f32⟩
  | .hbm, ⟨5, _⟩ => ⟨S32x2048, .f32⟩
  | .hbm, ⟨6, _⟩ => ⟨S32x2048, .f32⟩
  | .hbm, ⟨7, _⟩ => ⟨S_, .f32⟩
  | .hbm, ⟨8, _⟩ => ⟨S32x2048, .f32⟩
  | .hbm, ⟨9, _⟩ => ⟨S32x2048, .i1⟩
  | .hbm, ⟨10, _⟩ => ⟨S32x2048, .f32⟩
  | .hbm, ⟨11, _⟩ => ⟨S_, .f32⟩
  | .hbm, ⟨12, _⟩ => ⟨S32, .f32⟩
  | .hbm, ⟨13, _⟩ => ⟨S1x32, .f32⟩
  | .hbm, ⟨14, _⟩ => ⟨S999x32, .f32⟩
  | .hbm, ⟨15, _⟩ => ⟨S1000x32, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1x32, .f32⟩
  | .hbm, ⟨22, _⟩ => ⟨S1000x32, .f32⟩
  | .hbm, ⟨23, _⟩ => ⟨S1000x32, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S1x32, .f32⟩
  | .hbm, ⟨30, _⟩ => ⟨S1000x32, .f32⟩
  | .hbm, ⟨31, _⟩ => ⟨S1000x32, .f32⟩
  | .hbm, ⟨32, _⟩ => ⟨S1000x32, .f32⟩
  | .hbm, ⟨33, _⟩ => ⟨S_, .f32⟩
  | .hbm, ⟨34, _⟩ => ⟨S32, .f32⟩
  | .hbm, ⟨35, _⟩ => ⟨S1000x32, .f32⟩
  | .hbm, ⟨36, _⟩ => ⟨S_, .f32⟩
  | .hbm, ⟨37, _⟩ => ⟨S32, .f32⟩
  | .hbm, ⟨38, _⟩ => ⟨S1000x32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S_, .i32⟩
  | .hbm, ⟨44, _⟩ => ⟨S_, .f32⟩
  | .hbm, ⟨45, _⟩ => ⟨S32, .f32⟩
  | .hbm, ⟨46, _⟩ => ⟨S1x32, .f32⟩
  | .hbm, ⟨47, _⟩ => ⟨S_, .f32⟩
  | .hbm, ⟨48, _⟩ => ⟨S1x32, .f32⟩
  | .hbm, ⟨49, _⟩ => ⟨S1x32, .f32⟩
  | .hbm, ⟨50, _⟩ => ⟨S1000x32, .f32⟩
  | .hbm, ⟨51, _⟩ => ⟨S1000x32, .f32⟩
  | .hbm, ⟨52, _⟩ => ⟨S1000x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .i1⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S_, .f32⟩
  | .hbm, ⟨76, _⟩ => ⟨S32, .f32⟩
  | .hbm, ⟨77, _⟩ => ⟨S32, .f32⟩
  | .local _ .vmem, ⟨0, _⟩ => ⟨S40x32x2048, .f32⟩
  | .local _ .vmem, ⟨1, _⟩ => ⟨S40x32x2048, .f32⟩
  | .local _ .vmem, ⟨2, _⟩ => ⟨S32x2048, .f32⟩
  | .local _ .vmem, ⟨3, _⟩ => ⟨S32x2048, .f32⟩
  | .local _ .vmem, ⟨4, _⟩ => ⟨S40x32, .f32⟩
  | .local _ .vmem, ⟨5, _⟩ => ⟨S40x32, .f32⟩
  | .local _ .vmem, ⟨6, _⟩ => ⟨S32x2048, .i32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | _, _ => ⟨S1000x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_cst_0 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_cst_1 : Ref sig .tc := ⟨.hbm, 54, rfl⟩
abbrev main_call1_call0_v8 : Ref sig .tc := ⟨.hbm, 55, rfl⟩
abbrev main_call1_call0_cst_2 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_call0_cst_3 : Ref sig .tc := ⟨.hbm, 60, rfl⟩
abbrev main_call1_call0_v12 : Ref sig .tc := ⟨.hbm, 61, rfl⟩
abbrev main_call1_call0_cst_4 : Ref sig .tc := ⟨.hbm, 62, rfl⟩
abbrev main_call1_call0_call0_v0 : Ref sig .tc := ⟨.hbm, 63, rfl⟩
abbrev main_call1_call0_call0_v1 : Ref sig .tc := ⟨.hbm, 64, rfl⟩
abbrev main_call1_v0 : Ref sig .tc := ⟨.hbm, 65, rfl⟩
abbrev main_v28 : Ref sig .tc := ⟨.hbm, 66, rfl⟩
abbrev main_cst_9 : Ref sig .tc := ⟨.hbm, 67, rfl⟩
abbrev main_v29 : Ref sig .tc := ⟨.hbm, 68, rfl⟩
abbrev main_v30 : Ref sig .tc := ⟨.hbm, 69, rfl⟩
abbrev main_cst_10 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_11 : Ref sig .tc := ⟨.hbm, 74, rfl⟩
abbrev main_call2_v0 : Ref sig .tc := ⟨.hbm, 75, rfl⟩
abbrev main_call2_v1 : Ref sig .tc := ⟨.hbm, 76, rfl⟩
abbrev main_v34 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32_932 : BitVec 32 := 24#32
  let v1572 : BitVec 1 := Scalar.cmpi .eq arg0 c24_i32_932
  let v1573 : BitVec 32 := Scalar.extui v1572
  let c0_i32_933 : BitVec 32 := 0#32
  let v1574 : BitVec 1 := Scalar.cmpi .ne v1573 c0_i32_933
  v1574

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S40x32x2048_S40x32x2048_0_0_0 : ∀ a, (![0, 0, 0] : Fin 3 → Nat) a + S40x32x2048.size a ≤ S40x32x2048.size a
  h_S40x32x2048 : 0 < S40x32x2048.numel
  reduces_S40x32x2048_S32x2048 : S40x32x2048.Reduces [0] S32x2048
  reduces_S40x32x2048_S40x32 : S40x32x2048.Reduces [2] S40x32
  inb_S40x32_S40x32_0_0 : ∀ a, (![0, 0] : Fin 2 → Nat) a + S40x32.size a ≤ S40x32.size a
  h_S40x32 : 0 < S40x32.numel
  inb_S40x32x2048_S1x32x2048_0_0_0 : ∀ a, (![0, 0, 0] : Fin 3 → Nat) a + S1x32x2048.size a ≤ S40x32x2048.size a
  h_S1x32x2048 : 0 < S1x32x2048.numel
  shapeCasts_S1x32x2048_S32x2048 : S1x32x2048.ShapeCasts S32x2048
  inb_S40x32x2048_S1x32x2048_1_0_0 : ∀ a, (![1, 0, 0] : Fin 3 → Nat) a + S1x32x2048.size a ≤ S40x32x2048.size a
  inb_S40x32x2048_S1x32x2048_2_0_0 : ∀ a, (![2, 0, 0] : Fin 3 → Nat) a + S1x32x2048.size a ≤ S40x32x2048.size a
  inb_S40x32x2048_S1x32x2048_3_0_0 : ∀ a, (![3, 0, 0] : Fin 3 → Nat) a + S1x32x2048.size a ≤ S40x32x2048.size a
  inb_S40x32x2048_S1x32x2048_4_0_0 : ∀ a, (![4, 0, 0] : Fin 3 → Nat) a + S1x32x2048.size a ≤ S40x32x2048.size a
  inb_S40x32x2048_S1x32x2048_5_0_0 : ∀ a, (![5, 0, 0] : Fin 3 → Nat) a + S1x32x2048.size a ≤ S40x32x2048.size a
  inb_S40x32x2048_S1x32x2048_6_0_0 : ∀ a, (![6, 0, 0] : Fin 3 → Nat) a + S1x32x2048.size a ≤ S40x32x2048.size a
  inb_S40x32x2048_S1x32x2048_7_0_0 : ∀ a, (![7, 0, 0] : Fin 3 → Nat) a + S1x32x2048.size a ≤ S40x32x2048.size a
  inb_S40x32x2048_S1x32x2048_8_0_0 : ∀ a, (![8, 0, 0] : Fin 3 → Nat) a + S1x32x2048.size a ≤ S40x32x2048.size a
  inb_S40x32x2048_S1x32x2048_9_0_0 : ∀ a, (![9, 0, 0] : Fin 3 → Nat) a + S1x32x2048.size a ≤ S40x32x2048.size a
  inb_S40x32x2048_S1x32x2048_10_0_0 : ∀ a, (![10, 0, 0] : Fin 3 → Nat) a + S1x32x2048.size a ≤ S40x32x2048.size a
  inb_S40x32x2048_S1x32x2048_11_0_0 : ∀ a, (![11, 0, 0] : Fin 3 → Nat) a + S1x32x2048.size a ≤ S40x32x2048.size a
  inb_S40x32x2048_S1x32x2048_12_0_0 : ∀ a, (![12, 0, 0] : Fin 3 → Nat) a + S1x32x2048.size a ≤ S40x32x2048.size a
  inb_S40x32x2048_S1x32x2048_13_0_0 : ∀ a, (![13, 0, 0] : Fin 3 → Nat) a + S1x32x2048.size a ≤ S40x32x2048.size a
  inb_S40x32x2048_S1x32x2048_14_0_0 : ∀ a, (![14, 0, 0] : Fin 3 → Nat) a + S1x32x2048.size a ≤ S40x32x2048.size a
  inb_S40x32x2048_S1x32x2048_15_0_0 : ∀ a, (![15, 0, 0] : Fin 3 → Nat) a + S1x32x2048.size a ≤ S40x32x2048.size a
  inb_S40x32x2048_S1x32x2048_16_0_0 : ∀ a, (![16, 0, 0] : Fin 3 → Nat) a + S1x32x2048.size a ≤ S40x32x2048.size a
  inb_S40x32x2048_S1x32x2048_17_0_0 : ∀ a, (![17, 0, 0] : Fin 3 → Nat) a + S1x32x2048.size a ≤ S40x32x2048.size a
  inb_S40x32x2048_S1x32x2048_18_0_0 : ∀ a, (![18, 0, 0] : Fin 3 → Nat) a + S1x32x2048.size a ≤ S40x32x2048.size a
  inb_S40x32x2048_S1x32x2048_19_0_0 : ∀ a, (![19, 0, 0] : Fin 3 → Nat) a + S1x32x2048.size a ≤ S40x32x2048.size a
  inb_S40x32x2048_S1x32x2048_20_0_0 : ∀ a, (![20, 0, 0] : Fin 3 → Nat) a + S1x32x2048.size a ≤ S40x32x2048.size a
  inb_S40x32x2048_S1x32x2048_21_0_0 : ∀ a, (![21, 0, 0] : Fin 3 → Nat) a + S1x32x2048.size a ≤ S40x32x2048.size a
  inb_S40x32x2048_S1x32x2048_22_0_0 : ∀ a, (![22, 0, 0] : Fin 3 → Nat) a + S1x32x2048.size a ≤ S40x32x2048.size a
  inb_S40x32x2048_S1x32x2048_23_0_0 : ∀ a, (![23, 0, 0] : Fin 3 → Nat) a + S1x32x2048.size a ≤ S40x32x2048.size a
  inb_S40x32x2048_S1x32x2048_24_0_0 : ∀ a, (![24, 0, 0] : Fin 3 → Nat) a + S1x32x2048.size a ≤ S40x32x2048.size a
  inb_S40x32x2048_S1x32x2048_25_0_0 : ∀ a, (![25, 0, 0] : Fin 3 → Nat) a + S1x32x2048.size a ≤ S40x32x2048.size a
  inb_S40x32x2048_S1x32x2048_26_0_0 : ∀ a, (![26, 0, 0] : Fin 3 → Nat) a + S1x32x2048.size a ≤ S40x32x2048.size a
  inb_S40x32x2048_S1x32x2048_27_0_0 : ∀ a, (![27, 0, 0] : Fin 3 → Nat) a + S1x32x2048.size a ≤ S40x32x2048.size a
  inb_S40x32x2048_S1x32x2048_28_0_0 : ∀ a, (![28, 0, 0] : Fin 3 → Nat) a + S1x32x2048.size a ≤ S40x32x2048.size a
  inb_S40x32x2048_S1x32x2048_29_0_0 : ∀ a, (![29, 0, 0] : Fin 3 → Nat) a + S1x32x2048.size a ≤ S40x32x2048.size a
  inb_S40x32x2048_S1x32x2048_30_0_0 : ∀ a, (![30, 0, 0] : Fin 3 → Nat) a + S1x32x2048.size a ≤ S40x32x2048.size a
  inb_S40x32x2048_S1x32x2048_31_0_0 : ∀ a, (![31, 0, 0] : Fin 3 → Nat) a + S1x32x2048.size a ≤ S40x32x2048.size a
  inb_S40x32x2048_S1x32x2048_32_0_0 : ∀ a, (![32, 0, 0] : Fin 3 → Nat) a + S1x32x2048.size a ≤ S40x32x2048.size a
  inb_S40x32x2048_S1x32x2048_33_0_0 : ∀ a, (![33, 0, 0] : Fin 3 → Nat) a + S1x32x2048.size a ≤ S40x32x2048.size a
  inb_S40x32x2048_S1x32x2048_34_0_0 : ∀ a, (![34, 0, 0] : Fin 3 → Nat) a + S1x32x2048.size a ≤ S40x32x2048.size a
  inb_S40x32x2048_S1x32x2048_35_0_0 : ∀ a, (![35, 0, 0] : Fin 3 → Nat) a + S1x32x2048.size a ≤ S40x32x2048.size a
  inb_S40x32x2048_S1x32x2048_36_0_0 : ∀ a, (![36, 0, 0] : Fin 3 → Nat) a + S1x32x2048.size a ≤ S40x32x2048.size a
  inb_S40x32x2048_S1x32x2048_37_0_0 : ∀ a, (![37, 0, 0] : Fin 3 → Nat) a + S1x32x2048.size a ≤ S40x32x2048.size a
  inb_S40x32x2048_S1x32x2048_38_0_0 : ∀ a, (![38, 0, 0] : Fin 3 → Nat) a + S1x32x2048.size a ≤ S40x32x2048.size a
  inb_S40x32x2048_S1x32x2048_39_0_0 : ∀ a, (![39, 0, 0] : Fin 3 → Nat) a + S1x32x2048.size a ≤ S40x32x2048.size a
  bcast_S_S32x2048 : S_.BroadcastsInDim S32x2048 (![] : Fin 0 → Fin S32x2048.rank)
  reducesTo_S32x2048_S32_d1 : S32x2048.ReducesTo [1] S32
  h_S_ : 0 < S_.numel
  slices_S1000x32_S1x32_999_0 : S1000x32.Slices ![999, 0] S1x32
  slices_S1000x32_S999x32_0_0 : S1000x32.Slices ![0, 0] S999x32
  concatenates_S1x32_S999x32_S1000x32_d0 : Shape.Concatenates [S1x32, S999x32] S1000x32 0
  reducesTo_S1000x32_S32_d0 : S1000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S1x32_S1000x32_0_1 : S1x32.BroadcastsInDim S1000x32 (![0, 1] : Fin 2 → Fin S1000x32.rank)
  bcast_S_S1x32 : S_.BroadcastsInDim S1x32 (![] : Fin 0 → Fin S1x32.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x32x2048.size a ≤ S1000x32x2048.size a
  hwx0_0 : ∀ i : grid0.Coords, EltTy.bits .f32 = 32 ∨ (Rect.block (s := S1000x32x2048) S40x32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x2048.size a
  hwx0_2 : ∀ i : grid0.Coords, EltTy.bits .f32 = 32 ∨ (Rect.block (s := S32x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x32.size a ≤ S1000x32.size a
  hwx0_3 : ∀ i : grid0.Coords, EltTy.bits .f32 = 32 ∨ (Rect.block (s := S1000x32) S40x32.size (cc0_transform_3 i) (hinb0_3 i)).WholeWords (EltTy.packing .f32)

variable [Facts₀]

abbrev win0_0 : Pipeline.Window sig grid0 :=
  Pipeline.Window.ofSpec (Memref.whole main_arg0) S40x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S32x2048.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S32x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S40x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S1000x32x2048 : Shape := ⟨3, ![1000, 32, 2048]⟩
abbrev S_ : Shape := ⟨0, ![]⟩
abbrev S32x2048 : Shape := ⟨2, ![32, 2048]⟩
abbrev S32 : Shape := ⟨1, ![32]⟩
abbrev S1000 : Shape := ⟨1, ![1000]⟩
abbrev S1000x1x1 : Shape := ⟨3, ![1000, 1, 1]⟩
abbrev S1x32x2048 : Shape := ⟨3, ![1, 32, 2048]⟩
abbrev S999x32x2048 : Shape := ⟨3, ![999, 32, 2048]⟩
abbrev S1000x32 : Shape := ⟨2, ![1000, 32]⟩
abbrev S1x32 : Shape := ⟨2, ![1, 32]⟩
abbrev S999x32 : Shape := ⟨2, ![999, 32]⟩

abbrev nBuf : Space → Nat
  | .hbm => 145
  | .vmem => 0
  | .smem => 0
  | _ => 0

abbrev hbmTy0_0 (i : Nat) : BufTy := match i % 128 with
  | 0 => ⟨S1000x32x2048, .f32⟩
  | 1 => ⟨S_, .f32⟩
  | 2 => ⟨S32x2048, .f32⟩
  | 3 => ⟨S_, .f32⟩
  | 4 => ⟨S32x2048, .f32⟩
  | 5 => ⟨S32x2048, .f32⟩
  | 6 => ⟨S_, .f32⟩
  | 7 => ⟨S32x2048, .f32⟩
  | 8 => ⟨S32x2048, .i1⟩
  | 9 => ⟨S32x2048, .f32⟩
  | 10 => ⟨S_, .f32⟩
  | 11 => ⟨S32, .f32⟩
  | 12 => ⟨S_, .f32⟩
  | 13 => ⟨S1000x32x2048, .f32⟩
  | 14 => ⟨S1000x32x2048, .i1⟩
  | 15 => ⟨S1000, .i32⟩
  | 16 => ⟨S1000x1x1, .i32⟩
  | 17 => ⟨S_, .i32⟩
  | 18 => ⟨S_, .i32⟩
  | 19 => ⟨S1000x32x2048, .i32⟩
  | 20 => ⟨S1000x32x2048, .i32⟩
  | 21 => ⟨S1000x32x2048, .i32⟩
  | 22 => ⟨S_, .i32⟩
  | 23 => ⟨S_, .i32⟩
  | 24 => ⟨S1000x32x2048, .i32⟩
  | 25 => ⟨S_, .i32⟩
  | 26 => ⟨S1x32x2048, .i32⟩
  | 27 => ⟨S999x32x2048, .i32⟩
  | 28 => ⟨S1000x32x2048, .i32⟩
  | 29 => ⟨S_, .i32⟩
  | 30 => ⟨S1000x32x2048, .i32⟩
  | 31 => ⟨S1000x32x2048, .i1⟩
  | 32 => ⟨S1000x32x2048, .i1⟩
  | 33 => ⟨S1000x32x2048, .i32⟩
  | 34 => ⟨S1000x32x2048, .i32⟩
  | 35 => ⟨S1000x32x2048, .f32⟩
  | 36 => ⟨S_, .f32⟩
  | 37 => ⟨S_, .f32⟩
  | 38 => ⟨S1000x32x2048, .f32⟩
  | 39 => ⟨S1000x32x2048, .f32⟩
  | 40 => ⟨S1000x32x2048, .i32⟩
  | 41 => ⟨S_, .i32⟩
  | 42 => ⟨S32x2048, .i32⟩
  | 43 => ⟨S32x2048, .f32⟩
  | 44 => ⟨S_, .f32⟩
  | 45 => ⟨S32x2048, .f32⟩
  | 46 => ⟨S1000x32x2048, .f32⟩
  | 47 => ⟨S_, .f32⟩
  | 48 => ⟨S32x2048, .f32⟩
  | 49 => ⟨S_, .f32⟩
  | 50 => ⟨S32x2048, .f32⟩
  | 51 => ⟨S32x2048, .f32⟩
  | 52 => ⟨S32x2048, .f32⟩
  | 53 => ⟨S32x2048, .f32⟩
  | 54 => ⟨S32x2048, .f32⟩
  | 55 => ⟨S32x2048, .f32⟩
  | 56 => ⟨S_, .f32⟩
  | 57 => ⟨S32x2048, .f32⟩
  | 58 => ⟨S32x2048, .f32⟩
  | 59 => ⟨S_, .f32⟩
  | 60 => ⟨S32x2048, .f32⟩
  | 61 => ⟨S32x2048, .f32⟩
  | 62 => ⟨S32x2048, .f32⟩
  | 63 => ⟨S_, .f32⟩
  | 64 => ⟨S32x2048, .f32⟩
  | 65 => ⟨S32x2048, .i1⟩
  | 66 => ⟨S_, .f32⟩
  | 67 => ⟨S32x2048, .f32⟩
  | 68 => ⟨S32x2048, .f32⟩
  | 69 => ⟨S32x2048, .f32⟩
  | 70 => ⟨S_, .f32⟩
  | 71 => ⟨S32x2048, .f32⟩
  | 72 => ⟨S32x2048, .f32⟩
  | 73 => ⟨S32x2048, .f32⟩
  | 74 => ⟨S_, .f32⟩
  | 75 => ⟨S_, .f32⟩
  | 76 => ⟨S32x2048, .f32⟩
  | 77 => ⟨S32x2048, .f32⟩
  | 78 => ⟨S_, .f32⟩
  | 79 => ⟨S1000x32, .f32⟩
  | 80 => ⟨S1x32, .f32⟩
  | 81 => ⟨S999x32, .f32⟩
  | 82 => ⟨S1000x32, .f32⟩
  | 83 => ⟨S_, .f32⟩
  | 84 => ⟨S32, .f32⟩
  | 85 => ⟨S_, .f32⟩
  | 86 => ⟨S32, .f32⟩
  | 87 => ⟨S32, .f32⟩
  | 88 => ⟨S1x32, .f32⟩
  | 89 => ⟨S1000x32, .f32⟩
  | 90 => ⟨S1000x32, .f32⟩
  | 91 => ⟨S_, .f32⟩
  | 92 => ⟨S32, .f32⟩
  | 93 => ⟨S_, .f32⟩
  | 94 => ⟨S32, .f32⟩
  | 95 => ⟨S32, .f32⟩
  | 96 => ⟨S1x32, .f32⟩
  | 97 => ⟨S1000x32, .f32⟩
  | 98 => ⟨S1000x32, .f32⟩
  | 99 => ⟨S1000x32, .f32⟩
  | 100 => ⟨S_, .f32⟩
  | 101 => ⟨S32, .f32⟩
  | 102 => ⟨S1000x32, .f32⟩
  | 103 => ⟨S_, .f32⟩
  | 104 => ⟨S32, .f32⟩
  | 105 => ⟨S1000x32, .f32⟩
  | 106 => ⟨S_, .f32⟩
  | 107 => ⟨S32, .f32⟩
  | 108 => ⟨S32, .f32⟩
  | 109 => ⟨S32, .f32⟩
  | 110 => ⟨S_, .i32⟩
  | 111 => ⟨S_, .f32⟩
  | 112 => ⟨S32, .f32⟩
  | 113 => ⟨S1x32, .f32⟩
  | 114 => ⟨S_, .f32⟩
  | 115 => ⟨S1x32, .f32⟩
  | 116 => ⟨S1x32, .f32⟩
  | 117 => ⟨S1000x32, .f32⟩
  | 118 => ⟨S1000x32, .f32⟩
  | 119 => ⟨S1000x32, .f32⟩
  | 120 => ⟨S_, .f32⟩
  | 121 => ⟨S_, .f32⟩
  | 122 => ⟨S_, .f32⟩
  | 123 => ⟨S_, .f32⟩
  | 124 => ⟨S32, .f32⟩
  | 125 => ⟨S32, .f32⟩
  | 126 => ⟨S32, .f32⟩
  | 127 => ⟨S_, .f32⟩
  | _ => ⟨S1000x32x2048, .f32⟩

abbrev hbmTy0_1 (i : Nat) : BufTy := match i % 128 with
  | 0 => ⟨S_, .i1⟩
  | 1 => ⟨S_, .f32⟩
  | 2 => ⟨S_, .f32⟩
  | 3 => ⟨S32, .f32⟩
  | 4 => ⟨S32, .f32⟩
  | 5 => ⟨S32, .f32⟩
  | 6 => ⟨S_, .f32⟩
  | 7 => ⟨S32, .f32⟩
  | 8 => ⟨S32, .i1⟩
  | 9 => ⟨S_, .f32⟩
  | 10 => ⟨S32, .f32⟩
  | 11 => ⟨S32, .f32⟩
  | 12 => ⟨S32, .f32⟩
  | 13 => ⟨S_, .f32⟩
  | 14 => ⟨S_, .f32⟩
  | 15 => ⟨S32, .f32⟩
  | 16 => ⟨S32, .f32⟩
  | _ => ⟨S1000x32x2048, .f32⟩

abbrev hbmTy (i : Nat) : BufTy := match i / 128 with
  | 0 => hbmTy0_0 i
  | 1 => hbmTy0_1 i
  | _ => ⟨S1000x32x2048, .f32⟩

abbrev bufTy : (tb : Table) → Fin (tcTables nBuf tb) → BufTy
  | .hbm, ⟨i, _⟩ => hbmTy i
  | _, _ => ⟨S1000x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_call1_c : Ref sig .tc := ⟨.hbm, 22, rfl⟩
abbrev main_call1_v0 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_15 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_16 : Ref sig .tc := ⟨.hbm, 74, rfl⟩
abbrev main_call3_v0 : Ref sig .tc := ⟨.hbm, 75, rfl⟩
abbrev main_call3_v1 : Ref sig .tc := ⟨.hbm, 76, rfl⟩
abbrev main_v48 : Ref sig .tc := ⟨.hbm, 77, rfl⟩
abbrev main_cst_17 : Ref sig .tc := ⟨.hbm, 78, rfl⟩
abbrev main_v49 : Ref sig .tc := ⟨.hbm, 79, rfl⟩
abbrev main_call4_v0 : Ref sig .tc := ⟨.hbm, 80, rfl⟩
abbrev main_call4_v1 : Ref sig .tc := ⟨.hbm, 81, rfl⟩
abbrev main_v50 : Ref sig .tc := ⟨.hbm, 82, rfl⟩
abbrev main_cst_18 : Ref sig .tc := ⟨.hbm, 83, rfl⟩
abbrev main_v51 : Ref sig .tc := ⟨.hbm, 84, rfl⟩
abbrev main_cst_19 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_20 : Ref sig .tc := ⟨.hbm, 91, rfl⟩
abbrev main_v57 : Ref sig .tc := ⟨.hbm, 92, rfl⟩
abbrev main_cst_21 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_22 : Ref sig .tc := ⟨.hbm, 100, rfl⟩
abbrev main_v64 : Ref sig .tc := ⟨.hbm, 101, rfl⟩
abbrev main_v65 : Ref sig .tc := ⟨.hbm, 102, rfl⟩
abbrev main_cst_23 : Ref sig .tc := ⟨.hbm, 103, rfl⟩
abbrev main_v66 : Ref sig .tc := ⟨.hbm, 104, rfl⟩
abbrev main_v67 : Ref sig .tc := ⟨.hbm, 105, rfl⟩
abbrev main_cst_24 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_25 : Ref sig .tc := ⟨.hbm, 110, rfl⟩
abbrev main_call5_call0_cst : Ref sig .tc := ⟨.hbm, 111, rfl⟩
abbrev main_call5_call0_v0 : Ref sig .tc := ⟨.hbm, 112, rfl⟩
abbrev main_call5_call0_v1 : Ref sig .tc := ⟨.hbm, 113, rfl⟩
abbrev main_call5_call0_cst_0 : Ref sig .tc := ⟨.hbm, 114, rfl⟩
abbrev main_call5_call0_v2 : Ref sig .tc := ⟨.hbm, 115, rfl⟩
abbrev main_call5_call0_v3 : Ref sig .tc := ⟨.hbm, 116, rfl⟩
abbrev main_call5_call0_v4 : Ref sig .tc := ⟨.hbm, 117, rfl⟩
abbrev main_call5_call0_v5 : Ref sig .tc := ⟨.hbm, 118, rfl⟩
abbrev main_call5_call0_v6 : Ref sig .tc := ⟨.hbm, 119, rfl⟩
abbrev main_call5_call0_v7 : Ref sig .tc := ⟨.hbm, 120, rfl⟩
abbrev main_call5_call0_cst_1 : Ref sig .tc := ⟨.hbm, 121, rfl⟩
abbrev main_call5_call0_v8 : Ref sig .tc := ⟨.hbm, 122, rfl⟩
abbrev main_call5_call0_cst_2 : Ref sig .tc := ⟨.hbm, 123, rfl⟩
abbrev main_call5_call0_v9 : Ref sig .tc := ⟨.hbm, 124, rfl⟩
abbrev main_call5_call0_v10 : Ref sig .tc := ⟨.hbm, 125, rfl⟩
abbrev main_call5_call0_v11 : Ref sig .tc := ⟨.hbm, 126, rfl⟩
abbrev main_call5_call0_cst_3 : Ref sig .tc := ⟨.hbm, 127, rfl⟩
abbrev main_call5_call0_v12 : Ref sig .tc := ⟨.hbm, 128, rfl⟩
abbrev main_call5_call0_cst_4 : Ref sig .tc := ⟨.hbm, 129, rfl⟩
abbrev main_call5_call0_call0_v0 : Ref sig .tc := ⟨.hbm, 130, rfl⟩
abbrev main_call5_call0_call0_v1 : Ref sig .tc := ⟨.hbm, 131, rfl⟩
abbrev main_call5_v0 : Ref sig .tc := ⟨.hbm, 132, rfl⟩
abbrev main_v71 : Ref sig .tc := ⟨.hbm, 133, rfl⟩
abbrev main_cst_26 : Ref sig .tc := ⟨.hbm, 134, rfl⟩
abbrev main_v72 : Ref sig .tc := ⟨.hbm, 135, rfl⟩
abbrev main_v73 : Ref sig .tc := ⟨.hbm, 136, rfl⟩
abbrev main_cst_27 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_28 : Ref sig .tc := ⟨.hbm, 141, rfl⟩
abbrev main_call6_v0 : Ref sig .tc := ⟨.hbm, 142, rfl⟩
abbrev main_call6_v1 : Ref sig .tc := ⟨.hbm, 143, rfl⟩
abbrev main_v77 : Ref sig .tc := ⟨.hbm, 144, rfl⟩

abbrev nD : Nat := 1
abbrev τ : Topo := Topo.v7x

variable {F : FTy → Type} [FloatOps F]

class Facts₀ : Prop where
  reducesTo_S1000x32x2048_S32x2048_d0 : S1000x32x2048.ReducesTo [0] S32x2048
  h_S_ : 0 < S_.numel
  bcast_S_S32x2048 : S_.BroadcastsInDim S32x2048 (![] : Fin 0 → Fin S32x2048.rank)
  reducesTo_S32x2048_S32_d1 : S32x2048.ReducesTo [1] S32
  bcast_S_S1000x32x2048 : S_.BroadcastsInDim S1000x32x2048 (![] : Fin 0 → Fin S1000x32x2048.rank)
  bcast_S1000_S1000x1x1_0 : S1000.BroadcastsInDim S1000x1x1 (![0] : Fin 1 → Fin S1000x1x1.rank)
  bcast_S1000x1x1_S1000x32x2048_0_1_2 : S1000x1x1.BroadcastsInDim S1000x32x2048 (![0, 1, 2] : Fin 3 → Fin S1000x32x2048.rank)
  bcast_S_S_ : S_.BroadcastsInDim S_ (![] : Fin 0 → Fin S_.rank)
  reduceWindows_S1000x32x2048_S1000x32x2048_w1000s1p999_0_w1s1p0_0_w1s1p0_0 : S1000x32x2048.ReduceWindows (![1000, 1, 1] : Fin 3 → Nat) ![1, 1, 1] ![999, 0, 0] ![0, 0, 0] S1000x32x2048
  bcast_S_S1x32x2048 : S_.BroadcastsInDim S1x32x2048 (![] : Fin 0 → Fin S1x32x2048.rank)
  slices_S1000x32x2048_S999x32x2048_0_0_0 : S1000x32x2048.Slices ![0, 0, 0] S999x32x2048
  concatenates_S1x32x2048_S999x32x2048_S1000x32x2048_d0 : Shape.Concatenates [S1x32x2048, S999x32x2048] S1000x32x2048 0
  natLt_1_32 : 1 < 32
  reducesTo_S1000x32x2048_S1000x32_d2 : S1000x32x2048.ReducesTo [2] S1000x32
  slices_S1000x32_S1x32_999_0 : S1000x32.Slices ![999, 0] S1x32
  slices_S1000x32_S999x32_0_0 : S1000x32.Slices ![0, 0] S999x32
  concatenates_S1x32_S999x32_S1000x32_d0 : Shape.Concatenates [S1x32, S999x32] S1000x32 0
  reducesTo_S1000x32_S32_d0 : S1000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S1x32_S1000x32_0_1 : S1x32.BroadcastsInDim S1000x32 (![0, 1] : Fin 2 → Fin S1000x32.rank)
  bcast_S_S1x32 : S_.BroadcastsInDim S1x32 (![] : Fin 0 → Fin S1x32.rank)

variable [Facts₀]

class Facts : Prop extends Facts₀ where

variable [Facts]
-- ==== Proof.BitsScan.Shared.lean ====
/-
  What the whole-body runs of the scan kernel are stated over: the two conditions the body branches on, read off
  the grid coordinate. The grid has 25 points, one per block of 40 time steps. At the FIRST point the body resets its
  running state (the spike total, the sums of gaps and squared gaps, the gap count, and the "time of the last spike"
  carry, set to -1); at the LAST point it turns the running sums into the coefficient of variation.
-/
import proofs.«161861_j30580167147909_1_alg».proof.Proof.Gen.Kernel.Launch
import proofs.«161861_j30580167147909_1_alg».proof.Proof.Gen.Kernel.Skeleton
import proofs.«161861_j30580167147909_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch is taken: the point is the grid's first (block 0 of the time axis). -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- The body's last branch is taken: the point is the grid's last (block 24). -/
abbrev condLast (i : grid0.Coords) : Prop := k0_cond2 i = 1#1
/-- It holds at point 24 only. -/
theorem hcondLast : ∀ t : Fin cfg0.N, condLast (grid0.coords t) ↔ t.val = 24 :=
  (by decide +kernel : ∀ t : Fin grid0.N, condLast (grid0.coords t) ↔ t.val = 24)

end Cert.Kernel.Hand

end
-- ==== Proof.BitsScan.Layout.lean ====
/-
  The scan kernel's program around its one launch: no host operation comes before the launch and seventy-four come
  after it (the firing rates and active-neuron counts from the spike totals; the lag-one circular autocorrelation of the
  population signal). Stated here: the buffer contents the launch finds, that the later operations only touch host
  buffers, allocate nothing and overwrite none of the launch's four arrays, each window's block at a grid point, the
  staging and scratch memrefs the body is called with, and where the coefficient-of-variation window is idle
  (everywhere but the last point).
-/
import proofs.«161861_j30580167147909_1_alg».proof.Proof.BitsScan.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- Core `c`'s buffer contents when the launch is entered: the launch memory (nothing runs before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

set_option maxHeartbeats 8000000 in
/-- The program is the launch continued by the six stretches of later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [] [hostOps1, hostOps1_1, hostOps1_2, hostOps1_3, hostOps1_4, hostOps1_5] (by simp only [List.Forall])
    (by simp only [List.Forall]) main_chain

/-- The later operations touch the launch's arrays and the other host buffers only. -/
theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ ([hostOps1, hostOps1_1, hostOps1_2, hostOps1_3, hostOps1_4, hostOps1_5] : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

set_option maxHeartbeats 1600000 in
/-- And none of them writes one of the launch's four arrays: each writes its own result buffer only. -/
theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl

/-! ## The windows' blocks -/

/-- Window `w`'s block at point `t`, read off its array as the launch finds it: for the input, time steps
    `40 t` to `40 t + 39` of the spike history. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## Where the coefficient-of-variation window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Before the last point the body stores nothing into it: the window is idle, -/
theorem idleAt0_2 : ∀ t : Fin cfg0.N, ¬condLast (grid0.coords t) → cfg0.idle 2 (grid0.coords t) = true := by decide +kernel
/-- and not written back. -/
theorem noFlush0_2 : ∀ t : Fin cfg0.N, ¬condLast (grid0.coords t) → (cfg0.win 2).flush t = false := by decide +kernel
/-- At the last point it is live. -/
theorem liveAt0_2 : ∀ t : Fin cfg0.N, condLast (grid0.coords t) → cfg0.idle 2 (grid0.coords t) = false := by decide +kernel

/-! ## The memrefs the body is called with -/

abbrev VO0_1 : View sig .tc .vmem S32x2048 .f32 := (Memref.whole cc0_stg1_0 : Memref sig .tc .vmem S32x2048 .f32).view
abbrev VO0_2 : View sig .tc .vmem S32x2048 .f32 := (Memref.whole cc0_stg2_0 : Memref sig .tc .vmem S32x2048 .f32).view
abbrev VO0_3 : View sig .tc .vmem S40x32 .f32 := (Memref.whole cc0_stg3_0 : Memref sig .tc .vmem S40x32 .f32).view
abbrev ms0_0 (t : Fin cfg0.N) : Memref sig .tc .vmem S40x32x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x32 .f32 := win0_3.stage (cfg0.slots t 3)
abbrev hs0_3 (t : Fin cfg0.N) : (ms0_3 t).IsWhole := hstage0_3 ((cfg0.slots t 3).cast nbuf0_3)
/-- The scratch operands: the "time of the last spike" carry, the sum of gaps, the sum of squared gaps, the gap count. -/
abbrev scM0_0 : Memref sig .tc .vmem S32x2048 .i32 := Memref.whole cc0_scratch0
abbrev scM0_1 : Memref sig .tc .vmem S32x2048 .f32 := Memref.whole cc0_scratch1
abbrev scM0_2 : Memref sig .tc .vmem S32x2048 .f32 := Memref.whole cc0_scratch2
abbrev scM0_3 : Memref sig .tc .vmem S32x2048 .f32 := Memref.whole cc0_scratch3
abbrev VS0_0 : View sig .tc .vmem S32x2048 .i32 := scM0_0.view
abbrev VS0_1 : View sig .tc .vmem S32x2048 .f32 := scM0_1.view
abbrev VS0_2 : View sig .tc .vmem S32x2048 .f32 := scM0_2.view
abbrev VS0_3 : View sig .tc .vmem S32x2048 .f32 := scM0_3.view

/-- What the launch hands the body beside the windows: the four scratch buffers at some contents, and the generator
    register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.BitsScan.RunFirst.lean ====
/-
  The scan kernel's body run whole at the FIRST grid point (time steps 0 to 39): the running state is reset — the
  spike total and the three running sums to zero, the "time of the last spike" carry to -1 — and then the block is
  processed as at any point. Nothing the body reads of a buffer's earlier contents reaches a store, so every stored
  buffer may start at anything.
-/
import proofs.«161861_j30580167147909_1_alg».proof.Proof.BitsScan.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point, on whole memrefs — the input block at `x0`, the coefficient-of-variation buffer handed back
    untouched (`xi2`), every other buffer at anything — the body runs, the reset branch taken and the closing branch
    not, to the continuation holding the input as it was and every stored buffer with its pieces written. -/
noncomputable def runFirst (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    Σ' (L1 : List (View.Piece (Elt F) S32x2048 .f32)) (L3 : List (View.Piece (Elt F) S40x32 .f32)) (LS0 : List (View.Piece (Elt F) S32x2048 .i32)) (LS1 : List (View.Piece (Elt F) S32x2048 .f32)) (LS2 : List (View.Piece (Elt F) S32x2048 .f32)), { LS3 : List (View.Piece (Elt F) S32x2048 .f32) //
      ∀ (xi2 : Vec F S32x2048 .f32) (E : Set ℕ) (K : PUnit → sProp 𝕄),
        iprop(owns (c : Thread nD τ) arg1 fullShare x0 ∗ (∃ d, owns (c : Thread nD τ) arg2 fullShare d) ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, ?_, ?_, fun xi2 E K => ?run⟩
  case run =>
    simp only [cc0__kernel_eq_skeleton]; unfold cc0__kernel_skel
    unfold owns
    iintro ⟨⟨%f1, %hf1, H1⟩, ⟨%d2, %f2, -, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg3.eq_unread hf3
    sl_exec_parts (disch := first | exact hc0 | exact hc1)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Hand

end
-- ==== Proof.BitsScan.RunMid.lean ====
/-
  The scan kernel's body run whole at a MIDDLE grid point (neither the first nor the last block of 40 time steps):
  the block's 40 time slices are added into the running spike total, summed over neurons into the block's 40 rows
  of the population signal, and scanned in time order, each slice updating the "time of the last spike" carry and the
  running sums of gaps, squared gaps and the gap count. The run holds the input block as it was and finds, for each
  buffer the body stores into, the pieces it ends with.
-/
import proofs.«161861_j30580167147909_1_alg».proof.Proof.BitsScan.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle point, on whole memrefs — the input block at `x0`, the running total at what the point before left
    (`xo1`), the coefficient-of-variation buffer at anything and handed back untouched (`xi2`), the population rows'
    buffer at anything, the four scratch buffers at what the point before left (`xs·`) — the body runs, neither branch
    taken, to the continuation holding the input as it was and every stored buffer with its pieces written. -/
noncomputable def runMid (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    Σ' (L1 : List (View.Piece (Elt F) S32x2048 .f32)) (L3 : List (View.Piece (Elt F) S40x32 .f32)) (LS0 : List (View.Piece (Elt F) S32x2048 .i32)) (LS1 : List (View.Piece (Elt F) S32x2048 .f32)) (LS2 : List (View.Piece (Elt F) S32x2048 .f32)), { LS3 : List (View.Piece (Elt F) S32x2048 .f32) //
      ∀ (xi2 : Vec F S32x2048 .f32) (E : Set ℕ) (K : PUnit → sProp 𝕄),
        iprop(owns (c : Thread nD τ) arg1 fullShare x0 ∗ owns (c : Thread nD τ) arg2 fullShare xo1 ∗ owns (c : Thread nD τ) arg3 fullShare xi2 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, ?_, ?_, fun xi2 E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7; obtain rfl := harg8.eq_unread hf8
    sl_exec_parts (disch := first | exact hc0 | exact hc1)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Hand

end
-- ==== Proof.BitsScan.RunLast.lean ====
/-
  The scan kernel's body run whole at the LAST grid point (time steps 960 to 999): the block is processed as at any
  point, and then the running sums — the gap count, the sum of gaps and the sum of squared gaps — are turned into the
  coefficient of variation (the root of the unbiased variance over the mean, zero where there was no gap), stored whole
  into its buffer.
-/
import proofs.«161861_j30580167147909_1_alg».proof.Proof.BitsScan.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last point, on whole memrefs — the input block at `x0`, the running total at what the point before left
    (`xo1`), the coefficient-of-variation buffer and the population rows' buffer at anything, the four scratch
    buffers at what the point before left (`xs·`) — the body runs, the reset branch not taken and the closing branch
    taken, to the continuation holding the input as it was and every stored buffer with its pieces written. -/
noncomputable def runLast (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    Σ' (L1 : List (View.Piece (Elt F) S32x2048 .f32)) (L2 : List (View.Piece (Elt F) S32x2048 .f32)) (L3 : List (View.Piece (Elt F) S40x32 .f32)) (LS0 : List (View.Piece (Elt F) S32x2048 .i32)) (LS1 : List (View.Piece (Elt F) S32x2048 .f32)) (LS2 : List (View.Piece (Elt F) S32x2048 .f32)), { LS3 : List (View.Piece (Elt F) S32x2048 .f32) //
      ∀ (E : Set ℕ) (K : PUnit → sProp 𝕄),
        iprop(owns (c : Thread nD τ) arg1 fullShare x0 ∗ owns (c : Thread nD τ) arg2 fullShare xo1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0__kernel_eq_skeleton]; unfold cc0__kernel_skel
    unfold owns
    iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2
    obtain rfl := harg5.eq_unread hf5; obtain rfl := harg6.eq_unread hf6; obtain rfl := harg7.eq_unread hf7; obtain rfl := harg8.eq_unread hf8
    sl_exec_parts (disch := first | exact hc0 | exact hc1)
    sl_step
    iapply Hk
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.Kernel.Hand

end
-- ==== Proof.BitsScan.Frame.lean ====
/-
  The scan kernel's run, point by point. Its body keeps state between grid points: the running spike total (an output
  window resident over the whole grid and written back once, after the last point) and four scratch buffers — the
  time of the last spike, the sum of gaps, the sum of squared gaps and the gap count. What every buffer holds after
  point `n` is therefore defined by recursion on `n`: at point 0 what the first-point run leaves, at a later point what
  the middle-point (or, at point 24, the last-point) run leaves when started from what point `n - 1` left. With that,
  the body meets the launch's obligation at every point, the program runs to the end, and its argument array is
  unchanged.
-/
import proofs.«161861_j30580167147909_1_alg».proof.Proof.BitsScan.Layout
import proofs.«161861_j30580167147909_1_alg».proof.Proof.BitsScan.RunFirst
import proofs.«161861_j30580167147909_1_alg».proof.Proof.BitsScan.RunMid
import proofs.«161861_j30580167147909_1_alg».proof.Proof.BitsScan.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in each buffer -/

/-- At the first point the body's stores into the buffer of the running spike total tile it, so they cover it. -/
theorem covF_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).1, y ∈ pc.1.set :=
  View.cover_of_tiledL (runFirst c i arg1 harg1 arg2 harg2 arg3 harg3 arg4 harg4 arg5 harg5 arg6 harg6 arg7 harg7 arg8 harg8 hc0 hc1 x0).1 S32x2048.size (by sl_kernel_rfl) y

/-- What the body leaves at the first point in the buffer of the running spike total: its stores read back. -/
def valF_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VO0_1.read (Elt F) (VO0_1.writes (Elt F) VO0_1.junk (runFirst c i arg1 harg1 arg2 harg2 arg3 harg3 arg4 harg4 arg5 harg5 arg6 harg6 arg7 harg7 arg8 harg8 hc0 hc1 x0).1)

/-- At the first point the body's stores into the buffer of the block's forty rows of the population signal tile it, so they cover it. -/
theorem covF_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S40x32.Idx) :
    ∃ pc ∈ (runFirst c i arg1 harg1 arg2 harg2 arg3 harg3 arg4 harg4 arg5 harg5 arg6 harg6 arg7 harg7 arg8 harg8 hc0 hc1 x0).2.1, y ∈ pc.1.set :=
  View.cover_of_tiledL (runFirst c i arg1 harg1 arg2 harg2 arg3 harg3 arg4 harg4 arg5 harg5 arg6 harg6 arg7 harg7 arg8 harg8 hc0 hc1 x0).2.1 S40x32.size (by sl_kernel_rfl) y

/-- What the body leaves at the first point in the buffer of the block's forty rows of the population signal: its stores read back. -/
def valF_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S40x32 .f32 :=
  VO0_3.read (Elt F) (VO0_3.writes (Elt F) VO0_3.junk (runFirst c i arg1 harg1 arg2 harg2 arg3 harg3 arg4 harg4 arg5 harg5 arg6 harg6 arg7 harg7 arg8 harg8 hc0 hc1 x0).2.1)

/-- At the first point the body's stores into the buffer of the time-of-the-last-spike carry tile it, so they cover it. -/
theorem covF_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.1, y ∈ pc.1.set :=
  View.cover_of_tiledL (runFirst c i arg1 harg1 arg2 harg2 arg3 harg3 arg4 harg4 arg5 harg5 arg6 harg6 arg7 harg7 arg8 harg8 hc0 hc1 x0).2.2.1 S32x2048.size (by sl_kernel_rfl) y

/-- What the body leaves at the first point in the buffer of the time-of-the-last-spike carry: its stores read back. -/
def valF_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .i32 :=
  VS0_0.read (Elt F) (VS0_0.writes (Elt F) VS0_0.junk (runFirst c i arg1 harg1 arg2 harg2 arg3 harg3 arg4 harg4 arg5 harg5 arg6 harg6 arg7 harg7 arg8 harg8 hc0 hc1 x0).2.2.1)

/-- At the first point the body's stores into the buffer of the running sum of gaps tile it, so they cover it. -/
theorem covF_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.2.1, y ∈ pc.1.set :=
  View.cover_of_tiledL (runFirst c i arg1 harg1 arg2 harg2 arg3 harg3 arg4 harg4 arg5 harg5 arg6 harg6 arg7 harg7 arg8 harg8 hc0 hc1 x0).2.2.2.1 S32x2048.size (by sl_kernel_rfl) y

/-- What the body leaves at the first point in the buffer of the running sum of gaps: its stores read back. -/
def valF_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VS0_1.read (Elt F) (VS0_1.writes (Elt F) VS0_1.junk (runFirst c i arg1 harg1 arg2 harg2 arg3 harg3 arg4 harg4 arg5 harg5 arg6 harg6 arg7 harg7 arg8 harg8 hc0 hc1 x0).2.2.2.1)

/-- At the first point the body's stores into the buffer of the running sum of squared gaps tile it, so they cover it. -/
theorem covF_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.2.2.1, y ∈ pc.1.set :=
  View.cover_of_tiledL (runFirst c i arg1 harg1 arg2 harg2 arg3 harg3 arg4 harg4 arg5 harg5 arg6 harg6 arg7 harg7 arg8 harg8 hc0 hc1 x0).2.2.2.2.1 S32x2048.size (by sl_kernel_rfl) y

/-- What the body leaves at the first point in the buffer of the running sum of squared gaps: its stores read back. -/
def valF_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VS0_2.read (Elt F) (VS0_2.writes (Elt F) VS0_2.junk (runFirst c i arg1 harg1 arg2 harg2 arg3 harg3 arg4 harg4 arg5 harg5 arg6 harg6 arg7 harg7 arg8 harg8 hc0 hc1 x0).2.2.2.2.1)

/-- At the first point the body's stores into the buffer of the running gap count tile it, so they cover it. -/
theorem covF_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.2.2.2.1, y ∈ pc.1.set :=
  View.cover_of_tiledL (runFirst c i arg1 harg1 arg2 harg2 arg3 harg3 arg4 harg4 arg5 harg5 arg6 harg6 arg7 harg7 arg8 harg8 hc0 hc1 x0).2.2.2.2.2.1 S32x2048.size (by sl_kernel_rfl) y

/-- What the body leaves at the first point in the buffer of the running gap count: its stores read back. -/
def valF_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VS0_3.read (Elt F) (VS0_3.writes (Elt F) VS0_3.junk (runFirst c i arg1 harg1 arg2 harg2 arg3 harg3 arg4 harg4 arg5 harg5 arg6 harg6 arg7 harg7 arg8 harg8 hc0 hc1 x0).2.2.2.2.2.1)

/-- At a middle point the body's stores into the buffer of the running spike total tile it, so they cover it. -/
theorem covM_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).1 S32x2048.size (by sl_kernel_rfl) y

/-- What the body leaves at a middle point in the buffer of the running spike total: its stores read back. -/
def valM_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VO0_1.read (Elt F) (VO0_1.writes (Elt F) VO0_1.junk (runMid c i arg1 harg1 arg2 harg2 arg3 harg3 arg4 harg4 arg5 harg5 arg6 harg6 arg7 harg7 arg8 harg8 hc0 hc1 x0 xo1 xs0 xs1 xs2 xs3).1)

/-- At a middle point the body's stores into the buffer of the block's forty rows of the population signal tile it, so they cover it. -/
theorem covM_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S40x32.Idx) :
    ∃ pc ∈ (runMid c i arg1 harg1 arg2 harg2 arg3 harg3 arg4 harg4 arg5 harg5 arg6 harg6 arg7 harg7 arg8 harg8 hc0 hc1 x0 xo1 xs0 xs1 xs2 xs3).2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.1 S40x32.size (by sl_kernel_rfl) y

/-- What the body leaves at a middle point in the buffer of the block's forty rows of the population signal: its stores read back. -/
def valM_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S40x32 .f32 :=
  VO0_3.read (Elt F) (VO0_3.writes (Elt F) VO0_3.junk (runMid c i arg1 harg1 arg2 harg2 arg3 harg3 arg4 harg4 arg5 harg5 arg6 harg6 arg7 harg7 arg8 harg8 hc0 hc1 x0 xo1 xs0 xs1 xs2 xs3).2.1)

/-- At a middle point the body's stores into the buffer of the time-of-the-last-spike carry tile it, so they cover it. -/
theorem covM_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.1 S32x2048.size (by sl_kernel_rfl) y

/-- What the body leaves at a middle point in the buffer of the time-of-the-last-spike carry: its stores read back. -/
def valM_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .i32 :=
  VS0_0.read (Elt F) (VS0_0.writes (Elt F) VS0_0.junk (runMid c i arg1 harg1 arg2 harg2 arg3 harg3 arg4 harg4 arg5 harg5 arg6 harg6 arg7 harg7 arg8 harg8 hc0 hc1 x0 xo1 xs0 xs1 xs2 xs3).2.2.1)

/-- At a middle point the body's stores into the buffer of the running sum of gaps tile it, so they cover it. -/
theorem covM_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.2.1 S32x2048.size (by sl_kernel_rfl) y

/-- What the body leaves at a middle point in the buffer of the running sum of gaps: its stores read back. -/
def valM_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VS0_1.read (Elt F) (VS0_1.writes (Elt F) VS0_1.junk (runMid c i arg1 harg1 arg2 harg2 arg3 harg3 arg4 harg4 arg5 harg5 arg6 harg6 arg7 harg7 arg8 harg8 hc0 hc1 x0 xo1 xs0 xs1 xs2 xs3).2.2.2.1)

/-- At a middle point the body's stores into the buffer of the running sum of squared gaps tile it, so they cover it. -/
theorem covM_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.2.2.1 S32x2048.size (by sl_kernel_rfl) y

/-- What the body leaves at a middle point in the buffer of the running sum of squared gaps: its stores read back. -/
def valM_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VS0_2.read (Elt F) (VS0_2.writes (Elt F) VS0_2.junk (runMid c i arg1 harg1 arg2 harg2 arg3 harg3 arg4 harg4 arg5 harg5 arg6 harg6 arg7 harg7 arg8 harg8 hc0 hc1 x0 xo1 xs0 xs1 xs2 xs3).2.2.2.2.1)

/-- At a middle point the body's stores into the buffer of the running gap count tile it, so they cover it. -/
theorem covM_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.2.2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.2.2.2.1 S32x2048.size (by sl_kernel_rfl) y

/-- What the body leaves at a middle point in the buffer of the running gap count: its stores read back. -/
def valM_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VS0_3.read (Elt F) (VS0_3.writes (Elt F) VS0_3.junk (runMid c i arg1 harg1 arg2 harg2 arg3 harg3 arg4 harg4 arg5 harg5 arg6 harg6 arg7 harg7 arg8 harg8 hc0 hc1 x0 xo1 xs0 xs1 xs2 xs3).2.2.2.2.2.1)

/-- At the last point the body's stores into the buffer of the running spike total tile it, so they cover it. -/
theorem covL_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).1 S32x2048.size (by sl_kernel_rfl) y

/-- What the body leaves at the last point in the buffer of the running spike total: its stores read back. -/
def valL_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VO0_1.read (Elt F) (VO0_1.writes (Elt F) VO0_1.junk (runLast c i arg1 harg1 arg2 harg2 arg3 harg3 arg4 harg4 arg5 harg5 arg6 harg6 arg7 harg7 arg8 harg8 hc0 hc1 x0 xo1 xs0 xs1 xs2 xs3).1)

/-- At the last point the body's stores into the buffer of the coefficient of variation tile it, so they cover it. -/
theorem covL_o2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.1 S32x2048.size (by sl_kernel_rfl) y

/-- What the body leaves at the last point in the buffer of the coefficient of variation: its stores read back. -/
def valL_o2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VO0_2.read (Elt F) (VO0_2.writes (Elt F) VO0_2.junk (runLast c i arg1 harg1 arg2 harg2 arg3 harg3 arg4 harg4 arg5 harg5 arg6 harg6 arg7 harg7 arg8 harg8 hc0 hc1 x0 xo1 xs0 xs1 xs2 xs3).2.1)

/-- At the last point the body's stores into the buffer of the block's forty rows of the population signal tile it, so they cover it. -/
theorem covL_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S40x32.Idx) :
    ∃ pc ∈ (runLast c i arg1 harg1 arg2 harg2 arg3 harg3 arg4 harg4 arg5 harg5 arg6 harg6 arg7 harg7 arg8 harg8 hc0 hc1 x0 xo1 xs0 xs1 xs2 xs3).2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.1 S40x32.size (by sl_kernel_rfl) y

/-- What the body leaves at the last point in the buffer of the block's forty rows of the population signal: its stores read back. -/
def valL_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S40x32 .f32 :=
  VO0_3.read (Elt F) (VO0_3.writes (Elt F) VO0_3.junk (runLast c i arg1 harg1 arg2 harg2 arg3 harg3 arg4 harg4 arg5 harg5 arg6 harg6 arg7 harg7 arg8 harg8 hc0 hc1 x0 xo1 xs0 xs1 xs2 xs3).2.2.1)

/-- At the last point the body's stores into the buffer of the time-of-the-last-spike carry tile it, so they cover it. -/
theorem covL_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.1 S32x2048.size (by sl_kernel_rfl) y

/-- What the body leaves at the last point in the buffer of the time-of-the-last-spike carry: its stores read back. -/
def valL_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .i32 :=
  VS0_0.read (Elt F) (VS0_0.writes (Elt F) VS0_0.junk (runLast c i arg1 harg1 arg2 harg2 arg3 harg3 arg4 harg4 arg5 harg5 arg6 harg6 arg7 harg7 arg8 harg8 hc0 hc1 x0 xo1 xs0 xs1 xs2 xs3).2.2.2.1)

/-- At the last point the body's stores into the buffer of the running sum of gaps tile it, so they cover it. -/
theorem covL_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.2.1 S32x2048.size (by sl_kernel_rfl) y

/-- What the body leaves at the last point in the buffer of the running sum of gaps: its stores read back. -/
def valL_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VS0_1.read (Elt F) (VS0_1.writes (Elt F) VS0_1.junk (runLast c i arg1 harg1 arg2 harg2 arg3 harg3 arg4 harg4 arg5 harg5 arg6 harg6 arg7 harg7 arg8 harg8 hc0 hc1 x0 xo1 xs0 xs1 xs2 xs3).2.2.2.2.1)

/-- At the last point the body's stores into the buffer of the running sum of squared gaps tile it, so they cover it. -/
theorem covL_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.2.2.1 S32x2048.size (by sl_kernel_rfl) y

/-- What the body leaves at the last point in the buffer of the running sum of squared gaps: its stores read back. -/
def valL_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VS0_2.read (Elt F) (VS0_2.writes (Elt F) VS0_2.junk (runLast c i arg1 harg1 arg2 harg2 arg3 harg3 arg4 harg4 arg5 harg5 arg6 harg6 arg7 harg7 arg8 harg8 hc0 hc1 x0 xo1 xs0 xs1 xs2 xs3).2.2.2.2.2.1)

/-- At the last point the body's stores into the buffer of the running gap count tile it, so they cover it. -/
theorem covL_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.2.2.2.1 S32x2048.size (by sl_kernel_rfl) y

/-- What the body leaves at the last point in the buffer of the running gap count: its stores read back. -/
def valL_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VS0_3.read (Elt F) (VS0_3.writes (Elt F) VS0_3.junk (runLast c i arg1 harg1 arg2 harg2 arg3 harg3 arg4 harg4 arg5 harg5 arg6 harg6 arg7 harg7 arg8 harg8 hc0 hc1 x0 xo1 xs0 xs1 xs2 xs3).2.2.2.2.2.2.1)

/-! ## The state after each point -/

/-- What the three output windows' staging buffers and the four scratch buffers hold after the body at a point. -/
structure Outs (F : FTy → Type) [FloatOps F] where
  /-- the running spike total -/
  o1 : Vec F S32x2048 .f32
  /-- the coefficient of variation (meaningful after the last point only) -/
  o2 : Vec F S32x2048 .f32
  /-- the block's forty rows of the population signal -/
  o3 : Vec F S40x32 .f32
  /-- the time of the last spike, or -1 -/
  s0 : Vec F S32x2048 .i32
  /-- the running sum of gaps -/
  s1 : Vec F S32x2048 .f32
  /-- the running sum of squared gaps -/
  s2 : Vec F S32x2048 .f32
  /-- the running gap count -/
  s3 : Vec F S32x2048 .f32

/-- THE RECURRENCE over grid points: the state after point `n`. -/
def outsAt0 (c : Dev nD) : (n : ℕ) → n < cfg0.N → Outs F
  | 0, hn => {
      o1 := valF_o1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      o2 := VO0_2.read (Elt F) VO0_2.junk,
      o3 := valF_o3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s0 := valF_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s1 := valF_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s2 := valF_s2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s3 := valF_s3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩) }
  | n + 1, hn =>
    if h1 : n + 1 = 24 then
      {
      o1 := valL_o1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      o2 := valL_o2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      o3 := valL_o3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s0 := valL_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s1 := valL_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s2 := valL_s2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s3 := valL_s3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3 }
    else
      {
      o1 := valM_o1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      o2 := VO0_2.read (Elt F) VO0_2.junk,
      o3 := valM_o3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s0 := valM_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s1 := valM_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s2 := valM_s2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s3 := valM_s3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3 }

/-- The state after the first point. -/
theorem outsAt0_F (c : Dev nD) (t : Fin cfg0.N) (h0 : t.val = 0) :
    outsAt0 m c t.val t.isLt = {
      o1 := valF_o1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      o2 := VO0_2.read (Elt F) VO0_2.junk,
      o3 := valF_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s0 := valF_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s1 := valF_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s2 := valF_s2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s3 := valF_s3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t) } := by
  obtain ⟨n, hn⟩ := t
  cases n with
  | zero => exact rfl
  | succ n => exact absurd h0 (Nat.succ_ne_zero n)

/-- The state after a middle point, over what the point before left. -/
theorem outsAt0_M (c : Dev nD) (t : Fin cfg0.N) (h0 : ¬t.val = 0) (h1 : ¬t.val = 24) :
    outsAt0 m c t.val t.isLt = {
      o1 := valM_o1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      o2 := VO0_2.read (Elt F) VO0_2.junk,
      o3 := valM_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s0 := valM_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s1 := valM_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s2 := valM_s2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s3 := valM_s3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3 } := by
  obtain ⟨n, hn⟩ := t
  cases n with
  | zero => exact absurd rfl h0
  | succ n => exact (dif_neg h1).trans rfl

/-- The state after the last point, over what the point before left. -/
theorem outsAt0_L (c : Dev nD) (t : Fin cfg0.N) (h0 : ¬t.val = 0) (h1 : t.val = 24) :
    outsAt0 m c t.val t.isLt = {
      o1 := valL_o1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      o2 := valL_o2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      o3 := valL_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s0 := valL_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s1 := valL_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s2 := valL_s2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s3 := valL_s3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3 } := by
  obtain ⟨n, hn⟩ := t
  cases n with
  | zero => exact absurd rfl h0
  | succ n => exact (dif_pos h1).trans rfl

/-- What the body holds beside the windows before point `n`: before the first point the scratch buffers at anything;
    afterwards each at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3)) ∗ (∃ r, prngReg c r)) := by
  cases n with
  | zero => exact absurd rfl hz
  | succ n => rfl

/-! ## The launch's proof data -/

/-- The arrays as the launch finds them; after the body at point `t` the input's buffer at its block and the outputs'
    at the recurrence's values; beside the windows, `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).o1
    | ⟨2, _⟩ => (outsAt0 m c t.val t.isLt).o2
    | ⟨3, _⟩ => (outsAt0 m c t.val t.isLt).o3
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).o1 := by dsimp only [dats]
theorem after0_2 (c : Dev nD) (t : Fin cfg0.N) : (dats m 0 c).after 2 t = (outsAt0 m c t.val t.isLt).o2 := by dsimp only [dats]
theorem after0_3 (c : Dev nD) (t : Fin cfg0.N) : (dats m 0 c).after 3 t = (outsAt0 m c t.val t.isLt).o3 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- After the first point the running total's buffer holds what the body left at the point before: the window is
    resident, live everywhere, and written back only after the last point. -/
theorem before0_1_pos (c : Dev nD) (t : Fin cfg0.N) (h0 : ¬t.val = 0) (d) :
    (dats m 0 c).before 1 t d = (outsAt0 m c (t.val - 1) (Nat.lt_of_le_of_lt (Nat.sub_le _ _) t.isLt)).o1 := by
  have hN : t.val < 25 := lt_of_lt_of_eq t.isLt (show cfg0.N = 25 from N_0)
  rw [Dat.before_out_kept _ 1 rfl t h0 (Bool.eq_false_iff.mpr fun h => by have := (flush0_1 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. The input's memref holds its block; the point is the first, a middle one or the last;
    after the first the running total's memref and the four scratch buffers hold what the point before left; so that
    case's run applies, and hands every stored buffer back at this point's value of the recurrence (its stores cover
    the buffer). The coefficient-of-variation window is handed back untouched before the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases hz : t.val = 0
  · have hl : ¬t.val = 24 := by omega
    rw [Dat.leavesExact_idle (dats m 0 c) 2 t (idleAt0_2 t (fun h => hl ((hcondLast t).mp h))) (noFlush0_2 t (fun h => hl ((hcondLast t).mp h)))]
    rw [outsAt0_F m c t hz]
    unfold valF_o1 valF_o3 valF_s0 valF_s1 valF_s2 valF_s3; (try dsimp only)
    rw [PhiS_castSucc m c t, PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩⟩
    iapply ((runFirst c (grid0.coords t) _ _ _ _ _ _ _ _ _ _ _ _ _ _ _ _ ((hcondFirst t).mpr hz) (fun h => hl ((hcondLast t).mp h)) (iblk m c 0 t)).2.2.2.2.2.2 _ Set.univ _)
    isplitl [H0]; · iexact H0
    isplitl [H1]; · iexists _; iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, ⟨%e1, H1⟩, H2, ⟨%e3, H3⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covF_s0 c _ _ _ _ _ _ _ _ _ _ _ _ _ _ _ _ _ _ _ _)
        isplitl [HS1]
        · unfold owns; iexists _; isplitr
          swap; · iexact HS1
          ipureintro; exact View.read_writes_of_cover _ _ _ _ _ (covF_s1 c _ _ _ _ _ _ _ _ _ _ _ _ _ _ _ _ _ _ _ _)
        isplitl [HS2]
        · unfold owns; iexists _; isplitr
          swap; · iexact HS2
          ipureintro; exact View.read_writes_of_cover _ _ _ _ _ (covF_s2 c _ _ _ _ _ _ _ _ _ _ _ _ _ _ _ _ _ _ _ _)
        unfold owns; iexists _; isplitr
        swap; · iexact HS3
        ipureintro; exact View.read_writes_of_cover _ _ _ _ _ (covF_s3 c _ _ _ _ _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (covF_o1 c _ _ _ _ _ _ _ _ _ _ _ _ _ _ _ _ _ _ _ _)
    isplitl [H2]; · iexists _; iexact H2
    unfold owns; iexists _; isplitr
    swap; · iexact H3
    ipureintro; exact View.read_writes_of_cover _ _ _ _ _ (covF_o3 c _ _ _ _ _ _ _ _ _ _ _ _ _ _ _ _ _ _ _ _)
  · by_cases hl : t.val = 24
    · rw [show (dats m 0 c).leavesExact 2 t = owns (c : Thread nD τ) (ms0_2 t) fullShare ((dats m 0 c).after 2 t) from by
        unfold Dat.leavesExact; rw [liveAt0_2 t ((hcondLast t).mpr hl)], after0_2]
      rw [outsAt0_L m c t hz hl]
      unfold valL_o1 valL_o2 valL_o3 valL_s0 valL_s1 valL_s2 valL_s3; (try dsimp only)
      simp only [before0_1_pos m c t hz]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((runLast c (grid0.coords t) _ _ _ _ _ _ _ _ _ _ _ _ _ _ _ _ (fun h => hz ((hcondFirst t).mp h)) ((hcondLast t).mpr hl) (iblk m c 0 t) _ _ _ _ _).2.2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, ⟨%e1, H1⟩, ⟨%e2, H2⟩, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (covL_s0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (covL_s1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (covL_s2 c _ _ _ _ _ _ _ _ _ _ _ _ _ _ _ _ _ _ _ _ _ _ _ _ _)
          unfold owns; iexists _; isplitr
          swap; · iexact HS3
          ipureintro; exact View.read_writes_of_cover _ _ _ _ _ (covL_s3 c _ _ _ _ _ _ _ _ _ _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (covL_o1 c _ _ _ _ _ _ _ _ _ _ _ _ _ _ _ _ _ _ _ _ _ _ _ _ _)
      isplitl [H2]
      · unfold owns; iexists _; isplitr
        swap; · iexact H2
        ipureintro; exact View.read_writes_of_cover _ _ _ _ _ (covL_o2 c _ _ _ _ _ _ _ _ _ _ _ _ _ _ _ _ _ _ _ _ _ _ _ _ _)
      unfold owns; iexists _; isplitr
      swap; · iexact H3
      ipureintro; exact View.read_writes_of_cover _ _ _ _ _ (covL_o3 c _ _ _ _ _ _ _ _ _ _ _ _ _ _ _ _ _ _ _ _ _ _ _ _ _)
    · rw [Dat.leavesExact_idle (dats m 0 c) 2 t (idleAt0_2 t (fun h => hl ((hcondLast t).mp h))) (noFlush0_2 t (fun h => hl ((hcondLast t).mp h)))]
      rw [outsAt0_M m c t hz hl]
      unfold valM_o1 valM_o3 valM_s0 valM_s1 valM_s2 valM_s3; (try dsimp only)
      simp only [before0_1_pos m c t hz]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((runMid c (grid0.coords t) _ _ _ _ _ _ _ _ _ _ _ _ _ _ _ _ (fun h => hz ((hcondFirst t).mp h)) (fun h => hl ((hcondLast t).mp h)) (iblk m c 0 t) _ _ _ _ _).2.2.2.2.2.2 _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, ⟨%e1, H1⟩, H2, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (covM_s0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (covM_s1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (covM_s2 c _ _ _ _ _ _ _ _ _ _ _ _ _ _ _ _ _ _ _ _ _ _ _ _ _)
          unfold owns; iexists _; isplitr
          swap; · iexact HS3
          ipureintro; exact View.read_writes_of_cover _ _ _ _ _ (covM_s3 c _ _ _ _ _ _ _ _ _ _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (covM_o1 c _ _ _ _ _ _ _ _ _ _ _ _ _ _ _ _ _ _ _ _ _ _ _ _ _)
      isplitl [H2]; · iexists _; iexact H2
      unfold owns; iexists _; isplitr
      swap; · iexact H3
      ipureintro; exact View.read_writes_of_cover _ _ _ _ _ (covM_o3 c _ _ _ _ _ _ _ _ _ _ _ _ _ _ _ _ _ _ _ _ _ _ _ _ _)

/-- The launch's body obligation, at every point. -/
theorem body_obligation (c : Dev nD) : BodyObligation (dats (F := F) m 0 c) (defs₀ (F := F)) Variants.none () Set.univ := fun t => by
  rw [bigSep_W0, bigSep_W0]
  exact sound_body m c t

/-- What the launch hands the body beside the windows is `PhiS` before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch buffers are given back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 25 := N_0; omega)

/-! ## The run -/

set_option maxHeartbeats 8000000 in
set_option backward.isDefEq.respectTransparency.types false in
/-- From any memory with zero counters every weakly fair execution of the program terminates, without a fault, with
    each of the launch's arrays at what the proof data's blocks assemble to and every other host buffer as the later
    operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hin := hin m) (hout := hout m)

/-- The program runs to the end, faults nowhere, and leaves the spike history unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Hand

end
-- ==== Proof.IdealScan.Shared.lean ====
/-
  What the whole-body runs of the scan kernel are stated over: the two conditions the body branches on, read off
  the grid coordinate. The grid has 25 points, one per block of 40 time steps. At the FIRST point the body resets its
  running state (the spike total, the sums of gaps and squared gaps, the gap count, and the "time of the last spike"
  carry, set to -1); at the LAST point it turns the running sums into the coefficient of variation.
-/
import proofs.«161861_j30580167147909_1_alg».proof.Proof.Gen.KernelIdeal.Launch
import proofs.«161861_j30580167147909_1_alg».proof.Proof.Gen.KernelIdeal.Skeleton
import proofs.«161861_j30580167147909_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken: the point is the grid's first (block 0 of the time axis). -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- The body's last branch is taken: the point is the grid's last (block 24). -/
abbrev condLast (i : grid0.Coords) : Prop := k0_cond2 i = 1#1
/-- It holds at point 24 only. -/
theorem hcondLast : ∀ t : Fin cfg0.N, condLast (grid0.coords t) ↔ t.val = 24 :=
  (by decide +kernel : ∀ t : Fin grid0.N, condLast (grid0.coords t) ↔ t.val = 24)

end Cert.KernelIdeal.Hand

end
-- ==== Proof.IdealScan.Layout.lean ====
/-
  The scan kernel's program around its one launch: no host operation comes before the launch and seventy-four come
  after it (the firing rates and active-neuron counts from the spike totals; the lag-one circular autocorrelation of the
  population signal). Stated here: the buffer contents the launch finds, that the later operations only touch host
  buffers, allocate nothing and overwrite none of the launch's four arrays, each window's block at a grid point, the
  staging and scratch memrefs the body is called with, and where the coefficient-of-variation window is idle
  (everywhere but the last point).
-/
import proofs.«161861_j30580167147909_1_alg».proof.Proof.IdealScan.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- Core `c`'s buffer contents when the launch is entered: the launch memory (nothing runs before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

set_option maxHeartbeats 8000000 in
/-- The program is the launch continued by the six stretches of later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [] [hostOps1, hostOps1_1, hostOps1_2, hostOps1_3, hostOps1_4, hostOps1_5] (by simp only [List.Forall])
    (by simp only [List.Forall]) main_chain

/-- The later operations touch the launch's arrays and the other host buffers only. -/
theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ ([hostOps1, hostOps1_1, hostOps1_2, hostOps1_3, hostOps1_4, hostOps1_5] : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

set_option maxHeartbeats 1600000 in
/-- And none of them writes one of the launch's four arrays: each writes its own result buffer only. -/
theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl

/-! ## The windows' blocks -/

/-- Window `w`'s block at point `t`, read off its array as the launch finds it: for the input, time steps
    `40 t` to `40 t + 39` of the spike history. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## Where the coefficient-of-variation window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Before the last point the body stores nothing into it: the window is idle, -/
theorem idleAt0_2 : ∀ t : Fin cfg0.N, ¬condLast (grid0.coords t) → cfg0.idle 2 (grid0.coords t) = true := by decide +kernel
/-- and not written back. -/
theorem noFlush0_2 : ∀ t : Fin cfg0.N, ¬condLast (grid0.coords t) → (cfg0.win 2).flush t = false := by decide +kernel
/-- At the last point it is live. -/
theorem liveAt0_2 : ∀ t : Fin cfg0.N, condLast (grid0.coords t) → cfg0.idle 2 (grid0.coords t) = false := by decide +kernel

/-! ## The memrefs the body is called with -/

abbrev VO0_1 : View sig .tc .vmem S32x2048 .f32 := (Memref.whole cc0_stg1_0 : Memref sig .tc .vmem S32x2048 .f32).view
abbrev VO0_2 : View sig .tc .vmem S32x2048 .f32 := (Memref.whole cc0_stg2_0 : Memref sig .tc .vmem S32x2048 .f32).view
abbrev VO0_3 : View sig .tc .vmem S40x32 .f32 := (Memref.whole cc0_stg3_0 : Memref sig .tc .vmem S40x32 .f32).view
abbrev ms0_0 (t : Fin cfg0.N) : Memref sig .tc .vmem S40x32x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x32 .f32 := win0_3.stage (cfg0.slots t 3)
abbrev hs0_3 (t : Fin cfg0.N) : (ms0_3 t).IsWhole := hstage0_3 ((cfg0.slots t 3).cast nbuf0_3)
/-- The scratch operands: the "time of the last spike" carry, the sum of gaps, the sum of squared gaps, the gap count. -/
abbrev scM0_0 : Memref sig .tc .vmem S32x2048 .i32 := Memref.whole cc0_scratch0
abbrev scM0_1 : Memref sig .tc .vmem S32x2048 .f32 := Memref.whole cc0_scratch1
abbrev scM0_2 : Memref sig .tc .vmem S32x2048 .f32 := Memref.whole cc0_scratch2
abbrev scM0_3 : Memref sig .tc .vmem S32x2048 .f32 := Memref.whole cc0_scratch3
abbrev VS0_0 : View sig .tc .vmem S32x2048 .i32 := scM0_0.view
abbrev VS0_1 : View sig .tc .vmem S32x2048 .f32 := scM0_1.view
abbrev VS0_2 : View sig .tc .vmem S32x2048 .f32 := scM0_2.view
abbrev VS0_3 : View sig .tc .vmem S32x2048 .f32 := scM0_3.view

/-- What the launch hands the body beside the windows: the four scratch buffers at some contents, and the generator
    register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.IdealScan.RunFirst.lean ====
/-
  The scan kernel's body run whole at the FIRST grid point (time steps 0 to 39): the running state is reset — the
  spike total and the three running sums to zero, the "time of the last spike" carry to -1 — and then the block is
  processed as at any point. Nothing the body reads of a buffer's earlier contents reaches a store, so every stored
  buffer may start at anything.
-/
import proofs.«161861_j30580167147909_1_alg».proof.Proof.IdealScan.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point, on whole memrefs — the input block at `x0`, the coefficient-of-variation buffer handed back
    untouched (`xi2`), every other buffer at anything — the body runs, the reset branch taken and the closing branch
    not, to the continuation holding the input as it was and every stored buffer with its pieces written. -/
noncomputable def runFirst (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    Σ' (L1 : List (View.Piece (Elt F) S32x2048 .f32)) (L3 : List (View.Piece (Elt F) S40x32 .f32)) (LS0 : List (View.Piece (Elt F) S32x2048 .i32)) (LS1 : List (View.Piece (Elt F) S32x2048 .f32)) (LS2 : List (View.Piece (Elt F) S32x2048 .f32)), { LS3 : List (View.Piece (Elt F) S32x2048 .f32) //
      ∀ (xi2 : Vec F S32x2048 .f32) (E : Set ℕ) (K : PUnit → sProp 𝕄),
        iprop(owns (c : Thread nD τ) arg1 fullShare x0 ∗ (∃ d, owns (c : Thread nD τ) arg2 fullShare d) ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, ?_, ?_, fun xi2 E K => ?run⟩
  case run =>
    simp only [cc0__kernel_eq_skeleton]; unfold cc0__kernel_skel
    unfold owns
    iintro ⟨⟨%f1, %hf1, H1⟩, ⟨%d2, %f2, -, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg3.eq_unread hf3
    sl_exec_parts (disch := first | exact hc0 | exact hc1)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Hand

end
-- ==== Proof.IdealScan.RunMid.lean ====
/-
  The scan kernel's body run whole at a MIDDLE grid point (neither the first nor the last block of 40 time steps):
  the block's 40 time slices are added into the running spike total, summed over neurons into the block's 40 rows
  of the population signal, and scanned in time order, each slice updating the "time of the last spike" carry and the
  running sums of gaps, squared gaps and the gap count. The run holds the input block as it was and finds, for each
  buffer the body stores into, the pieces it ends with.
-/
import proofs.«161861_j30580167147909_1_alg».proof.Proof.IdealScan.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle point, on whole memrefs — the input block at `x0`, the running total at what the point before left
    (`xo1`), the coefficient-of-variation buffer at anything and handed back untouched (`xi2`), the population rows'
    buffer at anything, the four scratch buffers at what the point before left (`xs·`) — the body runs, neither branch
    taken, to the continuation holding the input as it was and every stored buffer with its pieces written. -/
noncomputable def runMid (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    Σ' (L1 : List (View.Piece (Elt F) S32x2048 .f32)) (L3 : List (View.Piece (Elt F) S40x32 .f32)) (LS0 : List (View.Piece (Elt F) S32x2048 .i32)) (LS1 : List (View.Piece (Elt F) S32x2048 .f32)) (LS2 : List (View.Piece (Elt F) S32x2048 .f32)), { LS3 : List (View.Piece (Elt F) S32x2048 .f32) //
      ∀ (xi2 : Vec F S32x2048 .f32) (E : Set ℕ) (K : PUnit → sProp 𝕄),
        iprop(owns (c : Thread nD τ) arg1 fullShare x0 ∗ owns (c : Thread nD τ) arg2 fullShare xo1 ∗ owns (c : Thread nD τ) arg3 fullShare xi2 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, ?_, ?_, fun xi2 E K => ?run⟩
  case run =>
    simp only [cc0__kernel_eq_skeleton]; unfold cc0__kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7; obtain rfl := harg8.eq_unread hf8
    sl_exec_parts (disch := first | exact hc0 | exact hc1)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Hand

end
-- ==== Proof.IdealScan.RunLast.lean ====
/-
  The scan kernel's body run whole at the LAST grid point (time steps 960 to 999): the block is processed as at any
  point, and then the running sums — the gap count, the sum of gaps and the sum of squared gaps — are turned into the
  coefficient of variation (the root of the unbiased variance over the mean, zero where there was no gap), stored whole
  into its buffer.
-/
import proofs.«161861_j30580167147909_1_alg».proof.Proof.IdealScan.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last point, on whole memrefs — the input block at `x0`, the running total at what the point before left
    (`xo1`), the coefficient-of-variation buffer and the population rows' buffer at anything, the four scratch
    buffers at what the point before left (`xs·`) — the body runs, the reset branch not taken and the closing branch
    taken, to the continuation holding the input as it was and every stored buffer with its pieces written. -/
noncomputable def runLast (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    Σ' (L1 : List (View.Piece (Elt F) S32x2048 .f32)) (L2 : List (View.Piece (Elt F) S32x2048 .f32)) (L3 : List (View.Piece (Elt F) S40x32 .f32)) (LS0 : List (View.Piece (Elt F) S32x2048 .i32)) (LS1 : List (View.Piece (Elt F) S32x2048 .f32)) (LS2 : List (View.Piece (Elt F) S32x2048 .f32)), { LS3 : List (View.Piece (Elt F) S32x2048 .f32) //
      ∀ (E : Set ℕ) (K : PUnit → sProp 𝕄),
        iprop(owns (c : Thread nD τ) arg1 fullShare x0 ∗ owns (c : Thread nD τ) arg2 fullShare xo1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0__kernel_eq_skeleton]; unfold cc0__kernel_skel
    unfold owns
    iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2
    obtain rfl := harg5.eq_unread hf5; obtain rfl := harg6.eq_unread hf6; obtain rfl := harg7.eq_unread hf7; obtain rfl := harg8.eq_unread hf8
    sl_exec_parts (disch := first | exact hc0 | exact hc1)
    sl_step
    iapply Hk
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.KernelIdeal.Hand

end
-- ==== Proof.IdealScan.Frame.lean ====
/-
  The scan kernel's run, point by point. Its body keeps state between grid points: the running spike total (an output
  window resident over the whole grid and written back once, after the last point) and four scratch buffers — the
  time of the last spike, the sum of gaps, the sum of squared gaps and the gap count. What every buffer holds after
  point `n` is therefore defined by recursion on `n`: at point 0 what the first-point run leaves, at a later point what
  the middle-point (or, at point 24, the last-point) run leaves when started from what point `n - 1` left. With that,
  the body meets the launch's obligation at every point, the program runs to the end, and its argument array is
  unchanged.
-/
import proofs.«161861_j30580167147909_1_alg».proof.Proof.IdealScan.Layout
import proofs.«161861_j30580167147909_1_alg».proof.Proof.IdealScan.RunFirst
import proofs.«161861_j30580167147909_1_alg».proof.Proof.IdealScan.RunMid
import proofs.«161861_j30580167147909_1_alg».proof.Proof.IdealScan.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in each buffer -/

/-- At the first point the body's stores into the buffer of the running spike total tile it, so they cover it. -/
theorem covF_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).1, y ∈ pc.1.set :=
  View.cover_of_tiledL (runFirst c i arg1 harg1 arg2 harg2 arg3 harg3 arg4 harg4 arg5 harg5 arg6 harg6 arg7 harg7 arg8 harg8 hc0 hc1 x0).1 S32x2048.size (by sl_kernel_rfl) y

/-- What the body leaves at the first point in the buffer of the running spike total: its stores read back. -/
def valF_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VO0_1.read (Elt F) (VO0_1.writes (Elt F) VO0_1.junk (runFirst c i arg1 harg1 arg2 harg2 arg3 harg3 arg4 harg4 arg5 harg5 arg6 harg6 arg7 harg7 arg8 harg8 hc0 hc1 x0).1)

/-- At the first point the body's stores into the buffer of the block's forty rows of the population signal tile it, so they cover it. -/
theorem covF_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S40x32.Idx) :
    ∃ pc ∈ (runFirst c i arg1 harg1 arg2 harg2 arg3 harg3 arg4 harg4 arg5 harg5 arg6 harg6 arg7 harg7 arg8 harg8 hc0 hc1 x0).2.1, y ∈ pc.1.set :=
  View.cover_of_tiledL (runFirst c i arg1 harg1 arg2 harg2 arg3 harg3 arg4 harg4 arg5 harg5 arg6 harg6 arg7 harg7 arg8 harg8 hc0 hc1 x0).2.1 S40x32.size (by sl_kernel_rfl) y

/-- What the body leaves at the first point in the buffer of the block's forty rows of the population signal: its stores read back. -/
def valF_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S40x32 .f32 :=
  VO0_3.read (Elt F) (VO0_3.writes (Elt F) VO0_3.junk (runFirst c i arg1 harg1 arg2 harg2 arg3 harg3 arg4 harg4 arg5 harg5 arg6 harg6 arg7 harg7 arg8 harg8 hc0 hc1 x0).2.1)

/-- At the first point the body's stores into the buffer of the time-of-the-last-spike carry tile it, so they cover it. -/
theorem covF_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.1, y ∈ pc.1.set :=
  View.cover_of_tiledL (runFirst c i arg1 harg1 arg2 harg2 arg3 harg3 arg4 harg4 arg5 harg5 arg6 harg6 arg7 harg7 arg8 harg8 hc0 hc1 x0).2.2.1 S32x2048.size (by sl_kernel_rfl) y

/-- What the body leaves at the first point in the buffer of the time-of-the-last-spike carry: its stores read back. -/
def valF_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .i32 :=
  VS0_0.read (Elt F) (VS0_0.writes (Elt F) VS0_0.junk (runFirst c i arg1 harg1 arg2 harg2 arg3 harg3 arg4 harg4 arg5 harg5 arg6 harg6 arg7 harg7 arg8 harg8 hc0 hc1 x0).2.2.1)

/-- At the first point the body's stores into the buffer of the running sum of gaps tile it, so they cover it. -/
theorem covF_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.2.1, y ∈ pc.1.set :=
  View.cover_of_tiledL (runFirst c i arg1 harg1 arg2 harg2 arg3 harg3 arg4 harg4 arg5 harg5 arg6 harg6 arg7 harg7 arg8 harg8 hc0 hc1 x0).2.2.2.1 S32x2048.size (by sl_kernel_rfl) y

/-- What the body leaves at the first point in the buffer of the running sum of gaps: its stores read back. -/
def valF_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VS0_1.read (Elt F) (VS0_1.writes (Elt F) VS0_1.junk (runFirst c i arg1 harg1 arg2 harg2 arg3 harg3 arg4 harg4 arg5 harg5 arg6 harg6 arg7 harg7 arg8 harg8 hc0 hc1 x0).2.2.2.1)

/-- At the first point the body's stores into the buffer of the running sum of squared gaps tile it, so they cover it. -/
theorem covF_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.2.2.1, y ∈ pc.1.set :=
  View.cover_of_tiledL (runFirst c i arg1 harg1 arg2 harg2 arg3 harg3 arg4 harg4 arg5 harg5 arg6 harg6 arg7 harg7 arg8 harg8 hc0 hc1 x0).2.2.2.2.1 S32x2048.size (by sl_kernel_rfl) y

/-- What the body leaves at the first point in the buffer of the running sum of squared gaps: its stores read back. -/
def valF_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VS0_2.read (Elt F) (VS0_2.writes (Elt F) VS0_2.junk (runFirst c i arg1 harg1 arg2 harg2 arg3 harg3 arg4 harg4 arg5 harg5 arg6 harg6 arg7 harg7 arg8 harg8 hc0 hc1 x0).2.2.2.2.1)

/-- At the first point the body's stores into the buffer of the running gap count tile it, so they cover it. -/
theorem covF_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) (y : S32x2048.Idx) :
    ∃ pc ∈ (runFirst c i arg1 harg1 arg2 harg2 arg3 harg3 arg4 harg4 arg5 harg5 arg6 harg6 arg7 harg7 arg8 harg8 hc0 hc1 x0).2.2.2.2.2.1, y ∈ pc.1.set :=
  View.cover_of_tiledL (runFirst c i arg1 harg1 arg2 harg2 arg3 harg3 arg4 harg4 arg5 harg5 arg6 harg6 arg7 harg7 arg8 harg8 hc0 hc1 x0).2.2.2.2.2.1 S32x2048.size (by sl_kernel_rfl) y

/-- What the body leaves at the first point in the buffer of the running gap count: its stores read back. -/
def valF_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) : Vec F S32x2048 .f32 :=
  VS0_3.read (Elt F) (VS0_3.writes (Elt F) VS0_3.junk (runFirst c i arg1 harg1 arg2 harg2 arg3 harg3 arg4 harg4 arg5 harg5 arg6 harg6 arg7 harg7 arg8 harg8 hc0 hc1 x0).2.2.2.2.2.1)

/-- At a middle point the body's stores into the buffer of the running spike total tile it, so they cover it. -/
theorem covM_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).1 S32x2048.size (by sl_kernel_rfl) y

/-- What the body leaves at a middle point in the buffer of the running spike total: its stores read back. -/
def valM_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VO0_1.read (Elt F) (VO0_1.writes (Elt F) VO0_1.junk (runMid c i arg1 harg1 arg2 harg2 arg3 harg3 arg4 harg4 arg5 harg5 arg6 harg6 arg7 harg7 arg8 harg8 hc0 hc1 x0 xo1 xs0 xs1 xs2 xs3).1)

/-- At a middle point the body's stores into the buffer of the block's forty rows of the population signal tile it, so they cover it. -/
theorem covM_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S40x32.Idx) :
    ∃ pc ∈ (runMid c i arg1 harg1 arg2 harg2 arg3 harg3 arg4 harg4 arg5 harg5 arg6 harg6 arg7 harg7 arg8 harg8 hc0 hc1 x0 xo1 xs0 xs1 xs2 xs3).2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.1 S40x32.size (by sl_kernel_rfl) y

/-- What the body leaves at a middle point in the buffer of the block's forty rows of the population signal: its stores read back. -/
def valM_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S40x32 .f32 :=
  VO0_3.read (Elt F) (VO0_3.writes (Elt F) VO0_3.junk (runMid c i arg1 harg1 arg2 harg2 arg3 harg3 arg4 harg4 arg5 harg5 arg6 harg6 arg7 harg7 arg8 harg8 hc0 hc1 x0 xo1 xs0 xs1 xs2 xs3).2.1)

/-- At a middle point the body's stores into the buffer of the time-of-the-last-spike carry tile it, so they cover it. -/
theorem covM_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.1 S32x2048.size (by sl_kernel_rfl) y

/-- What the body leaves at a middle point in the buffer of the time-of-the-last-spike carry: its stores read back. -/
def valM_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .i32 :=
  VS0_0.read (Elt F) (VS0_0.writes (Elt F) VS0_0.junk (runMid c i arg1 harg1 arg2 harg2 arg3 harg3 arg4 harg4 arg5 harg5 arg6 harg6 arg7 harg7 arg8 harg8 hc0 hc1 x0 xo1 xs0 xs1 xs2 xs3).2.2.1)

/-- At a middle point the body's stores into the buffer of the running sum of gaps tile it, so they cover it. -/
theorem covM_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.2.1 S32x2048.size (by sl_kernel_rfl) y

/-- What the body leaves at a middle point in the buffer of the running sum of gaps: its stores read back. -/
def valM_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VS0_1.read (Elt F) (VS0_1.writes (Elt F) VS0_1.junk (runMid c i arg1 harg1 arg2 harg2 arg3 harg3 arg4 harg4 arg5 harg5 arg6 harg6 arg7 harg7 arg8 harg8 hc0 hc1 x0 xo1 xs0 xs1 xs2 xs3).2.2.2.1)

/-- At a middle point the body's stores into the buffer of the running sum of squared gaps tile it, so they cover it. -/
theorem covM_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.2.2.1 S32x2048.size (by sl_kernel_rfl) y

/-- What the body leaves at a middle point in the buffer of the running sum of squared gaps: its stores read back. -/
def valM_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VS0_2.read (Elt F) (VS0_2.writes (Elt F) VS0_2.junk (runMid c i arg1 harg1 arg2 harg2 arg3 harg3 arg4 harg4 arg5 harg5 arg6 harg6 arg7 harg7 arg8 harg8 hc0 hc1 x0 xo1 xs0 xs1 xs2 xs3).2.2.2.2.1)

/-- At a middle point the body's stores into the buffer of the running gap count tile it, so they cover it. -/
theorem covM_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) (y : S32x2048.Idx) :
    ∃ pc ∈ (runMid c i arg1 harg1 arg2 harg2 arg3 harg3 arg4 harg4 arg5 harg5 arg6 harg6 arg7 harg7 arg8 harg8 hc0 hc1 x0 xo1 xs0 xs1 xs2 xs3).2.2.2.2.2.1, y ∈ pc.1.set :=
  View.cover_of_tiledL (runMid c i arg1 harg1 arg2 harg2 arg3 harg3 arg4 harg4 arg5 harg5 arg6 harg6 arg7 harg7 arg8 harg8 hc0 hc1 x0 xo1 xs0 xs1 xs2 xs3).2.2.2.2.2.1 S32x2048.size (by sl_kernel_rfl) y

/-- What the body leaves at a middle point in the buffer of the running gap count: its stores read back. -/
def valM_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) : Vec F S32x2048 .f32 :=
  VS0_3.read (Elt F) (VS0_3.writes (Elt F) VS0_3.junk (runMid c i arg1 harg1 arg2 harg2 arg3 harg3 arg4 harg4 arg5 harg5 arg6 harg6 arg7 harg7 arg8 harg8 hc0 hc1 x0 xo1 xs0 xs1 xs2 xs3).2.2.2.2.2.1)

/-- At the last point the body's stores into the buffer of the running spike total tile it, so they cover it. -/
theorem covL_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).1 S32x2048.size (by sl_kernel_rfl) y

/-- What the body leaves at the last point in the buffer of the running spike total: its stores read back. -/
def valL_o1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VO0_1.read (Elt F) (VO0_1.writes (Elt F) VO0_1.junk (runLast c i arg1 harg1 arg2 harg2 arg3 harg3 arg4 harg4 arg5 harg5 arg6 harg6 arg7 harg7 arg8 harg8 hc0 hc1 x0 xo1 xs0 xs1 xs2 xs3).1)

/-- At the last point the body's stores into the buffer of the coefficient of variation tile it, so they cover it. -/
theorem covL_o2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.1 S32x2048.size (by sl_kernel_rfl) y

/-- What the body leaves at the last point in the buffer of the coefficient of variation: its stores read back. -/
def valL_o2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VO0_2.read (Elt F) (VO0_2.writes (Elt F) VO0_2.junk (runLast c i arg1 harg1 arg2 harg2 arg3 harg3 arg4 harg4 arg5 harg5 arg6 harg6 arg7 harg7 arg8 harg8 hc0 hc1 x0 xo1 xs0 xs1 xs2 xs3).2.1)

/-- At the last point the body's stores into the buffer of the block's forty rows of the population signal tile it, so they cover it. -/
theorem covL_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S40x32.Idx) :
    ∃ pc ∈ (runLast c i arg1 harg1 arg2 harg2 arg3 harg3 arg4 harg4 arg5 harg5 arg6 harg6 arg7 harg7 arg8 harg8 hc0 hc1 x0 xo1 xs0 xs1 xs2 xs3).2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.1 S40x32.size (by sl_kernel_rfl) y

/-- What the body leaves at the last point in the buffer of the block's forty rows of the population signal: its stores read back. -/
def valL_o3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S40x32 .f32 :=
  VO0_3.read (Elt F) (VO0_3.writes (Elt F) VO0_3.junk (runLast c i arg1 harg1 arg2 harg2 arg3 harg3 arg4 harg4 arg5 harg5 arg6 harg6 arg7 harg7 arg8 harg8 hc0 hc1 x0 xo1 xs0 xs1 xs2 xs3).2.2.1)

/-- At the last point the body's stores into the buffer of the time-of-the-last-spike carry tile it, so they cover it. -/
theorem covL_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.1 S32x2048.size (by sl_kernel_rfl) y

/-- What the body leaves at the last point in the buffer of the time-of-the-last-spike carry: its stores read back. -/
def valL_s0 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .i32 :=
  VS0_0.read (Elt F) (VS0_0.writes (Elt F) VS0_0.junk (runLast c i arg1 harg1 arg2 harg2 arg3 harg3 arg4 harg4 arg5 harg5 arg6 harg6 arg7 harg7 arg8 harg8 hc0 hc1 x0 xo1 xs0 xs1 xs2 xs3).2.2.2.1)

/-- At the last point the body's stores into the buffer of the running sum of gaps tile it, so they cover it. -/
theorem covL_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.2.1 S32x2048.size (by sl_kernel_rfl) y

/-- What the body leaves at the last point in the buffer of the running sum of gaps: its stores read back. -/
def valL_s1 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VS0_1.read (Elt F) (VS0_1.writes (Elt F) VS0_1.junk (runLast c i arg1 harg1 arg2 harg2 arg3 harg3 arg4 harg4 arg5 harg5 arg6 harg6 arg7 harg7 arg8 harg8 hc0 hc1 x0 xo1 xs0 xs1 xs2 xs3).2.2.2.2.1)

/-- At the last point the body's stores into the buffer of the running sum of squared gaps tile it, so they cover it. -/
theorem covL_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.2.2.1 S32x2048.size (by sl_kernel_rfl) y

/-- What the body leaves at the last point in the buffer of the running sum of squared gaps: its stores read back. -/
def valL_s2 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VS0_2.read (Elt F) (VS0_2.writes (Elt F) VS0_2.junk (runLast c i arg1 harg1 arg2 harg2 arg3 harg3 arg4 harg4 arg5 harg5 arg6 harg6 arg7 harg7 arg8 harg8 hc0 hc1 x0 xo1 xs0 xs1 xs2 xs3).2.2.2.2.2.1)

/-- At the last point the body's stores into the buffer of the running gap count tile it, so they cover it. -/
theorem covL_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) (y : S32x2048.Idx) :
    ∃ pc ∈ (runLast c i arg1 harg1 arg2 harg2 arg3 harg3 arg4 harg4 arg5 harg5 arg6 harg6 arg7 harg7 arg8 harg8 hc0 hc1 x0 xo1 xs0 xs1 xs2 xs3).2.2.2.2.2.2.1, y ∈ pc.1.set :=
  View.cover_of_tiledL (runLast c i arg1 harg1 arg2 harg2 arg3 harg3 arg4 harg4 arg5 harg5 arg6 harg6 arg7 harg7 arg8 harg8 hc0 hc1 x0 xo1 xs0 xs1 xs2 xs3).2.2.2.2.2.2.1 S32x2048.size (by sl_kernel_rfl) y

/-- What the body leaves at the last point in the buffer of the running gap count: its stores read back. -/
def valL_s3 (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) : Vec F S32x2048 .f32 :=
  VS0_3.read (Elt F) (VS0_3.writes (Elt F) VS0_3.junk (runLast c i arg1 harg1 arg2 harg2 arg3 harg3 arg4 harg4 arg5 harg5 arg6 harg6 arg7 harg7 arg8 harg8 hc0 hc1 x0 xo1 xs0 xs1 xs2 xs3).2.2.2.2.2.2.1)

/-! ## The state after each point -/

/-- What the three output windows' staging buffers and the four scratch buffers hold after the body at a point. -/
structure Outs (F : FTy → Type) [FloatOps F] where
  /-- the running spike total -/
  o1 : Vec F S32x2048 .f32
  /-- the coefficient of variation (meaningful after the last point only) -/
  o2 : Vec F S32x2048 .f32
  /-- the block's forty rows of the population signal -/
  o3 : Vec F S40x32 .f32
  /-- the time of the last spike, or -1 -/
  s0 : Vec F S32x2048 .i32
  /-- the running sum of gaps -/
  s1 : Vec F S32x2048 .f32
  /-- the running sum of squared gaps -/
  s2 : Vec F S32x2048 .f32
  /-- the running gap count -/
  s3 : Vec F S32x2048 .f32

/-- THE RECURRENCE over grid points: the state after point `n`. -/
def outsAt0 (c : Dev nD) : (n : ℕ) → n < cfg0.N → Outs F
  | 0, hn => {
      o1 := valF_o1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      o2 := VO0_2.read (Elt F) VO0_2.junk,
      o3 := valF_o3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s0 := valF_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s1 := valF_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s2 := valF_s2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩),
      s3 := valF_s3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcondFirst ⟨0, hn⟩).mpr rfl) (fun h => absurd ((hcondLast ⟨0, hn⟩).mp h) (show ¬(0 : ℕ) = 24 from by decide)) (iblk m c 0 ⟨0, hn⟩) }
  | n + 1, hn =>
    if h1 : n + 1 = 24 then
      {
      o1 := valL_o1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      o2 := valL_o2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      o3 := valL_o3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s0 := valL_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s1 := valL_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s2 := valL_s2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s3 := valL_s3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) ((hcondLast ⟨n + 1, hn⟩).mpr h1) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3 }
    else
      {
      o1 := valM_o1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      o2 := VO0_2.read (Elt F) VO0_2.junk,
      o3 := valM_o3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s0 := valM_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s1 := valM_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s2 := valM_s2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3,
      s3 := valM_s3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => absurd ((hcondFirst ⟨n + 1, hn⟩).mp h) (Nat.succ_ne_zero n)) (fun h => h1 ((hcondLast ⟨n + 1, hn⟩).mp h)) (iblk m c 0 ⟨n + 1, hn⟩) ((outsAt0 c n (Nat.lt_of_succ_lt hn))).o1 ((outsAt0 c n (Nat.lt_of_succ_lt hn))).s0 ((outsAt0 c n (Nat.lt_of_succ_lt hn))).s1 ((outsAt0 c n (Nat.lt_of_succ_lt hn))).s2 ((outsAt0 c n (Nat.lt_of_succ_lt hn))).s3 }

/-- The state after the first point. -/
theorem outsAt0_F (c : Dev nD) (t : Fin cfg0.N) (h0 : t.val = 0) :
    outsAt0 m c t.val t.isLt = {
      o1 := valF_o1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      o2 := VO0_2.read (Elt F) VO0_2.junk,
      o3 := valF_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s0 := valF_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s1 := valF_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s2 := valF_s2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t),
      s3 := valF_s3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcondFirst t).mpr h0) (fun h => absurd ((hcondLast t).mp h) (by omega)) (iblk m c 0 t) } := by
  obtain ⟨n, hn⟩ := t
  cases n with
  | zero => exact rfl
  | succ n => exact absurd h0 (Nat.succ_ne_zero n)

/-- The state after a middle point, over what the point before left. -/
theorem outsAt0_M (c : Dev nD) (t : Fin cfg0.N) (h0 : ¬t.val = 0) (h1 : ¬t.val = 24) :
    outsAt0 m c t.val t.isLt = {
      o1 := valM_o1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      o2 := VO0_2.read (Elt F) VO0_2.junk,
      o3 := valM_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s0 := valM_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s1 := valM_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s2 := valM_s2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s3 := valM_s3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) (fun h => h1 ((hcondLast t).mp h)) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3 } := by
  obtain ⟨n, hn⟩ := t
  cases n with
  | zero => exact absurd rfl h0
  | succ n => exact (dif_neg h1).trans rfl

/-- The state after the last point, over what the point before left. -/
theorem outsAt0_L (c : Dev nD) (t : Fin cfg0.N) (h0 : ¬t.val = 0) (h1 : t.val = 24) :
    outsAt0 m c t.val t.isLt = {
      o1 := valL_o1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      o2 := valL_o2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      o3 := valL_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s0 := valL_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s1 := valL_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s2 := valL_s2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3,
      s3 := valL_s3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcondFirst t).mp h)) ((hcondLast t).mpr h1) (iblk m c 0 t) ((outsAt0 m c (t.val - 1) (Nat.lt_of_le_of_lt (Nat.sub_le _ _) t.isLt))).o1 ((outsAt0 m c (t.val - 1) (Nat.lt_of_le_of_lt (Nat.sub_le _ _) t.isLt))).s0 ((outsAt0 m c (t.val - 1) (Nat.lt_of_le_of_lt (Nat.sub_le _ _) t.isLt))).s1 ((outsAt0 m c (t.val - 1) (Nat.lt_of_le_of_lt (Nat.sub_le _ _) t.isLt))).s2 ((outsAt0 m c (t.val - 1) (Nat.lt_of_le_of_lt (Nat.sub_le _ _) t.isLt))).s3 } := by
  obtain ⟨n, hn⟩ := t
  cases n with
  | zero => exact absurd rfl h0
  | succ n => exact (dif_pos h1).trans rfl

/-- What the body holds beside the windows before point `n`: before the first point the scratch buffers at anything;
    afterwards each at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3)) ∗ (∃ r, prngReg c r)) := by
  cases n with
  | zero => exact absurd rfl hz
  | succ n => rfl

/-! ## The launch's proof data -/

/-- The arrays as the launch finds them; after the body at point `t` the input's buffer at its block and the outputs'
    at the recurrence's values; beside the windows, `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).o1
    | ⟨2, _⟩ => (outsAt0 m c t.val t.isLt).o2
    | ⟨3, _⟩ => (outsAt0 m c t.val t.isLt).o3
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).o1 := by dsimp only [dats]
theorem after0_2 (c : Dev nD) (t : Fin cfg0.N) : (dats m 0 c).after 2 t = (outsAt0 m c t.val t.isLt).o2 := by dsimp only [dats]
theorem after0_3 (c : Dev nD) (t : Fin cfg0.N) : (dats m 0 c).after 3 t = (outsAt0 m c t.val t.isLt).o3 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- After the first point the running total's buffer holds what the body left at the point before: the window is
    resident, live everywhere, and written back only after the last point. -/
theorem before0_1_pos (c : Dev nD) (t : Fin cfg0.N) (h0 : ¬t.val = 0) (d) :
    (dats m 0 c).before 1 t d = (outsAt0 m c (t.val - 1) (Nat.lt_of_le_of_lt (Nat.sub_le _ _) t.isLt)).o1 := by
  have hN : t.val < 25 := lt_of_lt_of_eq t.isLt (show cfg0.N = 25 from N_0)
  rw [Dat.before_out_kept _ 1 rfl t h0 (Bool.eq_false_iff.mpr fun h => by have := (flush0_1 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. The input's memref holds its block; the point is the first, a middle one or the last;
    after the first the running total's memref and the four scratch buffers hold what the point before left; so that
    case's run applies, and hands every stored buffer back at this point's value of the recurrence (its stores cover
    the buffer). The coefficient-of-variation window is handed back untouched before the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases hz : t.val = 0
  · have hl : ¬t.val = 24 := by omega
    rw [Dat.leavesExact_idle (dats m 0 c) 2 t (idleAt0_2 t (fun h => hl ((hcondLast t).mp h))) (noFlush0_2 t (fun h => hl ((hcondLast t).mp h)))]
    rw [outsAt0_F m c t hz]
    unfold valF_o1 valF_o3 valF_s0 valF_s1 valF_s2 valF_s3; (try dsimp only)
    rw [PhiS_castSucc m c t, PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩⟩
    iapply ((runFirst c (grid0.coords t) _ _ _ _ _ _ _ _ _ _ _ _ _ _ _ _ ((hcondFirst t).mpr hz) (fun h => hl ((hcondLast t).mp h)) (iblk m c 0 t)).2.2.2.2.2.2 _ Set.univ _)
    isplitl [H0]; · iexact H0
    isplitl [H1]; · iexists _; iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, ⟨%e1, H1⟩, H2, ⟨%e3, H3⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covF_s0 c _ _ _ _ _ _ _ _ _ _ _ _ _ _ _ _ _ _ _ _)
        isplitl [HS1]
        · unfold owns; iexists _; isplitr
          swap; · iexact HS1
          ipureintro; exact View.read_writes_of_cover _ _ _ _ _ (covF_s1 c _ _ _ _ _ _ _ _ _ _ _ _ _ _ _ _ _ _ _ _)
        isplitl [HS2]
        · unfold owns; iexists _; isplitr
          swap; · iexact HS2
          ipureintro; exact View.read_writes_of_cover _ _ _ _ _ (covF_s2 c _ _ _ _ _ _ _ _ _ _ _ _ _ _ _ _ _ _ _ _)
        unfold owns; iexists _; isplitr
        swap; · iexact HS3
        ipureintro; exact View.read_writes_of_cover _ _ _ _ _ (covF_s3 c _ _ _ _ _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (covF_o1 c _ _ _ _ _ _ _ _ _ _ _ _ _ _ _ _ _ _ _ _)
    isplitl [H2]; · iexists _; iexact H2
    unfold owns; iexists _; isplitr
    swap; · iexact H3
    ipureintro; exact View.read_writes_of_cover _ _ _ _ _ (covF_o3 c _ _ _ _ _ _ _ _ _ _ _ _ _ _ _ _ _ _ _ _)
  · by_cases hl : t.val = 24
    · rw [show (dats m 0 c).leavesExact 2 t = owns (c : Thread nD τ) (ms0_2 t) fullShare ((dats m 0 c).after 2 t) from by
        unfold Dat.leavesExact; rw [liveAt0_2 t ((hcondLast t).mpr hl)], after0_2]
      rw [outsAt0_L m c t hz hl]
      unfold valL_o1 valL_o2 valL_o3 valL_s0 valL_s1 valL_s2 valL_s3; (try dsimp only)
      simp only [before0_1_pos m c t hz]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((runLast c (grid0.coords t) _ _ _ _ _ _ _ _ _ _ _ _ _ _ _ _ (fun h => hz ((hcondFirst t).mp h)) ((hcondLast t).mpr hl) (iblk m c 0 t) _ _ _ _ _).2.2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, ⟨%e1, H1⟩, ⟨%e2, H2⟩, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (covL_s0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (covL_s1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (covL_s2 c _ _ _ _ _ _ _ _ _ _ _ _ _ _ _ _ _ _ _ _ _ _ _ _ _)
          unfold owns; iexists _; isplitr
          swap; · iexact HS3
          ipureintro; exact View.read_writes_of_cover _ _ _ _ _ (covL_s3 c _ _ _ _ _ _ _ _ _ _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (covL_o1 c _ _ _ _ _ _ _ _ _ _ _ _ _ _ _ _ _ _ _ _ _ _ _ _ _)
      isplitl [H2]
      · unfold owns; iexists _; isplitr
        swap; · iexact H2
        ipureintro; exact View.read_writes_of_cover _ _ _ _ _ (covL_o2 c _ _ _ _ _ _ _ _ _ _ _ _ _ _ _ _ _ _ _ _ _ _ _ _ _)
      unfold owns; iexists _; isplitr
      swap; · iexact H3
      ipureintro; exact View.read_writes_of_cover _ _ _ _ _ (covL_o3 c _ _ _ _ _ _ _ _ _ _ _ _ _ _ _ _ _ _ _ _ _ _ _ _ _)
    · rw [Dat.leavesExact_idle (dats m 0 c) 2 t (idleAt0_2 t (fun h => hl ((hcondLast t).mp h))) (noFlush0_2 t (fun h => hl ((hcondLast t).mp h)))]
      rw [outsAt0_M m c t hz hl]
      unfold valM_o1 valM_o3 valM_s0 valM_s1 valM_s2 valM_s3; (try dsimp only)
      simp only [before0_1_pos m c t hz]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      iapply ((runMid c (grid0.coords t) _ _ _ _ _ _ _ _ _ _ _ _ _ _ _ _ (fun h => hz ((hcondFirst t).mp h)) (fun h => hl ((hcondLast t).mp h)) (iblk m c 0 t) _ _ _ _ _).2.2.2.2.2.2 _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, ⟨%e1, H1⟩, H2, ⟨%e3, H3⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (covM_s0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (covM_s1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (covM_s2 c _ _ _ _ _ _ _ _ _ _ _ _ _ _ _ _ _ _ _ _ _ _ _ _ _)
          unfold owns; iexists _; isplitr
          swap; · iexact HS3
          ipureintro; exact View.read_writes_of_cover _ _ _ _ _ (covM_s3 c _ _ _ _ _ _ _ _ _ _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (covM_o1 c _ _ _ _ _ _ _ _ _ _ _ _ _ _ _ _ _ _ _ _ _ _ _ _ _)
      isplitl [H2]; · iexists _; iexact H2
      unfold owns; iexists _; isplitr
      swap; · iexact H3
      ipureintro; exact View.read_writes_of_cover _ _ _ _ _ (covM_o3 c _ _ _ _ _ _ _ _ _ _ _ _ _ _ _ _ _ _ _ _ _ _ _ _ _)

/-- The launch's body obligation, at every point. -/
theorem body_obligation (c : Dev nD) : BodyObligation (dats (F := F) m 0 c) (defs₀ (F := F)) Variants.none () Set.univ := fun t => by
  rw [bigSep_W0, bigSep_W0]
  exact sound_body m c t

/-- What the launch hands the body beside the windows is `PhiS` before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch buffers are given back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 25 := N_0; omega)

/-! ## The run -/

set_option maxHeartbeats 8000000 in
set_option backward.isDefEq.respectTransparency.types false in
/-- From any memory with zero counters every weakly fair execution of the program terminates, without a fault, with
    each of the launch's arrays at what the proof data's blocks assemble to and every other host buffer as the later
    operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hin := hin m) (hout := hout m)

/-- The program runs to the end, faults nowhere, and leaves the spike history unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Hand

end
-- ==== Proof.IdealScan.VecScan.lean ====
/-
  The scan of one block of forty time slices on whole [32, 2048] vectors, written once: the state is the time of the
  last spike (a signed word, -1 for none), the running sum of gaps, of squared gaps, and the gap count; a slice with
  time word `g` marks spikes (`x > 0`), marks those with a predecessor (`carry ≥ 0`), adds the gap `g − carry` (exactly
  converted) at the latter, its square, and a one, and moves the carry to `g` at every spike.
-/
import proofs.«161861_j30580167147909_1_alg».proof.Proof.IdealScan.Shared
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scan's state on whole vectors. -/
structure VSt (F : FTy → Type) [FloatOps F] where
  c : Vec F S32x2048 .i32
  sg : Vec F S32x2048 .f32
  sg2 : Vec F S32x2048 .f32
  cnt : Vec F S32x2048 .f32

/-- One time slice, as the body computes it. -/
def vstep (g : BitVec 32) (v : Vec F S1x32x2048 .f32) (s : VSt F) : VSt F :=
  let spk : IVec S32x2048 1 := cmpf .ogt (shapeCast S32x2048 v shapeCasts_S1x32x2048_S32x2048) (broadcast S32x2048 (Scalar.ofBits .f32 0x00000000#32))
  let valid : IVec S32x2048 1 := andi spk (cmpi .sge s.c (broadcast S32x2048 0#32))
  let gp : FVec F S32x2048 .f32 := select valid (sitofp .f32 (subi (broadcast S32x2048 g) s.c)) (broadcast S32x2048 (Scalar.ofBits .f32 0x00000000#32))
  { c := shapeCast S32x2048 (select spk (broadcast S32x2048 g) s.c) shapeCasts_S32x2048_S32x2048
    sg := shapeCast S32x2048 (addf s.sg gp) shapeCasts_S32x2048_S32x2048
    sg2 := shapeCast S32x2048 (addf s.sg2 (mulf gp gp)) shapeCasts_S32x2048_S32x2048
    cnt := shapeCast S32x2048 (addf s.cnt (select valid (broadcast S32x2048 (Scalar.ofBits .f32 0x3F800000#32)) (broadcast S32x2048 (Scalar.ofBits .f32 0x00000000#32)))) shapeCasts_S32x2048_S32x2048 }

theorem slabInb (k : ℕ) (hk : k < 40) : ∀ a, (![k, 0, 0] : Fin 3 → Nat) a + S1x32x2048.size a ≤ S40x32x2048.size a := by
  intro a; fin_cases a
  · show k + 1 ≤ 40; omega
  · show 0 + 32 ≤ 32; omega
  · show 0 + 2048 ≤ 2048; omega

/-- Time slice `k` of a block. -/
def slab (x0 : Vec F S40x32x2048 .f32) (k : ℕ) (hk : k < 40) : Vec F S1x32x2048 .f32 :=
  View.ld x0 (Rect.unit ![k, 0, 0] S1x32x2048.size (slabInb k hk))

/-- The first `k` slices of a block scanned from a state; the block's first time word is `g0`. -/
def vscan (g0 : BitVec 32) (x0 : Vec F S40x32x2048 .f32) : (k : ℕ) → k ≤ 40 → VSt F → VSt F
  | 0, _, s => s
  | k + 1, hk, s => vstep (Scalar.addi g0 (BitVec.ofNat 32 k)) (slab x0 k hk) (vscan g0 x0 k (Nat.le_of_succ_le hk) s)

theorem hz2 : (![0, 0] : Fin 2 → ℕ) = fun _ => 0 := by funext a; fin_cases a <;> rfl

/-- A load of the whole buffer after a list of stores whose last one was whole reads that store's payload. -/
theorem readCov_cons_unit_zero' {S : Shape} {κ : Kind} {sp : Space} {e : EltTy} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The same over the scratch buffers' shape, spelt with the literal extents. -/
theorem readCov_cons_whole {e : EltTy} (v : View sig .tc .vmem S32x2048 e) (w : S32x2048.Idx → Elt F e) (L : List (View.Piece (Elt F) S32x2048 e)) :
    v.readCov ((⟨Rect.unit (s := S32x2048) ![0, 0] ![32, 2048] inb_S32x2048_S32x2048_0_0, w⟩ : View.Piece (Elt F) S32x2048 e) :: L)
      (Rect.unit (s := S32x2048) ![0, 0] ![32, 2048] inb_S32x2048_S32x2048_0_0).toLoadRect = w :=
  readCov_cons_unit_zero' v hz2 _ w L

/-- The contents a list of stores leaves when its last store was whole: that store's payload. -/
theorem canon_cons_whole {e : EltTy} (w : S32x2048.Idx → Elt F e) (L : List (View.Piece (Elt F) S32x2048 e)) :
    View.canon ((⟨Rect.unit (s := S32x2048) ![0, 0] ![32, 2048] inb_S32x2048_S32x2048_0_0, w⟩ : View.Piece (Elt F) S32x2048 e) :: L) = w :=
  View.canon_cons_unit_zero (S := S32x2048) hz2 inb_S32x2048_S32x2048_0_0 w L

/-- A load through the whole buffer's rectangle is the contents. -/
theorem ld_whole {e : EltTy} (X : S32x2048.Idx → Elt F e) :
    View.ld X (Rect.unit (s := S32x2048) ![0, 0] ![32, 2048] inb_S32x2048_S32x2048_0_0) = X :=
  View.ld_unit_zero (S := S32x2048) hz2 inb_S32x2048_S32x2048_0_0 X

theorem hz3 : (![0, 0, 0] : Fin 3 → ℕ) = fun _ => 0 := by funext a; fin_cases a <;> rfl

/-- The contents a list of stores into the population rows' buffer leaves when its last store was whole. -/
theorem canon_cons_whole40 (w : S40x32.Idx → Elt F .f32) (L : List (View.Piece (Elt F) S40x32 .f32)) :
    View.canon ((⟨Rect.unit (s := S40x32) ![0, 0] ![40, 32] inb_S40x32_S40x32_0_0, w⟩ : View.Piece (Elt F) S40x32 .f32) :: L) = w :=
  View.canon_cons_unit_zero (S := S40x32) hz2 inb_S40x32_S40x32_0_0 w L

/-- A load through the whole input block's rectangle is the block. -/
theorem ld_whole3 (X : S40x32x2048.Idx → Elt F .f32) :
    View.ld X (Rect.unit (s := S40x32x2048) ![0, 0, 0] ![40, 32, 2048] inb_S40x32x2048_S40x32x2048_0_0_0) = X :=
  View.ld_unit_zero (S := S40x32x2048) hz3 inb_S40x32x2048_S40x32x2048_0_0_0 X

end Cert.KernelIdeal.Hand

end
-- ==== Proof.IdealScan.BodyValues.lean ====
/-
  What the scan kernel's body leaves in each buffer, in closed form. At every grid point the four scratch buffers end
  at the forty-slice scan of the block from the state the point started with (at the first point: from the reset
  state — carry -1, sums zero); the running total's buffer ends at its starting contents (zero at the first point) plus
  the block's sum over its forty slices; the population rows' buffer at the block's sums over neurons; and at the last
  point the coefficient-of-variation buffer at the closing formula of the scan's final count, sum and sum of squares.
  Each is read off the run's stores: a load after a whole store reads that store's value, so the chain of forty
  read-modify-write rounds through a buffer collapses to the composed scan.
-/
import proofs.«161861_j30580167147909_1_alg».proof.Proof.IdealScan.Frame
import proofs.«161861_j30580167147909_1_alg».proof.Proof.IdealScan.VecScan

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
set_option maxRecDepth 65536 in
/-- At the first point the carry buffer ends at the scanned carry. -/
theorem valF_s0_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    valF_s0 c i arg1 harg1 arg2 harg2 arg3 harg3 arg4 harg4 arg5 harg5 arg6 harg6 arg7 harg7 arg8 harg8 hc0 hc1 x0 = (vscan (Scalar.muli (BitVec.ofNat 32 (i 0).val) 40#32) x0 40 le_rfl ⟨k0_pay6, k0_pay3 (F := F), k0_pay4 (F := F), k0_pay5 (F := F)⟩).c := by
  unfold valF_s0
  rw [View.read_writes_junk_eq_canon]
  unfold runFirst
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the first point the sum-of-gaps buffer ends at the scanned sum. -/
theorem valF_s1_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    valF_s1 c i arg1 harg1 arg2 harg2 arg3 harg3 arg4 harg4 arg5 harg5 arg6 harg6 arg7 harg7 arg8 harg8 hc0 hc1 x0 = (vscan (Scalar.muli (BitVec.ofNat 32 (i 0).val) 40#32) x0 40 le_rfl ⟨k0_pay6, k0_pay3 (F := F), k0_pay4 (F := F), k0_pay5 (F := F)⟩).sg := by
  unfold valF_s1
  rw [View.read_writes_junk_eq_canon]
  unfold runFirst
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the first point the sum-of-squared-gaps buffer ends at the scanned sum of squares. -/
theorem valF_s2_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    valF_s2 c i arg1 harg1 arg2 harg2 arg3 harg3 arg4 harg4 arg5 harg5 arg6 harg6 arg7 harg7 arg8 harg8 hc0 hc1 x0 = (vscan (Scalar.muli (BitVec.ofNat 32 (i 0).val) 40#32) x0 40 le_rfl ⟨k0_pay6, k0_pay3 (F := F), k0_pay4 (F := F), k0_pay5 (F := F)⟩).sg2 := by
  unfold valF_s2
  rw [View.read_writes_junk_eq_canon]
  unfold runFirst
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the first point the gap-count buffer ends at the scanned count. -/
theorem valF_s3_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    valF_s3 c i arg1 harg1 arg2 harg2 arg3 harg3 arg4 harg4 arg5 harg5 arg6 harg6 arg7 harg7 arg8 harg8 hc0 hc1 x0 = (vscan (Scalar.muli (BitVec.ofNat 32 (i 0).val) 40#32) x0 40 le_rfl ⟨k0_pay6, k0_pay3 (F := F), k0_pay4 (F := F), k0_pay5 (F := F)⟩).cnt := by
  unfold valF_s3
  rw [View.read_writes_junk_eq_canon]
  unfold runFirst
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the first point the running total ends at its start plus the block's sum over time. -/
theorem valF_o1_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    valF_o1 c i arg1 harg1 arg2 harg2 arg3 harg3 arg4 harg4 arg5 harg5 arg6 harg6 arg7 harg7 arg8 harg8 hc0 hc1 x0 = k0_pay7 x0 (k0_pay2 (F := F)) := by
  unfold valF_o1
  rw [View.read_writes_junk_eq_canon]
  unfold runFirst
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]

set_option maxHeartbeats 8000000 in
set_option maxRecDepth 65536 in
/-- At the first point the population rows are the block's sums over neurons. -/
theorem valF_o3_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : condFirst i) (hc1 : ¬condLast i)
    (x0 : Vec F S40x32x2048 .f32) :
    valF_o3 c i arg1 harg1 arg2 harg2 arg3 harg3 arg4 harg4 arg5 harg5 arg6 harg6 arg7 harg7 arg8 harg8 hc0 hc1 x0 = k0_pay8 x0 := by
  unfold valF_o3
  rw [View.read_writes_junk_eq_canon]
  unfold runFirst
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]

set_option maxHeartbeats 8000000 in
set_option maxRecDepth 65536 in
/-- At a middle point the carry buffer ends at the scanned carry. -/
theorem valM_s0_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    valM_s0 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).c := by
  unfold valM_s0
  rw [View.read_writes_junk_eq_canon]
  unfold runMid
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At a middle point the sum-of-gaps buffer ends at the scanned sum. -/
theorem valM_s1_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    valM_s1 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).sg := by
  unfold valM_s1
  rw [View.read_writes_junk_eq_canon]
  unfold runMid
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At a middle point the sum-of-squared-gaps buffer ends at the scanned sum of squares. -/
theorem valM_s2_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    valM_s2 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).sg2 := by
  unfold valM_s2
  rw [View.read_writes_junk_eq_canon]
  unfold runMid
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At a middle point the gap-count buffer ends at the scanned count. -/
theorem valM_s3_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    valM_s3 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).cnt := by
  unfold valM_s3
  rw [View.read_writes_junk_eq_canon]
  unfold runMid
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At a middle point the running total ends at its start plus the block's sum over time. -/
theorem valM_o1_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    valM_o1 c i arg1 harg1 arg2 harg2 arg3 harg3 arg4 harg4 arg5 harg5 arg6 harg6 arg7 harg7 arg8 harg8 hc0 hc1 x0 xo1 xs0 xs1 xs2 xs3 = k0_pay7 x0 xo1 := by
  unfold valM_o1
  rw [View.read_writes_junk_eq_canon]
  unfold runMid
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]

set_option maxHeartbeats 8000000 in
set_option maxRecDepth 65536 in
/-- At a middle point the population rows are the block's sums over neurons. -/
theorem valM_o3_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : ¬condLast i)
    (x0 : Vec F S40x32x2048 .f32) (xo1 : Vec F S32x2048 .f32) (xs0 : Vec F S32x2048 .i32) (xs1 xs2 xs3 : Vec F S32x2048 .f32) :
    valM_o3 c i arg1 harg1 arg2 harg2 arg3 harg3 arg4 harg4 arg5 harg5 arg6 harg6 arg7 harg7 arg8 harg8 hc0 hc1 x0 xo1 xs0 xs1 xs2 xs3 = k0_pay8 x0 := by
  unfold valM_o3
  rw [View.read_writes_junk_eq_canon]
  unfold runMid
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]

set_option maxHeartbeats 8000000 in
set_option maxRecDepth 65536 in
/-- At the last point the carry buffer ends at the scanned carry. -/
theorem valL_s0_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_s0 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).c := by
  unfold valL_s0
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the last point the sum-of-gaps buffer ends at the scanned sum. -/
theorem valL_s1_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_s1 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).sg := by
  unfold valL_s1
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the last point the sum-of-squared-gaps buffer ends at the scanned sum of squares. -/
theorem valL_s2_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_s2 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).sg2 := by
  unfold valL_s2
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the last point the gap-count buffer ends at the scanned count. -/
theorem valL_s3_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_s3 c i arg1 harg1 arg2 harg2 arg3 harg3 arg4 harg4 arg5 harg5 arg6 harg6 arg7 harg7 arg8 harg8 hc0 hc1 x0 xo1 xs0 xs1 xs2 xs3 = (vscan (Scalar.muli (BitVec.ofNat 32 (i 0).val) 40#32) x0 40 le_rfl ⟨xs0, xs1, xs2, xs3⟩).cnt := by
  unfold valL_s3
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

set_option maxHeartbeats 8000000 in
set_option maxRecDepth 65536 in
/-- At the last point the running total ends at its start plus the block's sum over time. -/
theorem valL_o1_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_o1 c i arg1 harg1 arg2 harg2 arg3 harg3 arg4 harg4 arg5 harg5 arg6 harg6 arg7 harg7 arg8 harg8 hc0 hc1 x0 xo1 xs0 xs1 xs2 xs3 = k0_pay7 x0 xo1 := by
  unfold valL_o1
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]

set_option maxHeartbeats 8000000 in
set_option maxRecDepth 65536 in
/-- At the last point the population rows are the block's sums over neurons. -/
theorem valL_o3_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_o3 c i arg1 harg1 arg2 harg2 arg3 harg3 arg4 harg4 arg5 harg5 arg6 harg6 arg7 harg7 arg8 harg8 hc0 hc1 x0 xo1 xs0 xs1 xs2 xs3 = k0_pay8 x0 := by
  unfold valL_o3
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]

set_option maxHeartbeats 8000000 in
set_option maxRecDepth 65536 in
/-- At the last point the coefficient of variation is the closing formula of the final count, sum and sum of squares. -/
theorem valL_o2_eq (c : Dev nD) (i : grid0.Coords) (arg1 : Memref sig .tc .vmem S40x32x2048 .f32) (harg1 : arg1.IsWhole) (arg2 : Memref sig .tc .vmem S32x2048 .f32) (harg2 : arg2.IsWhole) (arg3 : Memref sig .tc .vmem S32x2048 .f32) (harg3 : arg3.IsWhole) (arg4 : Memref sig .tc .vmem S40x32 .f32) (harg4 : arg4.IsWhole) (arg5 : Memref sig .tc .vmem S32x2048 .i32) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .f32) (harg8 : arg8.IsWhole) (hc0 : ¬condFirst i) (hc1 : condLast i)
    (x0 : Vec F S40x32x2048 .f32) (xo1 : Vec F S32x2048 .f32) (xs0 : Vec F S32x2048 .i32) (xs1 xs2 xs3 : Vec F S32x2048 .f32) :
    valL_o2 c i arg1 harg1 arg2 harg2 arg3 harg3 arg4 harg4 arg5 harg5 arg6 harg6 arg7 harg7 arg8 harg8 hc0 hc1 x0 xo1 xs0 xs1 xs2 xs3 = k0_pay1 (vscan (Scalar.muli (BitVec.ofNat 32 (i 0).val) 40#32) x0 40 le_rfl ⟨xs0, xs1, xs2, xs3⟩).cnt (vscan (Scalar.muli (BitVec.ofNat 32 (i 0).val) 40#32) x0 40 le_rfl ⟨xs0, xs1, xs2, xs3⟩).sg (vscan (Scalar.muli (BitVec.ofNat 32 (i 0).val) 40#32) x0 40 le_rfl ⟨xs0, xs1, xs2, xs3⟩).sg2 := by
  unfold valL_o2
  rw [View.read_writes_junk_eq_canon]
  unfold runLast
  dsimp only
  sl_unfold_run_names
  simp only [readCov_cons_whole, canon_cons_whole, canon_cons_whole40, View.readAt_eq_ld, harg1.read_unread, harg2.read_unread, harg5.read_unread, harg6.read_unread, harg7.read_unread, harg8.read_unread, ld_whole, ld_whole3]
  rfl

end Cert.KernelIdeal.Hand

end
-- ==== Proof.Spec.lean ====
/-
  What the two programs compute, stated once, over the spike history `X : [1000, 32, 2048]` (time, batch, neuron) on the
  extended reals, with no program in sight.

  * `total X b n = Σ_t X[t,b,n]` and `pop X t b = Σ_n X[t,b,n]`.
  * Per (batch, neuron) column, a scan in time: a spike at step `t` is `X[t,b,n] > 0`; the scan carries the time of the
    last spike (-1 before the first), and adds, at every spike that has a predecessor, the gap to that predecessor into
    a running sum of gaps, its square into a running sum of squared gaps, and 1 into a gap count. The coefficient of
    variation of the gaps is then: mean = sum / max(count, 1); var = (sum of squares − count · mean²) / max(count − 1, 1);
    cv = sqrt(max(var, 0)) / max(mean, 1e-12) where count ≥ 1, else 0.
  * Three shared tails, applied by both programs to the same arrays with the same host operations: the firing rates and
    the active-neuron counts from the totals, and the lag-one circular autocorrelation ("synchrony") of the population
    signal; they are carried as opaque functions.
-/
import Idealize.ShloMosaic.PureOps.Ideal
import Idealize.ShloMosaic.Lib.ValueIdx

noncomputable section

open scoped BigOperators

namespace Cert.ScanSpec

open Idealize.ShloMosaic Idealize.ShloMosaic.ValueIdx

abbrev ShX : Shape := ⟨3, ![1000, 32, 2048]⟩
abbrev ShBN : Shape := ⟨2, ![32, 2048]⟩
abbrev ShTB : Shape := ⟨2, ![1000, 32]⟩
abbrev ShB : Shape := ⟨1, ![32]⟩
abbrev Sh0 : Shape := ⟨0, ![]⟩
abbrev Sh1B : Shape := ⟨2, ![1, 32]⟩
abbrev Sh999B : Shape := ⟨2, ![999, 32]⟩

/-! ## Sums -/

/-- The spike total of a (batch, neuron) column. -/
def total (X : ShX.Idx → EReal) (b : Fin 32) (n : Fin 2048) : EReal := ∑ t : Fin 1000, X (ix3 t b n)
/-- The population signal: spikes summed over neurons. -/
def pop (X : ShX.Idx → EReal) (t : Fin 1000) (b : Fin 32) : EReal := ∑ n : Fin 2048, X (ix3 t b n)
/-- The totals as an array. -/
def totalArr (X : ShX.Idx → EReal) : ShBN.Idx → EReal := fun j => total X (j 0) (j 1)
/-- The population signal as an array. -/
def popArr (X : ShX.Idx → EReal) : ShTB.Idx → EReal := fun j => pop X (j 0) (j 1)

/-! ## The scan down a column -/

/-- A column of the history as a sequence in time (zero past the end). -/
def col (X : ShX.Idx → EReal) (b : Fin 32) (n : Fin 2048) (t : ℕ) : EReal :=
  if h : t < 1000 then X (ix3 ⟨t, h⟩ b n) else 0

/-- "There is a spike": the value is positive, as the one-bit word the comparison returns. -/
def spk (a : EReal) : BitVec 1 := FloatOps.cmpf (F := Ideal) (φ := .f32) .ogt a (Ideal.ofBits .f32 0x00000000#32)

/-- The scan's state: the time of the last spike as a signed 32-bit word (-1: none yet), the sum of gaps, the sum of
    squared gaps, the number of gaps. -/
structure St where
  carry : BitVec 32
  sg : EReal
  sg2 : EReal
  cnt : EReal

/-- Before the first step. -/
def init : St := ⟨0xFFFFFFFF#32, Ideal.ofBits .f32 0x00000000#32, Ideal.ofBits .f32 0x00000000#32, Ideal.ofBits .f32 0x00000000#32⟩

/-- "This step is a spike with a predecessor". -/
def validBit (a : EReal) (carry : BitVec 32) : BitVec 1 := IntOp.andi (spk a) (IntOp.cmpi .sge carry 0#32)

/-- The gap this step contributes: the time since the last spike, exactly, or zero. -/
def gap (g : BitVec 32) (a : EReal) (carry : BitVec 32) : EReal :=
  Scalar.select (validBit a carry) (FloatOps.sitofp (F := Ideal) .f32 (IntOp.subi g carry)) (Ideal.ofBits .f32 0x00000000#32)

/-- One step of the scan at time word `g` on the value `a`. -/
def step (g : BitVec 32) (a : EReal) (s : St) : St :=
  { carry := Scalar.select (spk a) g s.carry
    sg := s.sg + gap g a s.carry
    sg2 := s.sg2 + gap g a s.carry * gap g a s.carry
    cnt := s.cnt + Scalar.select (validBit a s.carry) (Ideal.ofBits .f32 0x3F800000#32) (Ideal.ofBits .f32 0x00000000#32) }

/-- The state after the first `t` steps of a column. -/
def run (a : ℕ → EReal) : ℕ → St
  | 0 => init
  | t + 1 => step (BitVec.ofNat 32 t) (a t) (run a t)

/-- The coefficient of variation from the count, the sum and the sum of squares. -/
def cvOf (cnt sg sg2 : EReal) : EReal :=
  let one : EReal := Ideal.ofBits .f32 0x3F800000#32
  let zero : EReal := Ideal.ofBits .f32 0x00000000#32
  let eps : EReal := Ideal.ofBits .f32 0x2B8CBCCC#32
  let mean : EReal := Ideal.div sg (max cnt one)
  let var : EReal := Ideal.div (sg2 - cnt * mean * mean) (max (cnt - one) one)
  Scalar.select (FloatOps.cmpf (F := Ideal) (φ := .f32) .oge cnt one) (Ideal.div (Ideal.sqrt (max var zero)) (max mean eps)) zero

/-- The coefficient of variation of a column's gaps, by the scan. -/
def cvScan (X : ShX.Idx → EReal) (b : Fin 32) (n : Fin 2048) : EReal :=
  cvOf (run (col X b n) 1000).cnt (run (col X b n) 1000).sg (run (col X b n) 1000).sg2
/-- The same as an array. -/
def cvScanArr (X : ShX.Idx → EReal) : ShBN.Idx → EReal := fun j => cvScan X (j 0) (j 1)

/-! ## The same statistic by a running maximum (the vectorised formulation) -/

/-- `where(spike at u, u, -1)`: a spike's own time, else -1. -/
def mark (a : ℕ → EReal) (u : ℕ) : BitVec 32 := Scalar.select (spk (a u)) (BitVec.ofNat 32 u) 0xFFFFFFFF#32

/-- The time of the last spike at or before `t` (or -1), as a signed maximum over a window of 1000 positions ending
    at `t`, the positions before time 0 holding the least word. -/
def lastW (a : ℕ → EReal) (t : ℕ) : BitVec 32 :=
  (List.finRange 1000).foldl (fun r k => IntOp.maxsi r
    (if 999 ≤ t + k.val ∧ t + k.val - 999 < 1000 then mark a (t + k.val - 999) else BitVec.intMin 32)) (BitVec.intMin 32)

/-- The time of the last spike strictly before `t` (or -1). -/
def prevW (a : ℕ → EReal) (t : ℕ) : BitVec 32 := if t = 0 then 0xFFFFFFFF#32 else lastW a (t - 1)

/-- The gap contributed at time `t`. -/
def gapW (a : ℕ → EReal) (t : ℕ) : EReal := gap (BitVec.ofNat 32 t) (a t) (prevW a t)

/-- "Time `t` is a spike with a predecessor". -/
def validW (a : ℕ → EReal) (t : ℕ) : BitVec 1 := validBit (a t) (prevW a t)

/-- The sum of gaps. -/
def sgW (a : ℕ → EReal) : EReal := ∑ t : Fin 1000, gapW a t.val
/-- The sum of squared gaps. -/
def sg2W (a : ℕ → EReal) : EReal := ∑ t : Fin 1000, gapW a t.val * gapW a t.val
/-- The number of gaps: counted in 32-bit integers, then converted. -/
def cntW (a : ℕ → EReal) : EReal :=
  FloatOps.sitofp (F := Ideal) .f32 ((List.finRange 1000).foldl (fun r t => IntOp.addi r ((validW a t.val).setWidth 32)) 0#32)

/-- The coefficient of variation of a column's gaps, by the running maximum. -/
def cvWin (X : ShX.Idx → EReal) (b : Fin 32) (n : Fin 2048) : EReal :=
  cvOf (cntW (col X b n)) (sgW (col X b n)) (sg2W (col X b n))
/-- The same as an array. -/
def cvWinArr (X : ShX.Idx → EReal) : ShBN.Idx → EReal := fun j => cvWin X (j 0) (j 1)

/-! ## The shared tails (host operations both programs apply; never opened) -/

/-- Firing rates: the totals over the duration, 1000 steps of 1 ms = 1.0. -/
def rates (tot : FVec Ideal ShBN .f32) : FVec Ideal ShBN .f32 :=
  Host.divf tot (broadcastInDim ShBN ![] (by decide) (constant (F := Ideal) Sh0 .f32 0x3F800000#32))

/-- Active neurons per batch row: how many totals are positive. -/
def active (tot : FVec Ideal ShBN .f32) : FVec Ideal ShB .f32 :=
  Host.reduceAdd (uitofp .f32 (cmpf .ogt tot (broadcastInDim ShBN ![] (by decide) (constant (F := Ideal) Sh0 .f32 0x00000000#32))))
    (constant (F := Ideal) Sh0 .f32 0x00000000#32) (by decide : ShBN.ReducesTo [1] ShB) (by decide)

/-- The population signal rolled by one step in time, circularly (`jnp.roll(pop, 1, axis=0)`): its last row first. -/
def roll1 (p : FVec Ideal ShTB .f32) : FVec Ideal ShTB .f32 :=
  concatenate ShTB 0 [⟨Sh1B, extractStridedSlice Sh1B ![999, 0] p (by decide)⟩, ⟨Sh999B, extractStridedSlice Sh999B ![0, 0] p (by decide)⟩] (by decide : Shape.Concatenates [Sh1B, Sh999B] ShTB 0)

/-- A signal minus its mean over time. -/
def centered (p : FVec Ideal ShTB .f32) : FVec Ideal ShTB .f32 :=
  subf p (broadcastInDim ShTB ![0, 1] (by decide) (broadcastInDim Sh1B ![1] (by decide)
    (Host.divf (Host.reduceAdd p (constant (F := Ideal) Sh0 .f32 0x00000000#32) (by decide : ShTB.ReducesTo [0] ShB) (by decide))
      (broadcastInDim ShB ![] (by decide) (constant (F := Ideal) Sh0 .f32 0x447A0000#32)))))

/-- The sum over time. -/
def sumT (p : FVec Ideal ShTB .f32) : FVec Ideal ShB .f32 :=
  Host.reduceAdd p (constant (F := Ideal) Sh0 .f32 0x00000000#32) (by decide : ShTB.ReducesTo [0] ShB) (by decide)

/-- The population standard deviation over time (`pop.std(axis=0)`, zero degrees of freedom removed). -/
def stdT (p : FVec Ideal ShTB .f32) : FVec Ideal ShB .f32 :=
  let dev : FVec Ideal ShTB .f32 := subf p (broadcastInDim ShTB ![0, 1] (by decide)
    (Host.divf (broadcastInDim Sh1B ![1] (by decide) (Host.reduceAdd p (constant (F := Ideal) Sh0 .f32 0x00000000#32) (by decide : ShTB.ReducesTo [0] ShB) (by decide)))
      (broadcastInDim Sh1B ![] (by decide) (constant (F := Ideal) Sh0 .f32 0x447A0000#32))))
  let dof : FVec Ideal Sh0 .f32 := subf (constant (F := Ideal) Sh0 .f32 0x447A0000#32) (sitofp .f32 (constantI Sh0 32 0#32))
  Host.sqrt (select (broadcastInDim ShB ![] (by decide) (cmpf .ogt dof (constant (F := Ideal) Sh0 .f32 0x00000000#32)))
    (Host.divf (Host.reduceAdd (mulf dev dev) (constant (F := Ideal) Sh0 .f32 0x00000000#32) (by decide : ShTB.ReducesTo [0] ShB) (by decide)) (broadcastInDim ShB ![] (by decide) dof))
    (broadcastInDim ShB ![] (by decide) (id (constant (F := Ideal) Sh0 .f32 0x7FC00000#32))))

/-- Synchrony: the lag-one circular autocorrelation of the population signal, zero where the signal is constant. -/
def sync (p : FVec Ideal ShTB .f32) : FVec Ideal ShB .f32 :=
  let xm := centered p
  let ym := centered (roll1 p)
  select (cmpf .ogt (stdT p) (broadcastInDim ShB ![] (by decide) (constant (F := Ideal) Sh0 .f32 0x00000000#32)))
    (Host.divf (sumT (mulf xm ym))
      (maximumf (Host.sqrt (mulf (sumT (mulf xm xm)) (sumT (mulf ym ym)))) (broadcastInDim ShB ![] (by decide) (constant (F := Ideal) Sh0 .f32 0x2B8CBCCC#32))))
    (broadcastInDim ShB ![] (by decide) (id (constant (F := Ideal) Sh0 .f32 0x00000000#32)))

end Cert.ScanSpec

end
-- ==== Proof.ScanMath.Blocks.lean ====
/-
  The 1000 time steps as 25 blocks of 40: the scan's state after `t0 + k` steps is `k` further steps from the state
  after `t0`; the time word of slice `k` of block `blk` is `40·blk + k`; a sum over the 1000 steps is a sum over the
  blocks of the sums over each block's slices.
-/
import proofs.«161861_j30580167147909_1_alg».proof.Proof.Spec

open scoped BigOperators

namespace Cert.ScanSpec

open Idealize.ShloMosaic Idealize.ShloMosaic.ValueIdx

/-- `k` steps of the scan from the state `s`, the first at time `t0`. -/
noncomputable def stepsFrom (a : ℕ → EReal) (t0 : ℕ) (s : St) : ℕ → St
  | 0 => s
  | k + 1 => step (BitVec.ofNat 32 (t0 + k)) (a (t0 + k)) (stepsFrom a t0 s k)

/-- The state after `t0 + k` steps is `k` steps from the state after `t0`. -/
theorem run_add (a : ℕ → EReal) (t0 k : ℕ) : run a (t0 + k) = stepsFrom a t0 (run a t0) k := by
  induction k with
  | zero => rfl
  | succ k ih =>
    show step (BitVec.ofNat 32 (t0 + k)) (a (t0 + k)) (run a (t0 + k))
      = step (BitVec.ofNat 32 (t0 + k)) (a (t0 + k)) (stepsFrom a t0 (run a t0) k)
    rw [ih]

/-- The time word of slice `k` of block `blk`: the block's first time word `blk · 40` plus `k`, in 32-bit words, is the
    word of the natural number `40·blk + k`. -/
theorem gword (blk k : ℕ) :
    Scalar.addi (Scalar.muli (BitVec.ofNat 32 blk) 40#32) (BitVec.ofNat 32 k) = BitVec.ofNat 32 (40 * blk + k) := by
  show BitVec.ofNat 32 blk * BitVec.ofNat 32 40 + BitVec.ofNat 32 k = _
  rw [Nat.mul_comm 40 blk, BitVec.ofNat_add, BitVec.ofNat_mul]

/-- A sum over `Fin 1000` of a function of the value is the sum over `0, …, 999`. -/
theorem sum_fin_eq_range (f : ℕ → EReal) : ∑ t : Fin 1000, f t.val = ∑ t ∈ Finset.range 1000, f t :=
  Fin.sum_univ_eq_sum_range f 1000

/-- The sum through block `blk` is the sum through the blocks before it plus the sum over its forty slices. -/
theorem sum_range_block (f : ℕ → EReal) (blk : ℕ) :
    ∑ t ∈ Finset.range (40 * (blk + 1)), f t
      = (∑ t ∈ Finset.range (40 * blk), f t) + ∑ k : Fin 40, f (40 * blk + k.val) := by
  rw [show 40 * (blk + 1) = 40 * blk + 40 by omega, Finset.sum_range_add,
    Fin.sum_univ_eq_sum_range (fun k => f (40 * blk + k)) 40]

/-- The sum over the first `B` blocks' steps is the sum over those blocks of the sums over each block's slices. -/
theorem sum_range_blocks (f : ℕ → EReal) (B : ℕ) :
    ∑ t ∈ Finset.range (40 * B), f t = ∑ blk ∈ Finset.range B, ∑ k : Fin 40, f (40 * blk + k.val) := by
  induction B with
  | zero => rw [Nat.mul_zero, Finset.range_zero, Finset.sum_empty, Finset.sum_empty]
  | succ B ih => rw [sum_range_block, ih, Finset.sum_range_succ]

/-- A sum over the 1000 steps is the sum over the 25 blocks of the sums over each block's 40 slices. -/
theorem sum_blocks (f : ℕ → EReal) :
    ∑ t : Fin 1000, f t.val = ∑ blk : Fin 25, ∑ k : Fin 40, f (40 * blk.val + k.val) := by
  rw [sum_fin_eq_range, show (1000 : ℕ) = 40 * 25 by norm_num, sum_range_blocks f 25]
  exact (Fin.sum_univ_eq_sum_range (fun blk => ∑ k : Fin 40, f (40 * blk + k.val)) 25).symm

end Cert.ScanSpec
-- ==== Proof.IdealScan.StepAt.lean ====
/-
  The vector-level scan of a block read at one (batch, neuron) column is the column-level scan: one slice's vector step
  at the column is the column's step on the slice's value there, slice `k` of a block read at the column is the block's
  entry `(k, b, n)`, and the first `k` slices of block `blk` scanned on vectors are, at the column, `k` steps of the column
  scan from time `40·blk`.
-/
import proofs.«161861_j30580167147909_1_alg».proof.Proof.IdealScan.VecScan
import proofs.«161861_j30580167147909_1_alg».proof.Proof.ScanMath.Blocks
import proofs.«161861_j30580167147909_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen
open Cert.ScanSpec

/-- The vector state read at a column. -/
def stAt (s : VSt Ideal) (b : Fin 32) (n : Fin 2048) : St :=
  ⟨s.c (ix2 b n), s.sg (ix2 b n), s.sg2 (ix2 b n), s.cnt (ix2 b n)⟩

/-- A `[1, 32, 2048]` slice cast to `[32, 2048]` reads, at `(b, n)`, the slice at `(0, b, n)`. -/
theorem cast_slice_at (v : Vec Ideal S1x32x2048 .f32) (b : Fin 32) (n : Fin 2048) :
    shapeCast S32x2048 v shapeCasts_S1x32x2048_S32x2048 (ix2 b n) = v (ix3 (0 : Fin 1) b n) :=
  shapeCast_1ab_ab_apply v shapeCasts_S1x32x2048_S32x2048 b n

/-- One slice's vector step, read at a column, is the column's step on the slice's value there. -/
theorem vstep_at (g : BitVec 32) (v : Vec Ideal S1x32x2048 .f32) (s : VSt Ideal) (b : Fin 32) (n : Fin 2048) :
    stAt (vstep g v s) b n = step g (v (ix3 (0 : Fin 1) b n)) (stAt s b n) := by
  have hv := cast_slice_at v b n
  unfold stAt vstep step
  simp only [shapeCast_self]
  refine congr (congr (congr (congrArg St.mk ?_) ?_) ?_) ?_
  · show Scalar.select (FloatOps.cmpf (F := Ideal) (φ := .f32) .ogt
        (shapeCast S32x2048 v shapeCasts_S1x32x2048_S32x2048 (ix2 b n)) _) g (s.c (ix2 b n)) = _
    rw [hv]; rfl
  · show s.sg (ix2 b n) + Scalar.select (IntOp.andi (FloatOps.cmpf (F := Ideal) (φ := .f32) .ogt
        (shapeCast S32x2048 v shapeCasts_S1x32x2048_S32x2048 (ix2 b n)) _) _) _ _ = _
    rw [hv]; rfl
  · show s.sg2 (ix2 b n) + Scalar.select (IntOp.andi (FloatOps.cmpf (F := Ideal) (φ := .f32) .ogt
        (shapeCast S32x2048 v shapeCasts_S1x32x2048_S32x2048 (ix2 b n)) _) _) _ _
        * Scalar.select (IntOp.andi (FloatOps.cmpf (F := Ideal) (φ := .f32) .ogt
        (shapeCast S32x2048 v shapeCasts_S1x32x2048_S32x2048 (ix2 b n)) _) _) _ _ = _
    rw [hv]; rfl
  · show s.cnt (ix2 b n) + Scalar.select (IntOp.andi (FloatOps.cmpf (F := Ideal) (φ := .f32) .ogt
        (shapeCast S32x2048 v shapeCasts_S1x32x2048_S32x2048 (ix2 b n)) _) _) _ _ = _
    rw [hv]; rfl

/-- Slice `k` of a block, read at `(0, b, n)`, is the block's entry `(k, b, n)`. -/
theorem slab_at (x0 : Vec Ideal S40x32x2048 .f32) (k : ℕ) (hk : k < 40) (b : Fin 32) (n : Fin 2048) :
    slab x0 k hk (ix3 (0 : Fin 1) b n) = x0 (ix3 ⟨k, hk⟩ b n) := by
  show x0 ((Rect.unit (s := S40x32x2048) ![k, 0, 0] S1x32x2048.size (slabInb k hk)).idx (ix3 (0 : Fin 1) b n)) = _
  refine congrArg x0 (funext fun a => Fin.ext ?_)
  match a with
  | ⟨0, _⟩ => show k + 1 * 0 = k; omega
  | ⟨1, _⟩ => show 0 + 1 * b.val = b.val; omega
  | ⟨2, _⟩ => show 0 + 1 * n.val = n.val; omega

/-- The first `k` slices of block `blk` scanned on vectors are, at a column whose values in the block are those of the
    sequence `a` from time `40·blk`, `k` steps of the column scan from that time. -/
theorem vscan_at (blk : ℕ) (x0 : Vec Ideal S40x32x2048 .f32) (a : ℕ → EReal) (b : Fin 32) (n : Fin 2048)
    (hx : ∀ j (hj : j < 40), x0 (ix3 ⟨j, hj⟩ b n) = a (40 * blk + j)) (s : VSt Ideal) (k : ℕ) (hk : k ≤ 40) :
    stAt (vscan (Scalar.muli (BitVec.ofNat 32 blk) 40#32) x0 k hk s) b n = stepsFrom a (40 * blk) (stAt s b n) k := by
  induction k with
  | zero => rfl
  | succ k ih =>
    show stAt (vstep (Scalar.addi (Scalar.muli (BitVec.ofNat 32 blk) 40#32) (BitVec.ofNat 32 k)) (slab x0 k hk)
        (vscan (Scalar.muli (BitVec.ofNat 32 blk) 40#32) x0 k (Nat.le_of_succ_le hk) s)) b n
      = step (BitVec.ofNat 32 (40 * blk + k)) (a (40 * blk + k)) (stepsFrom a (40 * blk) (stAt s b n) k)
    rw [vstep_at, ih (Nat.le_of_succ_le hk), slab_at, hx k hk, gword]

end Cert.KernelIdeal.Hand

end
-- ==== Proof.IdealScan.PayAt.lean ====
/-
  The values the body stores, read at an index: the spike totals' accumulator plus the block's sum over its forty
  slices, the population signal's row as the sum over neurons, the initial words (zeros, and -1 for "no spike yet"),
  the scan's initial state at a column, and the coefficient of variation computed pointwise from the count, the sum and
  the sum of squares.
-/
import proofs.«161861_j30580167147909_1_alg».proof.Proof.Gen.KernelIdeal.Skeleton
import proofs.«161861_j30580167147909_1_alg».proof.Proof.IdealScan.VecScan
import proofs.«161861_j30580167147909_1_alg».proof.Proof.IdealScan.StepAt
import proofs.«161861_j30580167147909_1_alg».proof.Proof.Spec
import Idealize.ShloMosaic.PureOps.Ideal.Laws
import Idealize.ShloMosaic.Lib.ValueIdx
import Idealize.ShloMosaic.Lib.Pipeline.Value

set_option maxRecDepth 16384

open scoped BigOperators

noncomputable section

namespace Cert.KernelIdeal.Hand

open Idealize.ShloMosaic Idealize.ShloMosaic.ValueIdx
open Cert.KernelIdeal Cert.KernelIdeal.Gen
open Cert.ScanSpec

/-- The totals' payload at a column: the accumulator there plus the sum over the block's forty slices. -/
theorem pay7_at (x0 : Vec Ideal S40x32x2048 .f32) (acc : Vec Ideal S32x2048 .f32) (b : Fin 32) (n : Fin 2048) :
    k0_pay7 x0 acc (ix2 b n) = acc (ix2 b n) + ∑ k : Fin 40, x0 (ix3 k b n) := by
  show shapeCast S32x2048 acc shapeCasts_S32x2048_S32x2048 (ix2 b n)
      + multiReduction (F := Ideal) .add [0] S32x2048 x0 0x00000000#32 reduces_S40x32x2048_S32x2048 (.inl rfl) rfl (ix2 b n) = _
  rw [shapeCast_self]
  refine congrArg (fun z => acc (ix2 b n) + z) ?_
  refine (Ideal.multiReduction_add_single x0 0x00000000#32 reduces_S40x32x2048_S32x2048 (.inl rfl) rfl (ix2 b n)).trans ?_
  show ∑ k : Fin 40, x0 (reduces_S40x32x2048_S32x2048.lift (ix2 b n) k) = _
  refine Finset.sum_congr rfl fun k _ => congrArg x0 (funext fun a => Fin.ext ?_)
  match a with
  | ⟨0, _⟩ => rfl
  | ⟨1, _⟩ => rfl
  | ⟨2, _⟩ => rfl

/-- The population signal's payload at (slice, batch row): the sum over the neurons. -/
theorem pay8_at (x0 : Vec Ideal S40x32x2048 .f32) (k : Fin 40) (b : Fin 32) :
    k0_pay8 x0 (ix2 k b) = ∑ n : Fin 2048, x0 (ix3 k b n) := by
  refine (Ideal.multiReduction_add_single x0 0x00000000#32 reduces_S40x32x2048_S40x32 (.inl rfl) rfl (ix2 k b)).trans ?_
  show ∑ n : Fin 2048, x0 (reduces_S40x32x2048_S40x32.lift (ix2 k b) n) = _
  refine Finset.sum_congr rfl fun n _ => congrArg x0 (funext fun a => Fin.ext ?_)
  match a with
  | ⟨0, _⟩ => rfl
  | ⟨1, _⟩ => rfl
  | ⟨2, _⟩ => rfl

/-- The totals start at zero. -/
theorem pay2_at (j : S32x2048.Idx) : k0_pay2 (F := Ideal) j = 0 := Ideal.ofBits_zero_f32

/-- The sum of gaps starts at zero. -/
theorem pay3_at (j : S32x2048.Idx) : k0_pay3 (F := Ideal) j = 0 := by
  show shapeCast S32x2048 (broadcast S32x2048 (Scalar.ofBits (F := Ideal) .f32 0x00000000#32)) shapeCasts_S32x2048_S32x2048 j = 0
  rw [shapeCast_self]; exact Ideal.ofBits_zero_f32

/-- The sum of squared gaps starts at zero. -/
theorem pay4_at (j : S32x2048.Idx) : k0_pay4 (F := Ideal) j = 0 := by
  show shapeCast S32x2048 (broadcast S32x2048 (Scalar.ofBits (F := Ideal) .f32 0x00000000#32)) shapeCasts_S32x2048_S32x2048 j = 0
  rw [shapeCast_self]; exact Ideal.ofBits_zero_f32

/-- The gap count starts at zero. -/
theorem pay5_at (j : S32x2048.Idx) : k0_pay5 (F := Ideal) j = 0 := by
  show shapeCast S32x2048 (broadcast S32x2048 (Scalar.ofBits (F := Ideal) .f32 0x00000000#32)) shapeCasts_S32x2048_S32x2048 j = 0
  rw [shapeCast_self]; exact Ideal.ofBits_zero_f32

/-- The time of the last spike starts at -1. -/
theorem pay6_at (j : S32x2048.Idx) : k0_pay6 j = 0xFFFFFFFF#32 := by
  show shapeCast S32x2048 (broadcast S32x2048 4294967295#32) shapeCasts_S32x2048_S32x2048 j = 0xFFFFFFFF#32
  rw [shapeCast_self]; rfl

/-- The initial words, read at a column, are the column scan's initial state. -/
theorem init_at (b : Fin 32) (n : Fin 2048) :
    stAt (⟨k0_pay6, k0_pay3 (F := Ideal), k0_pay4 (F := Ideal), k0_pay5 (F := Ideal)⟩ : VSt Ideal) b n = Cert.ScanSpec.init := by
  show St.mk (k0_pay6 (ix2 b n)) (k0_pay3 (F := Ideal) (ix2 b n)) (k0_pay4 (F := Ideal) (ix2 b n)) (k0_pay5 (F := Ideal) (ix2 b n))
    = St.mk 0xFFFFFFFF#32 (Ideal.ofBits .f32 0x00000000#32) (Ideal.ofBits .f32 0x00000000#32) (Ideal.ofBits .f32 0x00000000#32)
  rw [pay6_at, pay3_at, pay4_at, pay5_at, Ideal.ofBits_zero_f32]

/-- The stored statistic at an index is the coefficient of variation of the count, the sum and the sum of squares
    there. -/
theorem pay1_at (cnt sg sg2 : Vec Ideal S32x2048 .f32) (j : S32x2048.Idx) :
    k0_pay1 cnt sg sg2 j = cvOf (cnt j) (sg j) (sg2 j) := rfl

end Cert.KernelIdeal.Hand

end
-- ==== Proof.IdealScan.PointValues.lean ====
/-
  The recurrence over grid points, solved. With X the spike history and, for a (batch, neuron) column, a(u) = X[u, b, n]:
  after point t (time steps 0 … 40 t + 39 consumed) the four scratch buffers hold, at (b, n), the scan's state
  `run a (40 t + 40)`; the running total holds Σ_{u < 40 t + 40} a(u); the population rows' buffer holds, at row k and
  batch b, Σ_n X[40 t + k, b, n]; and after the last point the coefficient-of-variation buffer holds `cvScan X b n`.
  By induction on the point: a point's block is time steps 40 t … 40 t + 39 of the history, and scanning it from the
  state after point t − 1 is forty more steps of the column's scan.
-/
import proofs.«161861_j30580167147909_1_alg».proof.Proof.IdealScan.BodyValues
import proofs.«161861_j30580167147909_1_alg».proof.Proof.IdealScan.StepAt
import proofs.«161861_j30580167147909_1_alg».proof.Proof.IdealScan.PayAt
import proofs.«161861_j30580167147909_1_alg».proof.Proof.ScanMath.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.ScanSpec Idealize.ShloMosaic.ValueIdx
open scoped BigOperators

variable (m : (ℓ : Loc nD τ sig) → Buf (Elt Ideal) ℓ)

/-- The spike history as core `c` holds it when the program starts. -/
abbrev Xc (c : Dev nD) : ShX.Idx → EReal := m ((c : Thread nD τ).loc main_arg0)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem coord0 : ∀ t : Fin cfg0.N, ((grid0.coords t) 0).val = t.val :=
  (by decide +kernel : ∀ t : Fin grid0.N, ((grid0.coords t) 0).val = t.val)

theorem lt1000 (t : Fin cfg0.N) (k : Fin 40) : 40 * t.val + k.val < 1000 := by
  have h1 := t.isLt; have h2 : cfg0.N = 25 := N_0; have h3 := k.isLt; omega

/-- The input block at point `t` is time steps `40 t … 40 t + 39` of the history. -/
theorem iblk_at (c : Dev nD) (t : Fin cfg0.N) (k : Fin 40) (b : Fin 32) (n : Fin 2048) :
    iblk m c 0 t (ix3 k b n) = Xc m c (ix3 ⟨40 * t.val + k.val, lt1000 t k⟩ b n) := by
  unfold iblk
  rw [View.read_apply]
  show V m c main_arg0 (((cfg0.win 0).blk t).view.emb (ix3 k b n)) = _
  rw [V_main_arg0]
  show m ((c : Thread nD τ).loc main_arg0) (((cfg0.win 0).blk t).view.emb (ix3 k b n)) = m ((c : Thread nD τ).loc main_arg0) (ix3 ⟨40 * t.val + k.val, lt1000 t k⟩ b n)
  apply congrArg
  obtain ⟨e0, e1, e2⟩ := idx0 t
  funext a; apply Fin.ext
  match a with
  | ⟨0, _⟩ => show win0_0.index t (0 : Fin 3) * 40 + 1 * k.val = 40 * t.val + k.val; omega
  | ⟨1, _⟩ => show win0_0.index t (1 : Fin 3) * 32 + 1 * b.val = b.val; omega
  | ⟨2, _⟩ => show win0_0.index t (2 : Fin 3) * 2048 + 1 * n.val = n.val; omega

/-- The block's column is the history's column, forty steps on. -/
theorem iblk_col (c : Dev nD) (t : Fin cfg0.N) (b : Fin 32) (n : Fin 2048) (j : ℕ) (hj : j < 40) :
    iblk m c 0 t (ix3 (⟨j, hj⟩ : Fin 40) b n) = col (Xc m c) b n (40 * t.val + j) := by
  rw [iblk_at m c t ⟨j, hj⟩ b n]
  unfold col
  rw [dif_pos (lt1000 t ⟨j, hj⟩)]

/-- Scanning the block of point `t` is forty more steps of every column's scan. -/
theorem scan_block (c : Dev nD) (t : Fin cfg0.N) (s : VSt Ideal) (b : Fin 32) (n : Fin 2048) :
    stAt (vscan (Scalar.muli (BitVec.ofNat 32 ((grid0.coords t) 0).val) 40#32) (iblk m c 0 t) 40 le_rfl s) b n
      = stepsFrom (col (Xc m c) b n) (40 * t.val) (stAt s b n) 40 := by
  rw [coord0 t]
  exact vscan_at t.val (iblk m c 0 t) (col (Xc m c) b n) b n (fun j hj => iblk_col m c t b n j hj) s 40 le_rfl

/-- The scratch state of a point's outputs, as a vector state. -/
def stOf (o : Outs Ideal) : VSt Ideal := ⟨o.s0, o.s1, o.s2, o.s3⟩

/-- THE SCAN, point by point: after point `n'` every column's state is its scan over the first `40 n' + 40` steps. -/
theorem scratch_at (c : Dev nD) : ∀ (n' : ℕ) (hn : n' < cfg0.N) (b : Fin 32) (n : Fin 2048),
    stAt (stOf (outsAt0 m c n' hn)) b n = run (col (Xc m c) b n) (40 * n' + 40)
  | 0, hn, b, n => by
    rw [show outsAt0 m c 0 hn = _ from outsAt0_F m c ⟨0, hn⟩ rfl]
    unfold stOf; dsimp only
    rw [valF_s0_eq, valF_s1_eq, valF_s2_eq, valF_s3_eq]
    show stAt (vscan _ _ 40 le_rfl _) b n = _
    rw [scan_block m c ⟨0, hn⟩, init_at]
    exact (run_add (col (Xc m c) b n) (40 * 0) 40).symm
  | n' + 1, hn, b, n => by
    have ih := scratch_at c n' (Nat.lt_of_succ_lt hn) b n
    have hrun : run (col (Xc m c) b n) (40 * (n' + 1) + 40) = stepsFrom (col (Xc m c) b n) (40 * (n' + 1)) (run (col (Xc m c) b n) (40 * n' + 40)) 40 := by
      rw [show 40 * (n' + 1) = 40 * n' + 40 from by omega]; exact run_add _ _ _
    by_cases h1 : n' + 1 = 24
    · rw [show outsAt0 m c (n' + 1) hn = _ from outsAt0_L m c ⟨n' + 1, hn⟩ (Nat.succ_ne_zero n') h1]
      unfold stOf; dsimp only
      rw [valL_s0_eq, valL_s1_eq, valL_s2_eq, valL_s3_eq]
      show stAt (vscan _ _ 40 le_rfl _) b n = _
      rw [scan_block m c ⟨n' + 1, hn⟩, hrun, ← ih]
      rfl
    · rw [show outsAt0 m c (n' + 1) hn = _ from outsAt0_M m c ⟨n' + 1, hn⟩ (Nat.succ_ne_zero n') h1]
      unfold stOf; dsimp only
      rw [valM_s0_eq, valM_s1_eq, valM_s2_eq, valM_s3_eq]
      show stAt (vscan _ _ 40 le_rfl _) b n = _
      rw [scan_block m c ⟨n' + 1, hn⟩, hrun, ← ih]
      rfl

/-- One point's contribution to the running total: the block's forty steps. -/
theorem total_step (c : Dev nD) (t : Fin cfg0.N) (b : Fin 32) (n : Fin 2048) (acc : Vec Ideal S32x2048 .f32)
    (hacc : acc (ix2 b n) = ∑ u ∈ Finset.range (40 * t.val), col (Xc m c) b n u) :
    k0_pay7 (iblk m c 0 t) acc (ix2 b n) = ∑ u ∈ Finset.range (40 * (t.val + 1)), col (Xc m c) b n u := by
  rw [pay7_at, hacc, sum_range_block (col (Xc m c) b n) t.val]
  congr 1
  exact Finset.sum_congr rfl fun k _ => iblk_col m c t b n k.val k.isLt

/-- The running total, point by point. -/
theorem total_at (c : Dev nD) : ∀ (n' : ℕ) (hn : n' < cfg0.N) (b : Fin 32) (n : Fin 2048),
    (outsAt0 m c n' hn).o1 (ix2 b n) = ∑ u ∈ Finset.range (40 * (n' + 1)), col (Xc m c) b n u
  | 0, hn, b, n => by
    rw [show outsAt0 m c 0 hn = _ from outsAt0_F m c ⟨0, hn⟩ rfl]
    dsimp only
    rw [valF_o1_eq]
    exact total_step m c ⟨0, hn⟩ b n _ (by rw [pay2_at]; simp)
  | n' + 1, hn, b, n => by
    have ih := total_at c n' (Nat.lt_of_succ_lt hn) b n
    by_cases h1 : n' + 1 = 24
    · rw [show outsAt0 m c (n' + 1) hn = _ from outsAt0_L m c ⟨n' + 1, hn⟩ (Nat.succ_ne_zero n') h1]
      dsimp only
      rw [valL_o1_eq]
      exact total_step m c ⟨n' + 1, hn⟩ b n _ ih
    · rw [show outsAt0 m c (n' + 1) hn = _ from outsAt0_M m c ⟨n' + 1, hn⟩ (Nat.succ_ne_zero n') h1]
      dsimp only
      rw [valM_o1_eq]
      exact total_step m c ⟨n' + 1, hn⟩ b n _ ih

/-- The population rows at every point. -/
theorem pop_at (c : Dev nD) (t : Fin cfg0.N) (k : Fin 40) (b : Fin 32) :
    (outsAt0 m c t.val t.isLt).o3 (ix2 k b) = pop (Xc m c) ⟨40 * t.val + k.val, lt1000 t k⟩ b := by
  have key : k0_pay8 (iblk m c 0 t) (ix2 k b) = pop (Xc m c) ⟨40 * t.val + k.val, lt1000 t k⟩ b := by
    rw [pay8_at]; unfold pop
    exact Finset.sum_congr rfl fun n _ => iblk_at m c t k b n
  by_cases h0 : t.val = 0
  · rw [outsAt0_F m c t h0]; dsimp only; rw [valF_o3_eq]; exact key
  · by_cases h1 : t.val = 24
    · rw [outsAt0_L m c t h0 h1]; dsimp only; rw [valL_o3_eq]; exact key
    · rw [outsAt0_M m c t h0 h1]; dsimp only; rw [valM_o3_eq]; exact key

end Cert.KernelIdeal.Hand

end
-- ==== Proof.IdealScan.Arrays.lean ====
/-
  The three output arrays of the launch after the run, as functions of the spike history X. The spike totals' and the
  coefficient-of-variation windows are resident over the whole grid — one block, the whole array, written back once,
  after the last point — so the arrays end at what the last point left: Σ_t X[t, b, n], and the scan's coefficient of
  variation. The population signal's window moves with the grid: point t writes back rows 40 t … 40 t + 39, and the 25
  blocks tile the 1000 rows, so the array ends at Σ_n X[t, b, n].
-/
import proofs.«161861_j30580167147909_1_alg».proof.Proof.IdealScan.PointValues

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.ScanSpec Idealize.ShloMosaic.ValueIdx
open scoped BigOperators

variable (m : (ℓ : Loc nD τ sig) → Buf (Elt Ideal) ℓ)

theorem h24 : 24 < cfg0.N := lt_of_lt_of_eq (by decide) N_0.symm

/-- After the last point the running total is the sum over all 1000 steps. -/
theorem total_last (c : Dev nD) (b : Fin 32) (n : Fin 2048) :
    (outsAt0 m c 24 h24).o1 (ix2 b n) = total (Xc m c) b n := by
  rw [total_at m c 24 h24 b n]
  unfold total
  rw [show 40 * (24 + 1) = 1000 from rfl, ← sum_fin_eq_range]
  exact Finset.sum_congr rfl fun t _ => by unfold col; rw [dif_pos t.isLt]

/-- After the last point the coefficient-of-variation buffer holds the scan's statistic. -/
theorem cv_last (c : Dev nD) (b : Fin 32) (n : Fin 2048) :
    (outsAt0 m c 24 h24).o2 (ix2 b n) = cvScan (Xc m c) b n := by
  have hs := scratch_at m c 24 h24 b n
  rw [show 40 * 24 + 40 = 1000 from rfl] at hs
  have hL := outsAt0_L m c ⟨24, h24⟩ (by decide) rfl
  have e2 : (outsAt0 m c 24 h24).o2 = k0_pay1 (outsAt0 m c 24 h24).s3 (outsAt0 m c 24 h24).s1 (outsAt0 m c 24 h24).s2 := by
    rw [show outsAt0 m c 24 h24 = _ from hL]; dsimp only
    rw [valL_o2_eq, valL_s3_eq, valL_s1_eq, valL_s2_eq]
  rw [e2, pay1_at]
  unfold cvScan
  generalize outsAt0 m c 24 h24 = o at hs ⊢
  generalize run (col (Xc m c) b n) 1000 = s at hs ⊢
  have h3 : o.s3 (ix2 b n) = s.cnt := congrArg St.cnt hs
  have h1 : o.s1 (ix2 b n) = s.sg := congrArg St.sg hs
  have h2 : o.s2 (ix2 b n) = s.sg2 := congrArg St.sg2 hs
  rw [h3, h1, h2]

/-! ## The resident windows: one block, the whole array -/

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem mem_blk1 (t : Fin cfg0.N) (i : S32x2048.Idx) :
    i ∈ ((cfg0.win 1).blk t).view.set ↔ ∀ a : Fin 2, win0_1.index t a * S32x2048.size a ≤ (i a).val ∧ (i a).val < win0_1.index t a * S32x2048.size a + S32x2048.size a := by
  show i ∈ ((View.whole main_v0_0).slice (win0_1.rect t)).set ↔ _
  rw [View.set_slice_whole, Rect.mem_set_unit]
  exact Iff.rfl
theorem mem_blk2 (t : Fin cfg0.N) (i : S32x2048.Idx) :
    i ∈ ((cfg0.win 2).blk t).view.set ↔ ∀ a : Fin 2, win0_2.index t a * S32x2048.size a ≤ (i a).val ∧ (i a).val < win0_2.index t a * S32x2048.size a + S32x2048.size a := by
  show i ∈ ((View.whole main_v0_1).slice (win0_2.rect t)).set ↔ _
  rw [View.set_slice_whole, Rect.mem_set_unit]
  exact Iff.rfl
theorem mem_blk3 (t : Fin cfg0.N) (i : S1000x32.Idx) :
    i ∈ ((cfg0.win 3).blk t).view.set ↔ ∀ a : Fin 2, win0_3.index t a * S40x32.size a ≤ (i a).val ∧ (i a).val < win0_3.index t a * S40x32.size a + S40x32.size a := by
  show i ∈ ((View.whole main_v0_2).slice (win0_3.rect t)).set ↔ _
  rw [View.set_slice_whole, Rect.mem_set_unit]
  exact Iff.rfl

theorem last_of_flush1 (t : Fin cfg0.N) (hf : (cfg0.win 1).flush t = true) : t = ⟨24, h24⟩ := by
  have h := (flush0_1 t).mp hf
  have hN : t.val < 25 := lt_of_lt_of_eq t.isLt N_0
  exact Fin.ext (by dsimp only at h ⊢; omega)
theorem last_of_flush2 (t : Fin cfg0.N) (hf : (cfg0.win 2).flush t = true) : t = ⟨24, h24⟩ := by
  have h := (flush0_2 t).mp hf
  have hN : t.val < 25 := lt_of_lt_of_eq t.isLt N_0
  exact Fin.ext (by dsimp only at h ⊢; omega)

/-- What the last point writes back of the totals is the whole array of column sums. -/
theorem flushed1_eq (c : Dev nD) (t : Fin cfg0.N) (hf : (cfg0.win 1).flush t = true) :
    (dats m 0 c).flushed 1 t = ((cfg0.win 1).blk t).view.read (Elt Ideal) (totalArr (Xc m c)) := by
  obtain rfl := last_of_flush1 t hf
  show (cfg0.win 1).cut (grid0.coords ⟨24, h24⟩) ((dats m 0 c).after 1 ⟨24, h24⟩) = _
  rw [after0_1]
  funext y
  rw [View.read_apply]
  show (outsAt0 m c 24 h24).o1 y = totalArr (Xc m c) (((cfg0.win 1).blk ⟨24, h24⟩).view.emb y)
  obtain ⟨e0, e1⟩ := idx1 ⟨24, h24⟩
  have hemb : ((cfg0.win 1).blk ⟨24, h24⟩).view.emb y = ix2 (y 0) (y 1) := by
    funext a; apply Fin.ext
    match a with
    | ⟨0, _⟩ => show win0_1.index ⟨24, h24⟩ (0 : Fin 2) * 32 + 1 * (y 0).val = (y 0).val; omega
    | ⟨1, _⟩ => show win0_1.index ⟨24, h24⟩ (1 : Fin 2) * 2048 + 1 * (y 1).val = (y 1).val; omega
  rw [hemb, show y = ix2 (y 0) (y 1) from eq_ix2 y]
  exact total_last m c (y 0) (y 1)

/-- What the last point writes back of the coefficient of variation is the whole array of the scan's statistic. -/
theorem flushed2_eq (c : Dev nD) (t : Fin cfg0.N) (hf : (cfg0.win 2).flush t = true) :
    (dats m 0 c).flushed 2 t = ((cfg0.win 2).blk t).view.read (Elt Ideal) (cvScanArr (Xc m c)) := by
  obtain rfl := last_of_flush2 t hf
  show (cfg0.win 2).cut (grid0.coords ⟨24, h24⟩) ((dats m 0 c).after 2 ⟨24, h24⟩) = _
  rw [after0_2]
  funext y
  rw [View.read_apply]
  show (outsAt0 m c 24 h24).o2 y = cvScanArr (Xc m c) (((cfg0.win 2).blk ⟨24, h24⟩).view.emb y)
  obtain ⟨e0, e1⟩ := idx2 ⟨24, h24⟩
  have hemb : ((cfg0.win 2).blk ⟨24, h24⟩).view.emb y = ix2 (y 0) (y 1) := by
    funext a; apply Fin.ext
    match a with
    | ⟨0, _⟩ => show win0_2.index ⟨24, h24⟩ (0 : Fin 2) * 32 + 1 * (y 0).val = (y 0).val; omega
    | ⟨1, _⟩ => show win0_2.index ⟨24, h24⟩ (1 : Fin 2) * 2048 + 1 * (y 1).val = (y 1).val; omega
  rw [hemb, show y = ix2 (y 0) (y 1) from eq_ix2 y]
  exact cv_last m c (y 0) (y 1)

/-- What point `t` writes back of the population signal is rows `40 t … 40 t + 39` of the sums over neurons. -/
theorem flushed3_eq (c : Dev nD) (t : Fin cfg0.N) :
    (dats m 0 c).flushed 3 t = ((cfg0.win 3).blk t).view.read (Elt Ideal) (popArr (Xc m c)) := by
  show (cfg0.win 3).cut (grid0.coords t) ((dats m 0 c).after 3 t) = _
  rw [after0_3]
  funext y
  rw [View.read_apply]
  show (outsAt0 m c t.val t.isLt).o3 y = popArr (Xc m c) (((cfg0.win 3).blk t).view.emb y)
  obtain ⟨e0, e1⟩ := idx3 t
  have hemb : ((cfg0.win 3).blk t).view.emb y = ix2 (⟨40 * t.val + (y 0).val, lt1000 t (y 0)⟩ : Fin 1000) (y 1) := by
    funext a; apply Fin.ext
    match a with
    | ⟨0, _⟩ => show win0_3.index t (0 : Fin 2) * 40 + 1 * (y 0).val = 40 * t.val + (y 0).val; omega
    | ⟨1, _⟩ => show win0_3.index t (1 : Fin 2) * 32 + 1 * (y 1).val = (y 1).val; omega
  rw [hemb, show y = ix2 (y 0) (y 1) from eq_ix2 y]
  exact pop_at m c t (y 0) (y 1)

/-- The totals' array after the run. -/
theorem final1 (c : Dev nD) : (dats m 0 c).arrAt 1 cfg0.N = totalArr (Xc m c) :=
  (dats m 0 c).arrAt_eq_of_cover 1 (totalArr (Xc m c)) (fun t hf => flushed1_eq m c t hf) (fun i => by
    refine ⟨⟨24, h24⟩, (flush0_1 _).mpr rfl, ?_⟩
    rw [mem_blk1]
    obtain ⟨e0, e1⟩ := idx1 ⟨24, h24⟩
    intro a
    match a with
    | ⟨0, _⟩ => show win0_1.index ⟨24, h24⟩ (0 : Fin 2) * 32 ≤ (i 0).val ∧ (i 0).val < win0_1.index ⟨24, h24⟩ (0 : Fin 2) * 32 + 32; have hi0 : (i 0).val < 32 := (i 0).isLt; omega
    | ⟨1, _⟩ => show win0_1.index ⟨24, h24⟩ (1 : Fin 2) * 2048 ≤ (i 1).val ∧ (i 1).val < win0_1.index ⟨24, h24⟩ (1 : Fin 2) * 2048 + 2048; have hi1 : (i 1).val < 2048 := (i 1).isLt; omega)

/-- The coefficient-of-variation array after the run. -/
theorem final2 (c : Dev nD) : (dats m 0 c).arrAt 2 cfg0.N = cvScanArr (Xc m c) :=
  (dats m 0 c).arrAt_eq_of_cover 2 (cvScanArr (Xc m c)) (fun t hf => flushed2_eq m c t hf) (fun i => by
    refine ⟨⟨24, h24⟩, (flush0_2 _).mpr rfl, ?_⟩
    rw [mem_blk2]
    obtain ⟨e0, e1⟩ := idx2 ⟨24, h24⟩
    intro a
    match a with
    | ⟨0, _⟩ => show win0_2.index ⟨24, h24⟩ (0 : Fin 2) * 32 ≤ (i 0).val ∧ (i 0).val < win0_2.index ⟨24, h24⟩ (0 : Fin 2) * 32 + 32; have hi0 : (i 0).val < 32 := (i 0).isLt; omega
    | ⟨1, _⟩ => show win0_2.index ⟨24, h24⟩ (1 : Fin 2) * 2048 ≤ (i 1).val ∧ (i 1).val < win0_2.index ⟨24, h24⟩ (1 : Fin 2) * 2048 + 2048; have hi1 : (i 1).val < 2048 := (i 1).isLt; omega)

/-- The population signal's array after the run. -/
theorem final3 (c : Dev nD) : (dats m 0 c).arrAt 3 cfg0.N = popArr (Xc m c) :=
  (dats m 0 c).arrAt_eq_of_cover 3 (popArr (Xc m c)) (fun t _ => flushed3_eq m c t) (fun i => by
    have hi0 : (i 0).val < 1000 := (i 0).isLt
    have hi1 : (i 1).val < 32 := (i 1).isLt
    refine ⟨⟨(i 0).val / 40, lt_of_lt_of_eq (by omega) N_0.symm⟩, flush0_3 _, ?_⟩
    rw [mem_blk3]
    obtain ⟨e0, e1⟩ := idx3 ⟨(i 0).val / 40, lt_of_lt_of_eq (by omega) N_0.symm⟩
    intro a
    match a with
    | ⟨0, _⟩ => show win0_3.index _ (0 : Fin 2) * 40 ≤ (i 0).val ∧ (i 0).val < win0_3.index _ (0 : Fin 2) * 40 + 40; dsimp only at e0; omega
    | ⟨1, _⟩ => show win0_3.index _ (1 : Fin 2) * 32 ≤ (i 1).val ∧ (i 1).val < win0_3.index _ (1 : Fin 2) * 32 + 32; omega)

end Cert.KernelIdeal.Hand

end
-- ==== Proof.IdealScan.TailFns.lean ====
/-
  The lag-one circular autocorrelation of a population signal ("synchrony"), as the kernel program's host tail spells it:
  the signal rolled by one step, both centred on their means over time, the sum of products over the root of the
  product of the sums of squares (floored at 1e-12), zero where the signal's standard deviation is zero. It is the
  specification's function, operation for operation.
-/
import proofs.«161861_j30580167147909_1_alg».proof.Proof.Gen.KernelIdeal
import proofs.«161861_j30580167147909_1_alg».proof.Proof.Spec

noncomputable section

namespace Cert.KernelIdeal.Hand

open Idealize.ShloMosaic Cert.KernelIdeal Cert.KernelIdeal.Gen

/-- A signal rolled by one step in time, circularly. -/
def rollK (p : FVec Ideal S1000x32 .f32) : FVec Ideal S1000x32 .f32 :=
  concatenate S1000x32 0 [⟨S1x32, extractStridedSlice S1x32 ![999, 0] p slices_S1000x32_S1x32_999_0⟩,
    ⟨S999x32, extractStridedSlice S999x32 ![0, 0] p slices_S1000x32_S999x32_0_0⟩] concatenates_S1x32_S999x32_S1000x32_d0

/-- The sum over time. -/
def sumK (p : FVec Ideal S1000x32 .f32) : FVec Ideal S32 .f32 :=
  Host.reduceAdd p (constant (F := Ideal) S_ .f32 0x00000000#32) reducesTo_S1000x32_S32_d0 h_S_

/-- A signal minus its mean over time. -/
def centeredK (p : FVec Ideal S1000x32 .f32) : FVec Ideal S1000x32 .f32 :=
  subf p (broadcastInDim S1000x32 ![0, 1] bcast_S1x32_S1000x32_0_1 (broadcastInDim S1x32 ![1] bcast_S32_S1x32_1
    (Host.divf (sumK p) (broadcastInDim S32 ![] bcast_S_S32 (constant (F := Ideal) S_ .f32 0x447A0000#32)))))

/-- The population standard deviation over time. -/
def stdK (p : FVec Ideal S1000x32 .f32) : FVec Ideal S32 .f32 :=
  Host.sqrt (select
    (broadcastInDim S32 ![] bcast_S_S32 (cmpf .ogt
      (subf (constant (F := Ideal) S_ .f32 0x447A0000#32) (sitofp .f32 (constantI S_ 32 0#32))) (constant (F := Ideal) S_ .f32 0x00000000#32)))
    (Host.divf
      (Host.reduceAdd
        (mulf
          (subf p (broadcastInDim S1000x32 ![0, 1] bcast_S1x32_S1000x32_0_1
            (Host.divf (broadcastInDim S1x32 ![1] bcast_S32_S1x32_1 (sumK p))
              (broadcastInDim S1x32 ![] bcast_S_S1x32 (constant (F := Ideal) S_ .f32 0x447A0000#32)))))
          (subf p (broadcastInDim S1000x32 ![0, 1] bcast_S1x32_S1000x32_0_1
            (Host.divf (broadcastInDim S1x32 ![1] bcast_S32_S1x32_1 (sumK p))
              (broadcastInDim S1x32 ![] bcast_S_S1x32 (constant (F := Ideal) S_ .f32 0x447A0000#32))))))
        (constant (F := Ideal) S_ .f32 0x00000000#32) reducesTo_S1000x32_S32_d0 h_S_)
      (broadcastInDim S32 ![] bcast_S_S32
        (subf (constant (F := Ideal) S_ .f32 0x447A0000#32) (sitofp .f32 (constantI S_ 32 0#32)))))
    (broadcastInDim S32 ![] bcast_S_S32 (id (constant (F := Ideal) S_ .f32 0x7FC00000#32))))

/-- The synchrony of a population signal. -/
def syncK (p : FVec Ideal S1000x32 .f32) : FVec Ideal S32 .f32 :=
  select (cmpf .ogt (stdK p) (broadcastInDim S32 ![] bcast_S_S32 (constant (F := Ideal) S_ .f32 0x00000000#32)))
    (Host.divf (sumK (mulf (centeredK p) (centeredK (rollK p))))
      (maximumf (Host.sqrt (mulf (sumK (mulf (centeredK p) (centeredK p))) (sumK (mulf (centeredK (rollK p)) (centeredK (rollK p))))))
        (broadcastInDim S32 ![] bcast_S_S32 (constant (F := Ideal) S_ .f32 0x2B8CBCCC#32))))
    (broadcastInDim S32 ![] bcast_S_S32 (id (constant (F := Ideal) S_ .f32 0x00000000#32)))

/-- It is the specification's synchrony, operation for operation. -/
theorem syncK_eq (p : Cert.ScanSpec.ShTB.Idx → EReal) : syncK p = Cert.ScanSpec.sync p := rfl

end Cert.KernelIdeal.Hand

end
-- ==== Proof.IdealScan.KernelRun.lean ====
/-
  The idealized kernel program's run, with every result named. After the launch the host computes, from the spike
  totals, the firing rates (totals over the duration) and the active-neuron counts (how many totals are positive), and
  from the population signal its lag-one circular autocorrelation; these chains are carried whole, as the
  specification's functions of the arrays the launch left — the totals, the scan's coefficient of variation, and the
  population signal, each a function of the spike history.
-/
import proofs.«161861_j30580167147909_1_alg».proof.Proof.IdealScan.Arrays
import proofs.«161861_j30580167147909_1_alg».proof.Proof.IdealScan.TailFns
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.ScanSpec Idealize.ShloMosaic.ValueIdx

variable (m : (ℓ : Loc nD τ sig) → Buf (Elt Ideal) ℓ) (ρ : Dev nD → PrngReg)

-- the host operations stay closed while the two sides are compared
attribute [local irreducible] Host.reduce Host.reduceWindow Host.reduceAdd Host.divf Host.sqrt concatenate extractStridedSlice
  broadcastInDim iotaInDim select cmpf cmpi andi subi sitofp uitofp extui mulf subf maximumf constant constantI

set_option maxHeartbeats 4000000 in
/-- The firing rates are the specification's function of the totals. -/
theorem tail_rates (c : Dev nD) :
    Pipeline.afterTail₀ cfgs (dats m) 0 (V0 m) [hostOps1, hostOps1_1, hostOps1_2, hostOps1_3, hostOps1_4, hostOps1_5] c main_v2 = rates (totalArr (Xc m c)) := by
  unfold Pipeline.afterTail₀
  simp only [hostOps1, hostOps1_1, hostOps1_2, hostOps1_3, hostOps1_4, hostOps1_5, List.flatten_cons, List.flatten_nil, List.append_nil, List.cons_append, List.nil_append]
  after_results_simp
  rw [Pipeline.withArrays_arr spec0 launch0.win.arr_inj c _ _ 1, final1]
  rfl

set_option maxHeartbeats 4000000 in
/-- The active-neuron counts are the specification's function of the totals. -/
theorem tail_active (c : Dev nD) :
    Pipeline.afterTail₀ cfgs (dats m) 0 (V0 m) [hostOps1, hostOps1_1, hostOps1_2, hostOps1_3, hostOps1_4, hostOps1_5] c main_v6 = active (totalArr (Xc m c)) := by
  unfold Pipeline.afterTail₀
  simp only [hostOps1, hostOps1_1, hostOps1_2, hostOps1_3, hostOps1_4, hostOps1_5, List.flatten_cons, List.flatten_nil, List.append_nil, List.cons_append, List.nil_append]
  after_results_simp
  rw [Pipeline.withArrays_arr spec0 launch0.win.arr_inj c _ _ 1, final1]
  rfl

set_option maxRecDepth 8192 in
set_option maxHeartbeats 8000000 in
/-- From any contents, the later host operations leave the synchrony of the population signal's buffer in the last result. -/
theorem tailW_sync (W : Valuation τ sig (Elt Ideal)) :
    StableHlo.after (List.flatten [hostOps1, hostOps1_1, hostOps1_2, hostOps1_3, hostOps1_4, hostOps1_5]) W (Proc.devRef .tc main_v34) = syncK (W (Proc.devRef .tc main_v0_2)) := by
  simp only [hostOps1, hostOps1_1, hostOps1_2, hostOps1_3, hostOps1_4, hostOps1_5, List.flatten_cons, List.flatten_nil, List.append_nil, List.cons_append, List.nil_append]
  after_results_simp <;> rfl

/-- The synchrony is the specification's function of the population signal. -/
theorem tail_sync (c : Dev nD) :
    Pipeline.afterTail₀ cfgs (dats m) 0 (V0 m) [hostOps1, hostOps1_1, hostOps1_2, hostOps1_3, hostOps1_4, hostOps1_5] c main_v34 = sync (popArr (Xc m c)) := by
  unfold Pipeline.afterTail₀
  rw [tailW_sync, Pipeline.withArrays_arr spec0 launch0.win.arr_inj c _ _ 3, final3, syncK_eq]

theorem mem_rest_v2 : main_v2 ∈ Pipeline.restRefs sig (cfgs 0).spec := by decide
theorem mem_rest_v6 : main_v6 ∈ Pipeline.restRefs sig (cfgs 0).spec := by decide
theorem mem_rest_v34 : main_v34 ∈ Pipeline.restRefs sig (cfgs 0).spec := by decide

/-- THE RUN of the idealized kernel program: it terminates, faults nowhere, and ends with its five results at the
    specification's functions of the spike history, which it leaves unchanged. -/
theorem run_values : θ_run defs (onTc (τ := τ) (main (F := Ideal))) ⟨m, fun _ => 0, ρ⟩ (fun r => ∀ c : Dev nD,
      r.2.mem ((c.tc : Thread nD τ).loc main_v2) = rates (totalArr (Xc m c))
    ∧ r.2.mem ((c.tc : Thread nD τ).loc main_v0_1) = cvScanArr (Xc m c)
    ∧ r.2.mem ((c.tc : Thread nD τ).loc main_v34) = sync (popArr (Xc m c))
    ∧ r.2.mem ((c.tc : Thread nD τ).loc main_v0_0) = totalArr (Xc m c)
    ∧ r.2.mem ((c.tc : Thread nD τ).loc main_v6) = active (totalArr (Xc m c))
    ∧ r.2.mem ((c.tc : Thread nD τ).loc main_arg0) = m ((c.tc : Thread nD τ).loc main_arg0)) :=
  (θ_run defs _ _).mono (fun r h c =>
    ⟨((h c).2 main_v2 mem_rest_v2).trans (tail_rates m c),
     ((h c).1 2).trans (final2 m c),
     ((h c).2 main_v34 mem_rest_v34).trans (tail_sync m c),
     ((h c).1 1).trans (final1 m c),
     ((h c).2 main_v6 mem_rest_v6).trans (tail_active m c),
     ((h c).1 0).trans (((dats m 0 c).arrAt_in 0 rfl _).trans ((A_eq m c 0).trans (V_main_arg0 m c)))⟩)
    (run_main m ρ)

end Cert.KernelIdeal.Hand

end
-- ==== Proof.RefSide.Ops.lean ====
/-
  The reference program as a straight line. Its @main calls seven outlined functions (a three-way choice against a
  scalar, four times; the running maximum; the circular shift by one step; the standard deviation, which itself calls
  the variance, which calls a choice); a call executes the callee's body on the operands, so the program is the list of
  its 144 host operations in order, each callee's operations standing at the call site over that call's buffers. The
  list is cut where @main is cut (67 + 77 operations).

  This module holds the list, the equation "@main is the list run in order", and the fact that every operation touches
  TensorCore buffers only; the run over it is read back in the next module.
-/
import proofs.«161861_j30580167147909_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's first 60 statements: 67 operations (the choice of a spike's own time or -1, the running maximum and the
    choice of the gap or zero are calls, listed inline). -/
abbrev ops0 : List (HloOp τ sig (Elt F)) :=
  [ StableHlo.nullary main_cst (constant S_ .f32 0x00000000#32),
    StableHlo.binary main_arg0 main_cst main_v0 ((fun x v => Host.reduceAdd x v reducesTo_S1000x32x2048_S32x2048_d0 h_S_) : (⟨S1000x32x2048, .f32⟩ : BufTy).Contents (Elt F) → (⟨S_, .f32⟩ : BufTy).Contents (Elt F) → (⟨S32x2048, .f32⟩ : BufTy).Contents (Elt F)),
    StableHlo.nullary main_cst_0 (constant S_ .f32 0x3F800000#32),
    StableHlo.unary main_cst_0 main_v1 (broadcastInDim S32x2048 ![] bcast_S_S32x2048 : (⟨S_, .f32⟩ : BufTy).Contents (Elt F) → (⟨S32x2048, .f32⟩ : BufTy).Contents (Elt F)),
    StableHlo.binary main_v0 main_v1 main_v2 (Host.divf : (⟨S32x2048, .f32⟩ : BufTy).Contents (Elt F) → (⟨S32x2048, .f32⟩ : BufTy).Contents (Elt F) → (⟨S32x2048, .f32⟩ : BufTy).Contents (Elt F)),
    StableHlo.nullary main_cst_1 (constant S_ .f32 0x00000000#32),
    StableHlo.unary main_cst_1 main_v3 (broadcastInDim S32x2048 ![] bcast_S_S32x2048 : (⟨S_, .f32⟩ : BufTy).Contents (Elt F) → (⟨S32x2048, .f32⟩ : BufTy).Contents (Elt F)),
    StableHlo.binary main_v0 main_v3 main_v4 (cmpf .ogt : (⟨S32x2048, .f32⟩ : BufTy).Contents (Elt F) → (⟨S32x2048, .f32⟩ : BufTy).Contents (Elt F) → (⟨S32x2048, .i1⟩ : BufTy).Contents (Elt F)),
    StableHlo.unary main_v4 main_v5 (uitofp .f32 : (⟨S32x2048, .i1⟩ : BufTy).Contents (Elt F) → (⟨S32x2048, .f32⟩ : BufTy).Contents (Elt F)),
    StableHlo.nullary main_cst_2 (constant S_ .f32 0x00000000#32),
    StableHlo.binary main_v5 main_cst_2 main_v6 ((fun x v => Host.reduceAdd x v reducesTo_S32x2048_S32_d1 h_S_) : (⟨S32x2048, .f32⟩ : BufTy).Contents (Elt F) → (⟨S_, .f32⟩ : BufTy).Contents (Elt F) → (⟨S32, .f32⟩ : BufTy).Contents (Elt F)),
    StableHlo.nullary main_cst_3 (constant S_ .f32 0x00000000#32),
    StableHlo.unary main_cst_3 main_v7 (broadcastInDim S1000x32x2048 ![] bcast_S_S1000x32x2048 : (⟨S_, .f32⟩ : BufTy).Contents (Elt F) → (⟨S1000x32x2048, .f32⟩ : BufTy).Contents (Elt F)),
    StableHlo.binary main_arg0 main_v7 main_v8 (cmpf .ogt : (⟨S1000x32x2048, .f32⟩ : BufTy).Contents (Elt F) → (⟨S1000x32x2048, .f32⟩ : BufTy).Contents (Elt F) → (⟨S1000x32x2048, .i1⟩ : BufTy).Contents (Elt F)),
    StableHlo.nullary main_v9 (iotaInDim S1000 32 0),
    StableHlo.unary main_v9 main_v10 (broadcastInDim S1000x1x1 ![0] bcast_S1000_S1000x1x1_0 : (⟨S1000, .i32⟩ : BufTy).Contents (Elt F) → (⟨S1000x1x1, .i32⟩ : BufTy).Contents (Elt F)),
    StableHlo.nullary main_c (constantI S_ 32 4294967295#32),
    StableHlo.TRef.unary (.of main_c : StableHlo.TRef sig ⟨S_, .i32⟩) (.of main_call0_v0 : StableHlo.TRef sig ⟨S_, .i32⟩) id,
    StableHlo.TRef.unary (.of main_v10 : StableHlo.TRef sig ⟨S1000x1x1, .i32⟩) (.of main_call0_v1 : StableHlo.TRef sig ⟨S1000x32x2048, .i32⟩) (broadcastInDim S1000x32x2048 ![0, 1, 2] bcast_S1000x1x1_S1000x32x2048_0_1_2),
    StableHlo.TRef.unary (.of main_call0_v0 : StableHlo.TRef sig ⟨S_, .i32⟩) (.of main_call0_v2 : StableHlo.TRef sig ⟨S1000x32x2048, .i32⟩) (broadcastInDim S1000x32x2048 ![] bcast_S_S1000x32x2048),
    StableHlo.TRef.ternary (.of main_v8 : StableHlo.TRef sig ⟨S1000x32x2048, .i1⟩) (.of main_call0_v1 : StableHlo.TRef sig ⟨S1000x32x2048, .i32⟩) (.of main_call0_v2 : StableHlo.TRef sig ⟨S1000x32x2048, .i32⟩) (.of main_v11 : StableHlo.TRef sig ⟨S1000x32x2048, .i32⟩) select,
    StableHlo.TRef.nullary (.of main_call1_c : StableHlo.TRef sig ⟨S_, .i32⟩) (constantI S_ 32 2147483648#32),
    StableHlo.TRef.unary (.of main_call1_c : StableHlo.TRef sig ⟨S_, .i32⟩) (.of main_call1_v0 : StableHlo.TRef sig ⟨S_, .i32⟩) (broadcastInDim S_ ![] bcast_S_S_),
    StableHlo.TRef.binary (.of main_v11 : StableHlo.TRef sig ⟨S1000x32x2048, .i32⟩) (.of main_call1_v0 : StableHlo.TRef sig ⟨S_, .i32⟩) (.of main_v12 : StableHlo.TRef sig ⟨S1000x32x2048, .i32⟩) (fun x v => Host.reduceWindow IntOp.maxsi ![1000, 1, 1] ![1, 1, 1] ![999, 0, 0] ![0, 0, 0] x v reduceWindows_S1000x32x2048_S1000x32x2048_w1000s1p999_0_w1s1p0_0_w1s1p0_0 h_S_),
    StableHlo.nullary main_c_4 (constantI S_ 32 4294967295#32),
    StableHlo.unary main_c_4 main_v13 (broadcastInDim S1x32x2048 ![] bcast_S_S1x32x2048 : (⟨S_, .i32⟩ : BufTy).Contents (Elt F) → (⟨S1x32x2048, .i32⟩ : BufTy).Contents (Elt F)),
    StableHlo.unary main_v12 main_v14 ((extractStridedSlice S999x32x2048 ![0, 0, 0] · slices_S1000x32x2048_S999x32x2048_0_0_0) : (⟨S1000x32x2048, .i32⟩ : BufTy).Contents (Elt F) → (⟨S999x32x2048, .i32⟩ : BufTy).Contents (Elt F)),
    StableHlo.binary main_v13 main_v14 main_v15 ((fun a b => concatenate S1000x32x2048 0 [⟨S1x32x2048, a⟩, ⟨S999x32x2048, b⟩] concatenates_S1x32x2048_S999x32x2048_S1000x32x2048_d0) : (⟨S1x32x2048, .i32⟩ : BufTy).Contents (Elt F) → (⟨S999x32x2048, .i32⟩ : BufTy).Contents (Elt F) → (⟨S1000x32x2048, .i32⟩ : BufTy).Contents (Elt F)),
    StableHlo.nullary main_c_5 (constantI S_ 32 0#32),
    StableHlo.unary main_c_5 main_v16 (broadcastInDim S1000x32x2048 ![] bcast_S_S1000x32x2048 : (⟨S_, .i32⟩ : BufTy).Contents (Elt F) → (⟨S1000x32x2048, .i32⟩ : BufTy).Contents (Elt F)),
    StableHlo.binary main_v15 main_v16 main_v17 (cmpi .sge : (⟨S1000x32x2048, .i32⟩ : BufTy).Contents (Elt F) → (⟨S1000x32x2048, .i32⟩ : BufTy).Contents (Elt F) → (⟨S1000x32x2048, .i1⟩ : BufTy).Contents (Elt F)),
    StableHlo.binary main_v8 main_v17 main_v18 (andi : (⟨S1000x32x2048, .i1⟩ : BufTy).Contents (Elt F) → (⟨S1000x32x2048, .i1⟩ : BufTy).Contents (Elt F) → (⟨S1000x32x2048, .i1⟩ : BufTy).Contents (Elt F)),
    StableHlo.unary main_v10 main_v19 (broadcastInDim S1000x32x2048 ![0, 1, 2] bcast_S1000x1x1_S1000x32x2048_0_1_2 : (⟨S1000x1x1, .i32⟩ : BufTy).Contents (Elt F) → (⟨S1000x32x2048, .i32⟩ : BufTy).Contents (Elt F)),
    StableHlo.binary main_v19 main_v15 main_v20 (subi : (⟨S1000x32x2048, .i32⟩ : BufTy).Contents (Elt F) → (⟨S1000x32x2048, .i32⟩ : BufTy).Contents (Elt F) → (⟨S1000x32x2048, .i32⟩ : BufTy).Contents (Elt F)),
    StableHlo.unary main_v20 main_v21 (sitofp .f32 : (⟨S1000x32x2048, .i32⟩ : BufTy).Contents (Elt F) → (⟨S1000x32x2048, .f32⟩ : BufTy).Contents (Elt F)),
    StableHlo.nullary main_cst_6 (constant S_ .f32 0x00000000#32),
    StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S1000x32x2048, .f32⟩) (broadcastInDim S1000x32x2048 ![] bcast_S_S1000x32x2048),
    StableHlo.TRef.ternary (.of main_v18 : StableHlo.TRef sig ⟨S1000x32x2048, .i1⟩) (.of main_v21 : StableHlo.TRef sig ⟨S1000x32x2048, .f32⟩) (.of main_call2_v1 : StableHlo.TRef sig ⟨S1000x32x2048, .f32⟩) (.of main_v22 : StableHlo.TRef sig ⟨S1000x32x2048, .f32⟩) select,
    StableHlo.unary main_v18 main_v23 ((extui 32 · natLt_1_32) : (⟨S1000x32x2048, .i1⟩ : BufTy).Contents (Elt F) → (⟨S1000x32x2048, .i32⟩ : BufTy).Contents (Elt F)),
    StableHlo.nullary main_c_7 (constantI S_ 32 0#32),
    StableHlo.binary main_v23 main_c_7 main_v24 ((fun x v => Host.reduce IntOp.addi x v reducesTo_S1000x32x2048_S32x2048_d0 h_S_) : (⟨S1000x32x2048, .i32⟩ : BufTy).Contents (Elt F) → (⟨S_, .i32⟩ : BufTy).Contents (Elt F) → (⟨S32x2048, .i32⟩ : BufTy).Contents (Elt F)),
    StableHlo.unary main_v24 main_v25 (sitofp .f32 : (⟨S32x2048, .i32⟩ : BufTy).Contents (Elt F) → (⟨S32x2048, .f32⟩ : BufTy).Contents (Elt F)),
    StableHlo.nullary main_cst_8 (constant S_ .f32 0x00000000#32),
    StableHlo.binary main_v22 main_cst_8 main_v26 ((fun x v => Host.reduceAdd x v reducesTo_S1000x32x2048_S32x2048_d0 h_S_) : (⟨S1000x32x2048, .f32⟩ : BufTy).Contents (Elt F) → (⟨S_, .f32⟩ : BufTy).Contents (Elt F) → (⟨S32x2048, .f32⟩ : BufTy).Contents (Elt F)),
    StableHlo.binary main_v22 main_v22 main_v27 (mulf : (⟨S1000x32x2048, .f32⟩ : BufTy).Contents (Elt F) → (⟨S1000x32x2048, .f32⟩ : BufTy).Contents (Elt F) → (⟨S1000x32x2048, .f32⟩ : BufTy).Contents (Elt F)),
    StableHlo.nullary main_cst_9 (constant S_ .f32 0x00000000#32),
    StableHlo.binary main_v27 main_cst_9 main_v28 ((fun x v => Host.reduceAdd x v reducesTo_S1000x32x2048_S32x2048_d0 h_S_) : (⟨S1000x32x2048, .f32⟩ : BufTy).Contents (Elt F) → (⟨S_, .f32⟩ : BufTy).Contents (Elt F) → (⟨S32x2048, .f32⟩ : BufTy).Contents (Elt F)),
    StableHlo.nullary main_cst_10 (constant S_ .f32 0x3F800000#32),
    StableHlo.unary main_cst_10 main_v29 (broadcastInDim S32x2048 ![] bcast_S_S32x2048 : (⟨S_, .f32⟩ : BufTy).Contents (Elt F) → (⟨S32x2048, .f32⟩ : BufTy).Contents (Elt F)),
    StableHlo.binary main_v25 main_v29 main_v30 (maximumf : (⟨S32x2048, .f32⟩ : BufTy).Contents (Elt F) → (⟨S32x2048, .f32⟩ : BufTy).Contents (Elt F) → (⟨S32x2048, .f32⟩ : BufTy).Contents (Elt F)),
    StableHlo.binary main_v26 main_v30 main_v31 (Host.divf : (⟨S32x2048, .f32⟩ : BufTy).Contents (Elt F) → (⟨S32x2048, .f32⟩ : BufTy).Contents (Elt F) → (⟨S32x2048, .f32⟩ : BufTy).Contents (Elt F)),
    StableHlo.binary main_v25 main_v31 main_v32 (mulf : (⟨S32x2048, .f32⟩ : BufTy).Contents (Elt F) → (⟨S32x2048, .f32⟩ : BufTy).Contents (Elt F) → (⟨S32x2048, .f32⟩ : BufTy).Contents (Elt F)),
    StableHlo.binary main_v32 main_v31 main_v33 (mulf : (⟨S32x2048, .f32⟩ : BufTy).Contents (Elt F) → (⟨S32x2048, .f32⟩ : BufTy).Contents (Elt F) → (⟨S32x2048, .f32⟩ : BufTy).Contents (Elt F)),
    StableHlo.binary main_v28 main_v33 main_v34 (subf : (⟨S32x2048, .f32⟩ : BufTy).Contents (Elt F) → (⟨S32x2048, .f32⟩ : BufTy).Contents (Elt F) → (⟨S32x2048, .f32⟩ : BufTy).Contents (Elt F)),
    StableHlo.nullary main_cst_11 (constant S_ .f32 0x3F800000#32),
    StableHlo.unary main_cst_11 main_v35 (broadcastInDim S32x2048 ![] bcast_S_S32x2048 : (⟨S_, .f32⟩ : BufTy).Contents (Elt F) → (⟨S32x2048, .f32⟩ : BufTy).Contents (Elt F)),
    StableHlo.binary main_v25 main_v35 main_v36 (subf : (⟨S32x2048, .f32⟩ : BufTy).Contents (Elt F) → (⟨S32x2048, .f32⟩ : BufTy).Contents (Elt F) → (⟨S32x2048, .f32⟩ : BufTy).Contents (Elt F)),
    StableHlo.nullary main_cst_12 (constant S_ .f32 0x3F800000#32),
    StableHlo.unary main_cst_12 main_v37 (broadcastInDim S32x2048 ![] bcast_S_S32x2048 : (⟨S_, .f32⟩ : BufTy).Contents (Elt F) → (⟨S32x2048, .f32⟩ : BufTy).Contents (Elt F)),
    StableHlo.binary main_v36 main_v37 main_v38 (maximumf : (⟨S32x2048, .f32⟩ : BufTy).Contents (Elt F) → (⟨S32x2048, .f32⟩ : BufTy).Contents (Elt F) → (⟨S32x2048, .f32⟩ : BufTy).Contents (Elt F)),
    StableHlo.binary main_v34 main_v38 main_v39 (Host.divf : (⟨S32x2048, .f32⟩ : BufTy).Contents (Elt F) → (⟨S32x2048, .f32⟩ : BufTy).Contents (Elt F) → (⟨S32x2048, .f32⟩ : BufTy).Contents (Elt F)),
    StableHlo.nullary main_cst_13 (constant S_ .f32 0x3F800000#32),
    StableHlo.unary main_cst_13 main_v40 (broadcastInDim S32x2048 ![] bcast_S_S32x2048 : (⟨S_, .f32⟩ : BufTy).Contents (Elt F) → (⟨S32x2048, .f32⟩ : BufTy).Contents (Elt F)),
    StableHlo.binary main_v25 main_v40 main_v41 (cmpf .oge : (⟨S32x2048, .f32⟩ : BufTy).Contents (Elt F) → (⟨S32x2048, .f32⟩ : BufTy).Contents (Elt F) → (⟨S32x2048, .i1⟩ : BufTy).Contents (Elt F)),
    StableHlo.nullary main_cst_14 (constant S_ .f32 0x00000000#32),
    StableHlo.unary main_cst_14 main_v42 (broadcastInDim S32x2048 ![] bcast_S_S32x2048 : (⟨S_, .f32⟩ : BufTy).Contents (Elt F) → (⟨S32x2048, .f32⟩ : BufTy).Contents (Elt F)) ]

/-- @main's statements 61 … 110: 77 operations (the final choice of the coefficient of variation, the circular shift,
    the standard deviation with its variance and the variance's choice, and the final choice of the synchrony are calls,
    listed inline). -/
abbrev ops1 : List (HloOp τ sig (Elt F)) :=
  [ StableHlo.binary main_v39 main_v42 main_v43 (maximumf : (⟨S32x2048, .f32⟩ : BufTy).Contents (Elt F) → (⟨S32x2048, .f32⟩ : BufTy).Contents (Elt F) → (⟨S32x2048, .f32⟩ : BufTy).Contents (Elt F)),
    StableHlo.unary main_v43 main_v44 (Host.sqrt : (⟨S32x2048, .f32⟩ : BufTy).Contents (Elt F) → (⟨S32x2048, .f32⟩ : BufTy).Contents (Elt F)),
    StableHlo.nullary main_cst_15 (constant S_ .f32 0x2B8CBCCC#32),
    StableHlo.unary main_cst_15 main_v45 (broadcastInDim S32x2048 ![] bcast_S_S32x2048 : (⟨S_, .f32⟩ : BufTy).Contents (Elt F) → (⟨S32x2048, .f32⟩ : BufTy).Contents (Elt F)),
    StableHlo.binary main_v31 main_v45 main_v46 (maximumf : (⟨S32x2048, .f32⟩ : BufTy).Contents (Elt F) → (⟨S32x2048, .f32⟩ : BufTy).Contents (Elt F) → (⟨S32x2048, .f32⟩ : BufTy).Contents (Elt F)),
    StableHlo.binary main_v44 main_v46 main_v47 (Host.divf : (⟨S32x2048, .f32⟩ : BufTy).Contents (Elt F) → (⟨S32x2048, .f32⟩ : BufTy).Contents (Elt F) → (⟨S32x2048, .f32⟩ : BufTy).Contents (Elt F)),
    StableHlo.nullary main_cst_16 (constant S_ .f32 0x00000000#32),
    StableHlo.TRef.unary (.of main_cst_16 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S32x2048, .f32⟩) (broadcastInDim S32x2048 ![] bcast_S_S32x2048),
    StableHlo.TRef.ternary (.of main_v41 : StableHlo.TRef sig ⟨S32x2048, .i1⟩) (.of main_v47 : StableHlo.TRef sig ⟨S32x2048, .f32⟩) (.of main_call3_v1 : StableHlo.TRef sig ⟨S32x2048, .f32⟩) (.of main_v48 : StableHlo.TRef sig ⟨S32x2048, .f32⟩) select,
    StableHlo.nullary main_cst_17 (constant S_ .f32 0x00000000#32),
    StableHlo.binary main_arg0 main_cst_17 main_v49 ((fun x v => Host.reduceAdd x v reducesTo_S1000x32x2048_S1000x32_d2 h_S_) : (⟨S1000x32x2048, .f32⟩ : BufTy).Contents (Elt F) → (⟨S_, .f32⟩ : BufTy).Contents (Elt F) → (⟨S1000x32, .f32⟩ : BufTy).Contents (Elt F)),
    StableHlo.TRef.unary (.of main_v49 : StableHlo.TRef sig ⟨S1000x32, .f32⟩) (.of main_call4_v0 : StableHlo.TRef sig ⟨S1x32, .f32⟩) (extractStridedSlice S1x32 ![999, 0] · slices_S1000x32_S1x32_999_0),
    StableHlo.TRef.unary (.of main_v49 : StableHlo.TRef sig ⟨S1000x32, .f32⟩) (.of main_call4_v1 : StableHlo.TRef sig ⟨S999x32, .f32⟩) (extractStridedSlice S999x32 ![0, 0] · slices_S1000x32_S999x32_0_0),
    StableHlo.TRef.binary (.of main_call4_v0 : StableHlo.TRef sig ⟨S1x32, .f32⟩) (.of main_call4_v1 : StableHlo.TRef sig ⟨S999x32, .f32⟩) (.of main_v50 : StableHlo.TRef sig ⟨S1000x32, .f32⟩) (fun a b => concatenate S1000x32 0 [⟨S1x32, a⟩, ⟨S999x32, b⟩] concatenates_S1x32_S999x32_S1000x32_d0),
    StableHlo.nullary main_cst_18 (constant S_ .f32 0x00000000#32),
    StableHlo.binary main_v49 main_cst_18 main_v51 ((fun x v => Host.reduceAdd x v reducesTo_S1000x32_S32_d0 h_S_) : (⟨S1000x32, .f32⟩ : BufTy).Contents (Elt F) → (⟨S_, .f32⟩ : BufTy).Contents (Elt F) → (⟨S32, .f32⟩ : BufTy).Contents (Elt F)),
    StableHlo.nullary main_cst_19 (constant S_ .f32 0x447A0000#32),
    StableHlo.unary main_cst_19 main_v52 (broadcastInDim S32 ![] bcast_S_S32 : (⟨S_, .f32⟩ : BufTy).Contents (Elt F) → (⟨S32, .f32⟩ : BufTy).Contents (Elt F)),
    StableHlo.binary main_v51 main_v52 main_v53 (Host.divf : (⟨S32, .f32⟩ : BufTy).Contents (Elt F) → (⟨S32, .f32⟩ : BufTy).Contents (Elt F) → (⟨S32, .f32⟩ : BufTy).Contents (Elt F)),
    StableHlo.unary main_v53 main_v54 (broadcastInDim S1x32 ![1] bcast_S32_S1x32_1 : (⟨S32, .f32⟩ : BufTy).Contents (Elt F) → (⟨S1x32, .f32⟩ : BufTy).Contents (Elt F)),
    StableHlo.unary main_v54 main_v55 (broadcastInDim S1000x32 ![0, 1] bcast_S1x32_S1000x32_0_1 : (⟨S1x32, .f32⟩ : BufTy).Contents (Elt F) → (⟨S1000x32, .f32⟩ : BufTy).Contents (Elt F)),
    StableHlo.binary main_v49 main_v55 main_v56 (subf : (⟨S1000x32, .f32⟩ : BufTy).Contents (Elt F) → (⟨S1000x32, .f32⟩ : BufTy).Contents (Elt F) → (⟨S1000x32, .f32⟩ : BufTy).Contents (Elt F)),
    StableHlo.nullary main_cst_20 (constant S_ .f32 0x00000000#32),
    StableHlo.binary main_v50 main_cst_20 main_v57 ((fun x v => Host.reduceAdd x v reducesTo_S1000x32_S32_d0 h_S_) : (⟨S1000x32, .f32⟩ : BufTy).Contents (Elt F) → (⟨S_, .f32⟩ : BufTy).Contents (Elt F) → (⟨S32, .f32⟩ : BufTy).Contents (Elt F)),
    StableHlo.nullary main_cst_21 (constant S_ .f32 0x447A0000#32),
    StableHlo.unary main_cst_21 main_v58 (broadcastInDim S32 ![] bcast_S_S32 : (⟨S_, .f32⟩ : BufTy).Contents (Elt F) → (⟨S32, .f32⟩ : BufTy).Contents (Elt F)),
    StableHlo.binary main_v57 main_v58 main_v59 (Host.divf : (⟨S32, .f32⟩ : BufTy).Contents (Elt F) → (⟨S32, .f32⟩ : BufTy).Contents (Elt F) → (⟨S32, .f32⟩ : BufTy).Contents (Elt F)),
    StableHlo.unary main_v59 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S1000x32 ![0, 1] bcast_S1x32_S1000x32_0_1 : (⟨S1x32, .f32⟩ : BufTy).Contents (Elt F) → (⟨S1000x32, .f32⟩ : BufTy).Contents (Elt F)),
    StableHlo.binary main_v50 main_v61 main_v62 (subf : (⟨S1000x32, .f32⟩ : BufTy).Contents (Elt F) → (⟨S1000x32, .f32⟩ : BufTy).Contents (Elt F) → (⟨S1000x32, .f32⟩ : BufTy).Contents (Elt F)),
    StableHlo.binary main_v56 main_v62 main_v63 (mulf : (⟨S1000x32, .f32⟩ : BufTy).Contents (Elt F) → (⟨S1000x32, .f32⟩ : BufTy).Contents (Elt F) → (⟨S1000x32, .f32⟩ : BufTy).Contents (Elt F)),
    StableHlo.nullary main_cst_22 (constant S_ .f32 0x00000000#32),
    StableHlo.binary main_v63 main_cst_22 main_v64 ((fun x v => Host.reduceAdd x v reducesTo_S1000x32_S32_d0 h_S_) : (⟨S1000x32, .f32⟩ : BufTy).Contents (Elt F) → (⟨S_, .f32⟩ : BufTy).Contents (Elt F) → (⟨S32, .f32⟩ : BufTy).Contents (Elt F)),
    StableHlo.binary main_v56 main_v56 main_v65 (mulf : (⟨S1000x32, .f32⟩ : BufTy).Contents (Elt F) → (⟨S1000x32, .f32⟩ : BufTy).Contents (Elt F) → (⟨S1000x32, .f32⟩ : BufTy).Contents (Elt F)),
    StableHlo.nullary main_cst_23 (constant S_ .f32 0x00000000#32),
    StableHlo.binary main_v65 main_cst_23 main_v66 ((fun x v => Host.reduceAdd x v reducesTo_S1000x32_S32_d0 h_S_) : (⟨S1000x32, .f32⟩ : BufTy).Contents (Elt F) → (⟨S_, .f32⟩ : BufTy).Contents (Elt F) → (⟨S32, .f32⟩ : BufTy).Contents (Elt F)),
    StableHlo.binary main_v62 main_v62 main_v67 (mulf : (⟨S1000x32, .f32⟩ : BufTy).Contents (Elt F) → (⟨S1000x32, .f32⟩ : BufTy).Contents (Elt F) → (⟨S1000x32, .f32⟩ : BufTy).Contents (Elt F)),
    StableHlo.nullary main_cst_24 (constant S_ .f32 0x00000000#32),
    StableHlo.binary main_v67 main_cst_24 main_v68 ((fun x v => Host.reduceAdd x v reducesTo_S1000x32_S32_d0 h_S_) : (⟨S1000x32, .f32⟩ : BufTy).Contents (Elt F) → (⟨S_, .f32⟩ : BufTy).Contents (Elt F) → (⟨S32, .f32⟩ : BufTy).Contents (Elt F)),
    StableHlo.binary main_v66 main_v68 main_v69 (mulf : (⟨S32, .f32⟩ : BufTy).Contents (Elt F) → (⟨S32, .f32⟩ : BufTy).Contents (Elt F) → (⟨S32, .f32⟩ : BufTy).Contents (Elt F)),
    StableHlo.unary main_v69 main_v70 (Host.sqrt : (⟨S32, .f32⟩ : BufTy).Contents (Elt F) → (⟨S32, .f32⟩ : BufTy).Contents (Elt F)),
    StableHlo.nullary main_c_25 (constantI S_ 32 0#32),
    StableHlo.TRef.nullary (.of main_call5_call0_cst : StableHlo.TRef sig ⟨S_, .f32⟩) (constant S_ .f32 0x00000000#32),
    StableHlo.TRef.binary (.of main_v49 : StableHlo.TRef sig ⟨S1000x32, .f32⟩) (.of main_call5_call0_cst : StableHlo.TRef sig ⟨S_, .f32⟩) (.of main_call5_call0_v0 : StableHlo.TRef sig ⟨S32, .f32⟩) (fun x v => Host.reduceAdd x v reducesTo_S1000x32_S32_d0 h_S_),
    StableHlo.TRef.unary (.of main_call5_call0_v0 : StableHlo.TRef sig ⟨S32, .f32⟩) (.of main_call5_call0_v1 : StableHlo.TRef sig ⟨S1x32, .f32⟩) (broadcastInDim S1x32 ![1] bcast_S32_S1x32_1),
    StableHlo.TRef.nullary (.of main_call5_call0_cst_0 : StableHlo.TRef sig ⟨S_, .f32⟩) (constant S_ .f32 0x447A0000#32),
    StableHlo.TRef.unary (.of main_call5_call0_cst_0 : StableHlo.TRef sig ⟨S_, .f32⟩) (.of main_call5_call0_v2 : StableHlo.TRef sig ⟨S1x32, .f32⟩) (broadcastInDim S1x32 ![] bcast_S_S1x32),
    StableHlo.TRef.binary (.of main_call5_call0_v1 : StableHlo.TRef sig ⟨S1x32, .f32⟩) (.of main_call5_call0_v2 : StableHlo.TRef sig ⟨S1x32, .f32⟩) (.of main_call5_call0_v3 : StableHlo.TRef sig ⟨S1x32, .f32⟩) Host.divf,
    StableHlo.TRef.unary (.of main_call5_call0_v3 : StableHlo.TRef sig ⟨S1x32, .f32⟩) (.of main_call5_call0_v4 : StableHlo.TRef sig ⟨S1000x32, .f32⟩) (broadcastInDim S1000x32 ![0, 1] bcast_S1x32_S1000x32_0_1),
    StableHlo.TRef.binary (.of main_v49 : StableHlo.TRef sig ⟨S1000x32, .f32⟩) (.of main_call5_call0_v4 : StableHlo.TRef sig ⟨S1000x32, .f32⟩) (.of main_call5_call0_v5 : StableHlo.TRef sig ⟨S1000x32, .f32⟩) subf,
    StableHlo.TRef.binary (.of main_call5_call0_v5 : StableHlo.TRef sig ⟨S1000x32, .f32⟩) (.of main_call5_call0_v5 : StableHlo.TRef sig ⟨S1000x32, .f32⟩) (.of main_call5_call0_v6 : StableHlo.TRef sig ⟨S1000x32, .f32⟩) mulf,
    StableHlo.TRef.unary (.of main_c_25 : StableHlo.TRef sig ⟨S_, .i32⟩) (.of main_call5_call0_v7 : StableHlo.TRef sig ⟨S_, .f32⟩) (sitofp .f32),
    StableHlo.TRef.nullary (.of main_call5_call0_cst_1 : StableHlo.TRef sig ⟨S_, .f32⟩) (constant S_ .f32 0x447A0000#32),
    StableHlo.TRef.binary (.of main_call5_call0_cst_1 : StableHlo.TRef sig ⟨S_, .f32⟩) (.of main_call5_call0_v7 : StableHlo.TRef sig ⟨S_, .f32⟩) (.of main_call5_call0_v8 : StableHlo.TRef sig ⟨S_, .f32⟩) subf,
    StableHlo.TRef.nullary (.of main_call5_call0_cst_2 : StableHlo.TRef sig ⟨S_, .f32⟩) (constant S_ .f32 0x00000000#32),
    StableHlo.TRef.binary (.of main_call5_call0_v6 : StableHlo.TRef sig ⟨S1000x32, .f32⟩) (.of main_call5_call0_cst_2 : StableHlo.TRef sig ⟨S_, .f32⟩) (.of main_call5_call0_v9 : StableHlo.TRef sig ⟨S32, .f32⟩) (fun x v => Host.reduceAdd x v reducesTo_S1000x32_S32_d0 h_S_),
    StableHlo.TRef.unary (.of main_call5_call0_v8 : StableHlo.TRef sig ⟨S_, .f32⟩) (.of main_call5_call0_v10 : StableHlo.TRef sig ⟨S32, .f32⟩) (broadcastInDim S32 ![] bcast_S_S32),
    StableHlo.TRef.binary (.of main_call5_call0_v9 : StableHlo.TRef sig ⟨S32, .f32⟩) (.of main_call5_call0_v10 : StableHlo.TRef sig ⟨S32, .f32⟩) (.of main_call5_call0_v11 : StableHlo.TRef sig ⟨S32, .f32⟩) Host.divf,
    StableHlo.TRef.nullary (.of main_call5_call0_cst_3 : StableHlo.TRef sig ⟨S_, .f32⟩) (constant S_ .f32 0x00000000#32),
    StableHlo.TRef.binary (.of main_call5_call0_v8 : StableHlo.TRef sig ⟨S_, .f32⟩) (.of main_call5_call0_cst_3 : StableHlo.TRef sig ⟨S_, .f32⟩) (.of main_call5_call0_v12 : StableHlo.TRef sig ⟨S_, .i1⟩) (cmpf .ogt),
    StableHlo.TRef.nullary (.of main_call5_call0_cst_4 : StableHlo.TRef sig ⟨S_, .f32⟩) (constant S_ .f32 0x7FC00000#32),
    StableHlo.TRef.unary (.of main_call5_call0_cst_4 : StableHlo.TRef sig ⟨S_, .f32⟩) (.of main_call5_call0_call0_v0 : StableHlo.TRef sig ⟨S_, .f32⟩) id,
    StableHlo.TRef.unary (.of main_call5_call0_call0_v0 : StableHlo.TRef sig ⟨S_, .f32⟩) (.of main_call5_call0_call0_v1 : StableHlo.TRef sig ⟨S32, .f32⟩) (broadcastInDim S32 ![] bcast_S_S32),
    StableHlo.TRef.ternary (.of main_call5_call0_v12 : StableHlo.TRef sig ⟨S_, .i1⟩) (.of main_call5_call0_v11 : StableHlo.TRef sig ⟨S32, .f32⟩) (.of main_call5_call0_call0_v1 : StableHlo.TRef sig ⟨S32, .f32⟩) (.of main_call5_v0 : StableHlo.TRef sig ⟨S32, .f32⟩) (fun p a b => select (broadcastInDim S32 ![] bcast_S_S32 p) a b),
    StableHlo.TRef.unary (.of main_call5_v0 : StableHlo.TRef sig ⟨S32, .f32⟩) (.of main_v71 : StableHlo.TRef sig ⟨S32, .f32⟩) Host.sqrt,
    StableHlo.nullary main_cst_26 (constant S_ .f32 0x00000000#32),
    StableHlo.unary main_cst_26 main_v72 (broadcastInDim S32 ![] bcast_S_S32 : (⟨S_, .f32⟩ : BufTy).Contents (Elt F) → (⟨S32, .f32⟩ : BufTy).Contents (Elt F)),
    StableHlo.binary main_v71 main_v72 main_v73 (cmpf .ogt : (⟨S32, .f32⟩ : BufTy).Contents (Elt F) → (⟨S32, .f32⟩ : BufTy).Contents (Elt F) → (⟨S32, .i1⟩ : BufTy).Contents (Elt F)),
    StableHlo.nullary main_cst_27 (constant S_ .f32 0x2B8CBCCC#32),
    StableHlo.unary main_cst_27 main_v74 (broadcastInDim S32 ![] bcast_S_S32 : (⟨S_, .f32⟩ : BufTy).Contents (Elt F) → (⟨S32, .f32⟩ : BufTy).Contents (Elt F)),
    StableHlo.binary main_v70 main_v74 main_v75 (maximumf : (⟨S32, .f32⟩ : BufTy).Contents (Elt F) → (⟨S32, .f32⟩ : BufTy).Contents (Elt F) → (⟨S32, .f32⟩ : BufTy).Contents (Elt F)),
    StableHlo.binary main_v64 main_v75 main_v76 (Host.divf : (⟨S32, .f32⟩ : BufTy).Contents (Elt F) → (⟨S32, .f32⟩ : BufTy).Contents (Elt F) → (⟨S32, .f32⟩ : BufTy).Contents (Elt F)),
    StableHlo.nullary main_cst_28 (constant S_ .f32 0x00000000#32),
    StableHlo.TRef.unary (.of main_cst_28 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S32, .f32⟩) (broadcastInDim S32 ![] bcast_S_S32),
    StableHlo.TRef.ternary (.of main_v73 : StableHlo.TRef sig ⟨S32, .i1⟩) (.of main_v76 : StableHlo.TRef sig ⟨S32, .f32⟩) (.of main_call6_v1 : StableHlo.TRef sig ⟨S32, .f32⟩) (.of main_v77 : StableHlo.TRef sig ⟨S32, .f32⟩) select ]

/-- The whole program's 144 operations. -/
abbrev ops : List (HloOp τ sig (Elt F)) := ops0 ++ ops1

set_option maxRecDepth 8192 in
set_option maxHeartbeats 4000000 in
/-- The first window is its operations in order: the callees' definitions unfolded at their calls, both sides are one
    chain of steps once sequencing is reassociated. -/
theorem main_part0_eq (c : Dev nD) : main_part0 (F := F) c = seq ops0 := by
  simp only [main_part0, fn_where.body, fn_cummax.body, fn_where_0.body, seq, bind_assoc, pure_bind]
  rfl

set_option maxRecDepth 8192 in
set_option maxHeartbeats 4000000 in
/-- The second window likewise (the standard deviation's call nests two more). -/
theorem main_part1_eq (c : Dev nD) : main_part1 (F := F) c = seq ops1 := by
  simp only [main_part1, fn_where_1.body, fn_roll_static.body, fn_std.body, fn_var.body, fn_where_2.body, fn_where_3.body,
    seq, bind_assoc, pure_bind]

/-- @main is the two windows run in order. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    unary_bufs_sub .., binary_bufs_sub .., unary_bufs_sub .., nullary_bufs_sub .., binary_bufs_sub .., nullary_bufs_sub ..,
    unary_bufs_sub .., binary_bufs_sub .., nullary_bufs_sub .., unary_bufs_sub .., nullary_bufs_sub .., unary_bufs_sub ..,
    unary_bufs_sub .., unary_bufs_sub .., ternary_bufs_sub .., nullary_bufs_sub .., unary_bufs_sub .., binary_bufs_sub ..,
    nullary_bufs_sub .., unary_bufs_sub .., unary_bufs_sub .., binary_bufs_sub .., nullary_bufs_sub .., unary_bufs_sub ..,
    binary_bufs_sub .., binary_bufs_sub .., unary_bufs_sub .., binary_bufs_sub .., unary_bufs_sub .., nullary_bufs_sub ..,
    unary_bufs_sub .., unary_bufs_sub .., ternary_bufs_sub .., unary_bufs_sub .., nullary_bufs_sub .., binary_bufs_sub ..,
    unary_bufs_sub .., nullary_bufs_sub .., binary_bufs_sub .., binary_bufs_sub .., nullary_bufs_sub .., binary_bufs_sub ..,
    nullary_bufs_sub .., unary_bufs_sub .., binary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., nullary_bufs_sub .., unary_bufs_sub .., binary_bufs_sub .., nullary_bufs_sub ..,
    unary_bufs_sub ..⟩

theorem ops1_sub : (ops1 : List (HloOp τ sig (Elt F))).Forall fun op => op.bufs ⊆ tcRefs τ sig :=
  ⟨binary_bufs_sub .., unary_bufs_sub .., nullary_bufs_sub .., unary_bufs_sub .., binary_bufs_sub .., binary_bufs_sub ..,
    nullary_bufs_sub .., unary_bufs_sub .., unary_bufs_sub .., ternary_bufs_sub .., nullary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    binary_bufs_sub .., binary_bufs_sub .., nullary_bufs_sub .., binary_bufs_sub .., binary_bufs_sub .., unary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., unary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

end Cert.ReferenceIdeal.Hand

end
-- ==== Proof.RefSide.Stages.lean ====
/-
  The reference program's stages: each buffer its results are computed from, as a function of the input's contents
  alone, over any float values. The terms are long and share intermediate values (the mask "a spike with a
  predecessor" feeds the gaps, their squares and their count; the mean gap feeds the variance and the final quotient),
  so each shared stage has a name. Definitions only.
-/
import proofs.«161861_j30580167147909_1_alg».proof.Proof.Gen.ReferenceIdeal

noncomputable section

namespace Cert.ReferenceIdeal.Hand

open Cert.ReferenceIdeal Cert.ReferenceIdeal.Gen Idealize.ShloMosaic

variable {F : FTy → Type} [FloatOps F]

section Stages

/-- The constant zero, as a rank-zero tensor. -/
abbrev zeroS : (⟨S_, .f32⟩ : BufTy).Contents (Elt F) := constant S_ .f32 0x00000000#32
/-- The constant one. -/
abbrev oneS : (⟨S_, .f32⟩ : BufTy).Contents (Elt F) := constant S_ .f32 0x3F800000#32

/-- The spike totals: the sum over time. -/
def res_v0 (x : (⟨S1000x32x2048, .f32⟩ : BufTy).Contents (Elt F)) : (⟨S32x2048, .f32⟩ : BufTy).Contents (Elt F) :=
  Host.reduceAdd x (zeroS (F := F)) reducesTo_S1000x32x2048_S32x2048_d0 h_S_

/-- The firing rates. -/
def res_v2 (x : (⟨S1000x32x2048, .f32⟩ : BufTy).Contents (Elt F)) : (⟨S32x2048, .f32⟩ : BufTy).Contents (Elt F) :=
  Host.divf (res_v0 x) (broadcastInDim S32x2048 ![] bcast_S_S32x2048 (oneS (F := F)))

/-- The active-neuron counts. -/
def res_v6 (x : (⟨S1000x32x2048, .f32⟩ : BufTy).Contents (Elt F)) : (⟨S32, .f32⟩ : BufTy).Contents (Elt F) :=
  Host.reduceAdd (uitofp .f32 (cmpf .ogt (res_v0 x) (broadcastInDim S32x2048 ![] bcast_S_S32x2048 (zeroS (F := F)))))
    (zeroS (F := F)) reducesTo_S32x2048_S32_d1 h_S_

/-- "There is a spike", entry by entry. -/
def res_v8 (x : (⟨S1000x32x2048, .f32⟩ : BufTy).Contents (Elt F)) : (⟨S1000x32x2048, .i1⟩ : BufTy).Contents (Elt F) :=
  cmpf .ogt x (broadcastInDim S1000x32x2048 ![] bcast_S_S1000x32x2048 (zeroS (F := F)))

/-- The time index as a column [1000, 1, 1]. -/
def res_v10 : (⟨S1000x1x1, .i32⟩ : BufTy).Contents (Elt F) :=
  broadcastInDim S1000x1x1 ![0] bcast_S1000_S1000x1x1_0 (iotaInDim S1000 32 0)

/-- A spike's own time, else -1. -/
def res_v11 (x : (⟨S1000x32x2048, .f32⟩ : BufTy).Contents (Elt F)) : (⟨S1000x32x2048, .i32⟩ : BufTy).Contents (Elt F) :=
  select (res_v8 x) (broadcastInDim S1000x32x2048 ![0, 1, 2] bcast_S1000x1x1_S1000x32x2048_0_1_2 (res_v10 (F := F)))
    (broadcastInDim S1000x32x2048 ![] bcast_S_S1000x32x2048 (id (constantI S_ 32 4294967295#32)))

/-- The running maximum over time: the time of the last spike so far. -/
def res_v12 (x : (⟨S1000x32x2048, .f32⟩ : BufTy).Contents (Elt F)) : (⟨S1000x32x2048, .i32⟩ : BufTy).Contents (Elt F) :=
  Host.reduceWindow IntOp.maxsi ![1000, 1, 1] ![1, 1, 1] ![999, 0, 0] ![0, 0, 0] (res_v11 x)
    (broadcastInDim S_ ![] bcast_S_S_ (constantI S_ 32 2147483648#32))
    reduceWindows_S1000x32x2048_S1000x32x2048_w1000s1p999_0_w1s1p0_0_w1s1p0_0 h_S_

/-- The same shifted one step later, -1 in front: the time of the last spike strictly before. -/
def res_v15 (x : (⟨S1000x32x2048, .f32⟩ : BufTy).Contents (Elt F)) : (⟨S1000x32x2048, .i32⟩ : BufTy).Contents (Elt F) :=
  concatenate S1000x32x2048 0
    [⟨S1x32x2048, broadcastInDim S1x32x2048 ![] bcast_S_S1x32x2048 (constantI S_ 32 4294967295#32)⟩,
     ⟨S999x32x2048, extractStridedSlice S999x32x2048 ![0, 0, 0] (res_v12 x) slices_S1000x32x2048_S999x32x2048_0_0_0⟩]
    concatenates_S1x32x2048_S999x32x2048_S1000x32x2048_d0

/-- "A spike with a predecessor". -/
def res_v18 (x : (⟨S1000x32x2048, .f32⟩ : BufTy).Contents (Elt F)) : (⟨S1000x32x2048, .i1⟩ : BufTy).Contents (Elt F) :=
  andi (res_v8 x) (cmpi .sge (res_v15 x) (broadcastInDim S1000x32x2048 ![] bcast_S_S1000x32x2048 (constantI S_ 32 0#32)))

/-- The gap to the predecessor, or zero. -/
def res_v22 (x : (⟨S1000x32x2048, .f32⟩ : BufTy).Contents (Elt F)) : (⟨S1000x32x2048, .f32⟩ : BufTy).Contents (Elt F) :=
  select (res_v18 x)
    (sitofp .f32 (subi (broadcastInDim S1000x32x2048 ![0, 1, 2] bcast_S1000x1x1_S1000x32x2048_0_1_2 (res_v10 (F := F))) (res_v15 x)))
    (broadcastInDim S1000x32x2048 ![] bcast_S_S1000x32x2048 (id (zeroS (F := F))))

/-- The number of gaps, counted in integers and converted. -/
def res_v25 (x : (⟨S1000x32x2048, .f32⟩ : BufTy).Contents (Elt F)) : (⟨S32x2048, .f32⟩ : BufTy).Contents (Elt F) :=
  sitofp .f32 (Host.reduce IntOp.addi (extui 32 (res_v18 x) natLt_1_32) (constantI S_ 32 0#32)
    reducesTo_S1000x32x2048_S32x2048_d0 h_S_)

/-- The sum of gaps. -/
def res_v26 (x : (⟨S1000x32x2048, .f32⟩ : BufTy).Contents (Elt F)) : (⟨S32x2048, .f32⟩ : BufTy).Contents (Elt F) :=
  Host.reduceAdd (res_v22 x) (zeroS (F := F)) reducesTo_S1000x32x2048_S32x2048_d0 h_S_

/-- The sum of squared gaps. -/
def res_v28 (x : (⟨S1000x32x2048, .f32⟩ : BufTy).Contents (Elt F)) : (⟨S32x2048, .f32⟩ : BufTy).Contents (Elt F) :=
  Host.reduceAdd (mulf (res_v22 x) (res_v22 x)) (zeroS (F := F)) reducesTo_S1000x32x2048_S32x2048_d0 h_S_

/-- The mean gap. -/
def res_v31 (x : (⟨S1000x32x2048, .f32⟩ : BufTy).Contents (Elt F)) : (⟨S32x2048, .f32⟩ : BufTy).Contents (Elt F) :=
  Host.divf (res_v26 x) (maximumf (res_v25 x) (broadcastInDim S32x2048 ![] bcast_S_S32x2048 (oneS (F := F))))

/-- The variance of the gaps. -/
def res_v39 (x : (⟨S1000x32x2048, .f32⟩ : BufTy).Contents (Elt F)) : (⟨S32x2048, .f32⟩ : BufTy).Contents (Elt F) :=
  Host.divf (subf (res_v28 x) (mulf (mulf (res_v25 x) (res_v31 x)) (res_v31 x)))
    (maximumf (subf (res_v25 x) (broadcastInDim S32x2048 ![] bcast_S_S32x2048 (oneS (F := F))))
      (broadcastInDim S32x2048 ![] bcast_S_S32x2048 (oneS (F := F))))

/-- "There is at least one gap". -/
def res_v41 (x : (⟨S1000x32x2048, .f32⟩ : BufTy).Contents (Elt F)) : (⟨S32x2048, .i1⟩ : BufTy).Contents (Elt F) :=
  cmpf .oge (res_v25 x) (broadcastInDim S32x2048 ![] bcast_S_S32x2048 (oneS (F := F)))

/-- The coefficient of variation from the mean, the variance and the mask "at least one gap". -/
def cvTail (v31 v39 : (⟨S32x2048, .f32⟩ : BufTy).Contents (Elt F)) (v41 : (⟨S32x2048, .i1⟩ : BufTy).Contents (Elt F))
    (v42 : (⟨S32x2048, .f32⟩ : BufTy).Contents (Elt F)) : (⟨S32x2048, .f32⟩ : BufTy).Contents (Elt F) :=
  select v41
    (Host.divf (Host.sqrt (maximumf v39 v42))
      (maximumf v31 (broadcastInDim S32x2048 ![] bcast_S_S32x2048 (constant S_ .f32 0x2B8CBCCC#32))))
    (broadcastInDim S32x2048 ![] bcast_S_S32x2048 (id (zeroS (F := F))))

/-- The coefficient of variation. -/
def res_v48 (x : (⟨S1000x32x2048, .f32⟩ : BufTy).Contents (Elt F)) : (⟨S32x2048, .f32⟩ : BufTy).Contents (Elt F) :=
  cvTail (res_v31 x) (res_v39 x) (res_v41 x) (broadcastInDim S32x2048 ![] bcast_S_S32x2048 (zeroS (F := F)))

/-- The population signal: the sum over neurons. -/
def res_v49 (x : (⟨S1000x32x2048, .f32⟩ : BufTy).Contents (Elt F)) : (⟨S1000x32, .f32⟩ : BufTy).Contents (Elt F) :=
  Host.reduceAdd x (zeroS (F := F)) reducesTo_S1000x32x2048_S1000x32_d2 h_S_

/-- A signal rolled by one step in time, circularly. -/
def rollT (p : (⟨S1000x32, .f32⟩ : BufTy).Contents (Elt F)) : (⟨S1000x32, .f32⟩ : BufTy).Contents (Elt F) :=
  concatenate S1000x32 0 [⟨S1x32, extractStridedSlice S1x32 ![999, 0] p slices_S1000x32_S1x32_999_0⟩,
    ⟨S999x32, extractStridedSlice S999x32 ![0, 0] p slices_S1000x32_S999x32_0_0⟩] concatenates_S1x32_S999x32_S1000x32_d0

/-- The sum over time. -/
def sumT (p : (⟨S1000x32, .f32⟩ : BufTy).Contents (Elt F)) : (⟨S32, .f32⟩ : BufTy).Contents (Elt F) :=
  Host.reduceAdd p (zeroS (F := F)) reducesTo_S1000x32_S32_d0 h_S_

/-- A signal minus its mean over time. -/
def centeredT (p : (⟨S1000x32, .f32⟩ : BufTy).Contents (Elt F)) : (⟨S1000x32, .f32⟩ : BufTy).Contents (Elt F) :=
  subf p (broadcastInDim S1000x32 ![0, 1] bcast_S1x32_S1000x32_0_1 (broadcastInDim S1x32 ![1] bcast_S32_S1x32_1
    (Host.divf (sumT p) (broadcastInDim S32 ![] bcast_S_S32 (constant S_ .f32 0x447A0000#32)))))

/-- The population standard deviation over time. -/
def stdT (p : (⟨S1000x32, .f32⟩ : BufTy).Contents (Elt F)) : (⟨S32, .f32⟩ : BufTy).Contents (Elt F) :=
  Host.sqrt (select
    (broadcastInDim S32 ![] bcast_S_S32 (cmpf .ogt
      (subf (constant (F := F) S_ .f32 0x447A0000#32) (sitofp .f32 (constantI S_ 32 0#32))) (zeroS (F := F))))
    (Host.divf
      (Host.reduceAdd
        (mulf
          (subf p (broadcastInDim S1000x32 ![0, 1] bcast_S1x32_S1000x32_0_1
            (Host.divf (broadcastInDim S1x32 ![1] bcast_S32_S1x32_1 (sumT p))
              (broadcastInDim S1x32 ![] bcast_S_S1x32 (constant S_ .f32 0x447A0000#32)))))
          (subf p (broadcastInDim S1000x32 ![0, 1] bcast_S1x32_S1000x32_0_1
            (Host.divf (broadcastInDim S1x32 ![1] bcast_S32_S1x32_1 (sumT p))
              (broadcastInDim S1x32 ![] bcast_S_S1x32 (constant S_ .f32 0x447A0000#32))))))
        (zeroS (F := F)) reducesTo_S1000x32_S32_d0 h_S_)
      (broadcastInDim S32 ![] bcast_S_S32
        (subf (constant (F := F) S_ .f32 0x447A0000#32) (sitofp .f32 (constantI S_ 32 0#32)))))
    (broadcastInDim S32 ![] bcast_S_S32 (id (constant (F := F) S_ .f32 0x7FC00000#32))))

/-- The synchrony of a population signal: its lag-one circular autocorrelation, zero where it is constant. -/
def syncT (p : (⟨S1000x32, .f32⟩ : BufTy).Contents (Elt F)) : (⟨S32, .f32⟩ : BufTy).Contents (Elt F) :=
  select (cmpf .ogt (stdT p) (broadcastInDim S32 ![] bcast_S_S32 (zeroS (F := F))))
    (Host.divf (sumT (mulf (centeredT p) (centeredT (rollT p))))
      (maximumf (Host.sqrt (mulf (sumT (mulf (centeredT p) (centeredT p))) (sumT (mulf (centeredT (rollT p)) (centeredT (rollT p))))))
        (broadcastInDim S32 ![] bcast_S_S32 (constant S_ .f32 0x2B8CBCCC#32))))
    (broadcastInDim S32 ![] bcast_S_S32 (id (zeroS (F := F))))

/-- The synchrony of the input. -/
def res_v77 (x : (⟨S1000x32x2048, .f32⟩ : BufTy).Contents (Elt F)) : (⟨S32, .f32⟩ : BufTy).Contents (Elt F) := syncT (res_v49 x)

end Stages

end Cert.ReferenceIdeal.Hand

end
-- ==== Proof.RefSide.Run.lean ====
/-
  The reference program's run read back. Every weakly fair execution of its 144 host operations terminates, each
  result buffer at a composed term of the input's launch contents, the input unchanged. The terms are long and share
  intermediate values (the mask "a spike with a predecessor" feeds the gaps, their squares and their count; the mean
  gap feeds the variance and the final quotient), so each shared stage has a name (the stages' module). The list is read window by window:
  the first window's buffers that the second reads are stated first, the second window is read from ANY contents.
-/
import proofs.«161861_j30580167147909_1_alg».proof.Proof.RefSide.Ops
import proofs.«161861_j30580167147909_1_alg».proof.Proof.RefSide.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The first window, from any contents -/

section Window0

variable (V : Valuation τ sig (Elt F))

-- the host folds stay closed while the two sides are compared: the comparison never looks inside them
attribute [local irreducible] Host.reduce Host.reduceWindow Host.reduceAdd Host.divf Host.sqrt concatenate extractStridedSlice
  broadcastInDim iotaInDim select cmpf cmpi andi subi sitofp extui mulf subf maximumf constant constantI

set_option maxRecDepth 8192 in
set_option maxHeartbeats 4000000 in
theorem w0_arg0 : after ops0 V (Proc.devRef .tc main_arg0) = V (Proc.devRef .tc main_arg0) := by
  after_results_simp

set_option maxRecDepth 8192 in
set_option maxHeartbeats 4000000 in
theorem w0_v0 : after ops0 V (Proc.devRef .tc main_v0) = res_v0 (V (Proc.devRef .tc main_arg0)) := by
  after_results_simp <;> rfl

set_option maxRecDepth 8192 in
set_option maxHeartbeats 4000000 in
theorem w0_v2 : after ops0 V (Proc.devRef .tc main_v2) = res_v2 (V (Proc.devRef .tc main_arg0)) := by
  after_results_simp <;> rfl

set_option maxRecDepth 8192 in
set_option maxHeartbeats 4000000 in
theorem w0_v6 : after ops0 V (Proc.devRef .tc main_v6) = res_v6 (V (Proc.devRef .tc main_arg0)) := by
  after_results_simp <;> rfl

set_option maxRecDepth 8192 in
set_option maxHeartbeats 4000000 in
theorem w0_v31 : after ops0 V (Proc.devRef .tc main_v31) = res_v31 (V (Proc.devRef .tc main_arg0)) := by
  after_results_simp <;> rfl

set_option maxRecDepth 8192 in
set_option maxHeartbeats 4000000 in
theorem w0_v39 : after ops0 V (Proc.devRef .tc main_v39) = res_v39 (V (Proc.devRef .tc main_arg0)) := by
  after_results_simp <;> rfl

set_option maxRecDepth 8192 in
set_option maxHeartbeats 4000000 in
theorem w0_v41 : after ops0 V (Proc.devRef .tc main_v41) = res_v41 (V (Proc.devRef .tc main_arg0)) := by
  after_results_simp <;> rfl

set_option maxRecDepth 8192 in
set_option maxHeartbeats 4000000 in
theorem w0_v42 : after ops0 V (Proc.devRef .tc main_v42)
    = broadcastInDim S32x2048 ![] bcast_S_S32x2048 (zeroS (F := F)) := by
  after_results_simp <;> rfl

end Window0

/-! ## The second window, from any contents -/

section Window1

variable (W : Valuation τ sig (Elt F))

set_option maxRecDepth 8192 in
set_option maxHeartbeats 4000000 in
theorem w1_arg0 : after ops1 W (Proc.devRef .tc main_arg0) = W (Proc.devRef .tc main_arg0) := by
  after_results_simp

set_option maxRecDepth 8192 in
set_option maxHeartbeats 4000000 in
theorem w1_v0 : after ops1 W (Proc.devRef .tc main_v0) = W (Proc.devRef .tc main_v0) := by
  after_results_simp

set_option maxRecDepth 8192 in
set_option maxHeartbeats 4000000 in
theorem w1_v2 : after ops1 W (Proc.devRef .tc main_v2) = W (Proc.devRef .tc main_v2) := by
  after_results_simp

set_option maxRecDepth 8192 in
set_option maxHeartbeats 4000000 in
theorem w1_v6 : after ops1 W (Proc.devRef .tc main_v6) = W (Proc.devRef .tc main_v6) := by
  after_results_simp

set_option maxRecDepth 8192 in
set_option maxHeartbeats 4000000 in
theorem w1_v48 : after ops1 W (Proc.devRef .tc main_v48)
    = cvTail (W (Proc.devRef .tc main_v31)) (W (Proc.devRef .tc main_v39)) (W (Proc.devRef .tc main_v41)) (W (Proc.devRef .tc main_v42)) := by
  after_results_simp <;> rfl

set_option maxRecDepth 8192 in
set_option maxHeartbeats 4000000 in
theorem w1_v77 : after ops1 W (Proc.devRef .tc main_v77) = res_v77 (W (Proc.devRef .tc main_arg0)) := by
  after_results_simp <;> rfl

end Window1

/-! ## The whole list -/

section Whole

variable (V : Valuation τ sig (Elt F))

theorem after_arg0 : after ops V (Proc.devRef .tc main_arg0) = V (Proc.devRef .tc main_arg0) := by
  rw [ops, after_append, w1_arg0, w0_arg0]

theorem after_v0 : after ops V (Proc.devRef .tc main_v0) = res_v0 (V (Proc.devRef .tc main_arg0)) := by
  rw [ops, after_append, w1_v0, w0_v0]

theorem after_v2 : after ops V (Proc.devRef .tc main_v2) = res_v2 (V (Proc.devRef .tc main_arg0)) := by
  rw [ops, after_append, w1_v2, w0_v2]

theorem after_v6 : after ops V (Proc.devRef .tc main_v6) = res_v6 (V (Proc.devRef .tc main_arg0)) := by
  rw [ops, after_append, w1_v6, w0_v6]

theorem after_v48 : after ops V (Proc.devRef .tc main_v48) = res_v48 (V (Proc.devRef .tc main_arg0)) := by
  rw [ops, after_append, w1_v48, w0_v31, w0_v39, w0_v41, w0_v42]
  rfl

theorem after_v77 : after ops V (Proc.devRef .tc main_v77) = res_v77 (V (Proc.devRef .tc main_arg0)) := by
  rw [ops, after_append, w1_v77, w0_arg0]

end Whole

/-! ## The run -/

/-- On the device, from any memory with zero counters: every weakly fair execution of @main terminates with the firing
    rates, the coefficients of variation, the synchrony, the spike totals and the active-neuron counts each at its
    stage of the input's launch contents, and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = res_v2 (m ((c.tc : Thread nD τ).loc main_arg0))
      ∧ r.2.mem ((c.tc : Thread nD τ).loc main_v48) = res_v48 (m ((c.tc : Thread nD τ).loc main_arg0))
      ∧ r.2.mem ((c.tc : Thread nD τ).loc main_v77) = res_v77 (m ((c.tc : Thread nD τ).loc main_arg0))
      ∧ r.2.mem ((c.tc : Thread nD τ).loc main_v0) = res_v0 (m ((c.tc : Thread nD τ).loc main_arg0))
      ∧ r.2.mem ((c.tc : Thread nD τ).loc main_v6) = res_v6 (m ((c.tc : Thread nD τ).loc main_arg0))
      ∧ r.2.mem ((c.tc : Thread nD τ).loc main_arg0) = m ((c.tc : Thread nD τ).loc main_arg0) :=
  (θ_run defs _ _).mono (fun _ h c => ⟨(h c main_v2).trans (after_v2 _), (h c main_v48).trans (after_v48 _),
      (h c main_v77).trans (after_v77 _), (h c main_v0).trans (after_v0 _), (h c main_v6).trans (after_v6 _),
      (h c main_arg0).trans (after_arg0 _)⟩)
    (run_seq scopedRefs_eq scopedSems_eq defs main (fun _ => ops) main_eq (fun _ => ops_sub) m ρ)

end Cert.ReferenceIdeal.Hand

end
-- ==== Proof.RefSide.ReadSums.lean ====
/-
  The reference's sums and shared tails at the extended reals: the spike totals are the sums over time, the population
  signal is the sums over neurons, and the firing rates, the active-neuron counts and the synchrony are the same host
  operations the specification applies to those two arrays.
-/
import proofs.«161861_j30580167147909_1_alg».proof.Proof.RefSide.Run
import proofs.«161861_j30580167147909_1_alg».proof.Proof.Spec
import Idealize.ShloMosaic.PureOps.Ideal.Laws
import Idealize.ShloMosaic.Lib.ValueIdx

noncomputable section

open scoped BigOperators

namespace Cert.ReferenceIdeal.Hand

open Cert.ReferenceIdeal Cert.ReferenceIdeal.Gen Idealize.ShloMosaic Idealize.ShloMosaic.ValueIdx

/-- The spike total of a (batch, neuron) column: the host's sum over axis 0 from zero is the sum over time. -/
theorem res_v0_apply (X : Cert.ScanSpec.ShX.Idx → EReal) (b : Fin 32) (n : Fin 2048) :
    res_v0 (F := Ideal) X (ix2 b n) = ∑ t : Fin 1000, X (ix3 t b n) := by
  unfold res_v0 Host.reduceAdd
  rw [Ideal.hostReduceAdd_def,
    Ideal.hostReduceAdd_single reducesTo_S1000x32x2048_S32x2048_d0 (by decide : Shape.Reduces S1000x32x2048 [0] S32x2048)]
  have hz : (zeroS (F := Ideal)) (Shape.Idx.first h_S_) = 0 := Ideal.ofBits_zero_f32
  rw [hz, zero_add]
  refine Finset.sum_congr rfl fun k _ => congrArg X ?_
  funext a
  match a with
  | ⟨0, _⟩ => exact Fin.ext rfl
  | ⟨1, _⟩ => exact Fin.ext rfl
  | ⟨2, _⟩ => exact Fin.ext rfl

/-- The spike totals are the specification's. -/
theorem res_v0_eq (X : Cert.ScanSpec.ShX.Idx → EReal) : res_v0 (F := Ideal) X = Cert.ScanSpec.totalArr X := by
  funext j
  rw [eq_ix2 j]
  exact res_v0_apply X (j 0) (j 1)

/-- The population signal at (time, batch): the host's sum over axis 2 from zero is the sum over neurons. -/
theorem res_v49_apply (X : Cert.ScanSpec.ShX.Idx → EReal) (t : Fin 1000) (b : Fin 32) :
    res_v49 (F := Ideal) X (ix2 t b) = ∑ n : Fin 2048, X (ix3 t b n) := by
  unfold res_v49 Host.reduceAdd
  rw [Ideal.hostReduceAdd_def,
    Ideal.hostReduceAdd_single reducesTo_S1000x32x2048_S1000x32_d2 (by decide : Shape.Reduces S1000x32x2048 [2] S1000x32)]
  have hz : (zeroS (F := Ideal)) (Shape.Idx.first h_S_) = 0 := Ideal.ofBits_zero_f32
  rw [hz, zero_add]
  refine Finset.sum_congr rfl fun k _ => congrArg X ?_
  funext a
  match a with
  | ⟨0, _⟩ => exact Fin.ext rfl
  | ⟨1, _⟩ => exact Fin.ext rfl
  | ⟨2, _⟩ => exact Fin.ext rfl

/-- The population signal is the specification's. -/
theorem res_v49_eq (X : Cert.ScanSpec.ShX.Idx → EReal) : res_v49 (F := Ideal) X = Cert.ScanSpec.popArr X := by
  funext j
  rw [eq_ix2 j]
  exact res_v49_apply X (j 0) (j 1)

/-- The firing rates: the same quotient the specification takes of the totals. -/
theorem res_v2_eq (X : Cert.ScanSpec.ShX.Idx → EReal) :
    res_v2 (F := Ideal) X = Cert.ScanSpec.rates (Cert.ScanSpec.totalArr X) := by
  unfold res_v2
  rw [res_v0_eq]
  rfl

/-- The active-neuron counts: the same count the specification takes of the totals. -/
theorem res_v6_eq (X : Cert.ScanSpec.ShX.Idx → EReal) :
    res_v6 (F := Ideal) X = Cert.ScanSpec.active (Cert.ScanSpec.totalArr X) := by
  unfold res_v6
  rw [res_v0_eq]
  rfl

/-- The synchrony of a signal is the specification's, operation for operation. -/
theorem syncT_eq (p : Cert.ScanSpec.ShTB.Idx → EReal) : syncT (F := Ideal) p = Cert.ScanSpec.sync p := rfl

/-- The synchrony of the input. -/
theorem res_v77_eq (X : Cert.ScanSpec.ShX.Idx → EReal) :
    res_v77 (F := Ideal) X = Cert.ScanSpec.sync (Cert.ScanSpec.popArr X) := by
  unfold res_v77
  rw [res_v49_eq, syncT_eq]

end Cert.ReferenceIdeal.Hand

end
-- ==== Proof.RefSide.ReadCv.lean ====
/-
  The reference's coefficient-of-variation pipeline read entry by entry at the extended reals, up to the two folds (the
  running maximum and the integer count), which are read elsewhere: a spike's own time or -1; the shift by one step in
  time with -1 in front; the mask "a spike with a predecessor" and the gap; the sums of gaps and of squared gaps as sums
  over time; and the closing formula as the specification's function of the count, the sum and the sum of squares.
-/
import proofs.«161861_j30580167147909_1_alg».proof.Proof.RefSide.Stages
import proofs.«161861_j30580167147909_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

variable (X : Cert.ScanSpec.ShX.Idx → EReal)

/-- A column read at a time inside the history is the entry. -/
theorem col_val (b : Fin 32) (n : Fin 2048) (t : Fin 1000) : Cert.ScanSpec.col X b n t.val = X (ix3 t b n) := by
  unfold Cert.ScanSpec.col
  rw [dif_pos t.isLt]

/-- "There is a spike" at an entry. -/
theorem res_v8_apply (t : Fin 1000) (b : Fin 32) (n : Fin 2048) :
    res_v8 (F := Ideal) X (ix3 t b n) = Cert.ScanSpec.spk (X (ix3 t b n)) := rfl

/-- The time index broadcast over the history is the entry's time. -/
theorem time_apply (t : Fin 1000) (b : Fin 32) (n : Fin 2048) :
    broadcastInDim S1000x32x2048 ![0, 1, 2] bcast_S1000x1x1_S1000x32x2048_0_1_2 (res_v10 (F := Ideal)) (ix3 t b n)
      = BitVec.ofNat 32 t.val := rfl

/-- A spike's own time, else -1. -/
theorem res_v11_apply (t : Fin 1000) (b : Fin 32) (n : Fin 2048) :
    res_v11 (F := Ideal) X (ix3 t b n) = Cert.ScanSpec.mark (Cert.ScanSpec.col X b n) t.val := by
  unfold Cert.ScanSpec.mark
  rw [col_val]
  rfl

/-! ## The shift by one step -/

/-- The running maximum shifted one step later with -1 in front: at time 0 it is -1, later it is the running maximum
    one step before. -/
theorem res_v15_zero (b : Fin 32) (n : Fin 2048) :
    res_v15 (F := Ideal) X (ix3 (0 : Fin 1000) b n) = 0xFFFFFFFF#32 := by
  unfold res_v15
  exact concatenate_pair_apply_left (t := S1000x32x2048) (s₁ := S1x32x2048) (s₂ := S999x32x2048) 0 _ _ _ _ rfl
    (ix3 (0 : Fin 1) b n) (fun a => match a with | ⟨0, _⟩ => rfl | ⟨1, _⟩ => rfl | ⟨2, _⟩ => rfl)

theorem res_v15_succ (b : Fin 32) (n : Fin 2048) (t : Fin 1000) (ht : t.val ≠ 0) :
    res_v15 (F := Ideal) X (ix3 t b n) = res_v12 (F := Ideal) X (ix3 ⟨t.val - 1, by omega⟩ b n) := by
  unfold res_v15
  have ht' : t.val - 1 < 999 := by have := t.isLt; omega
  refine (concatenate_pair_apply_right (t := S1000x32x2048) (s₁ := S1x32x2048) (s₂ := S999x32x2048) 0 _ _ _ _ rfl rfl
    (ix3 (⟨t.val - 1, ht'⟩ : Fin 999) b n)
    (fun a ha => match a, ha with
      | ⟨0, _⟩, ha => absurd rfl ha
      | ⟨1, _⟩, _ => rfl
      | ⟨2, _⟩, _ => rfl)
    (by show t.val - 1 + 1 = t.val; omega)).trans ?_
  exact extractStridedSlice_apply _ _ _ _ (ix3 (⟨t.val - 1, by omega⟩ : Fin 1000) b n)
    (fun a => match a with
      | ⟨0, _⟩ => by show t.val - 1 = 0 + (t.val - 1); omega
      | ⟨1, _⟩ => by show b.val = 0 + b.val; omega
      | ⟨2, _⟩ => by show n.val = 0 + n.val; omega)

/-- Given the running maximum as the time of the last spike so far, the shifted one is the time of the last spike
    strictly before. -/
theorem res_v15_apply_of (b : Fin 32) (n : Fin 2048)
    (hL : ∀ u : Fin 1000, res_v12 (F := Ideal) X (ix3 u b n) = Cert.ScanSpec.lastW (Cert.ScanSpec.col X b n) u.val)
    (t : Fin 1000) :
    res_v15 (F := Ideal) X (ix3 t b n) = Cert.ScanSpec.prevW (Cert.ScanSpec.col X b n) t.val := by
  unfold Cert.ScanSpec.prevW
  by_cases ht : t.val = 0
  · rw [if_pos ht]
    have : t = (0 : Fin 1000) := Fin.ext ht
    rw [this]
    exact res_v15_zero X b n
  · rw [if_neg ht, res_v15_succ X b n t ht, hL]

/-! ## The mask and the gap -/

/-- "A spike with a predecessor" at an entry, from the shifted running maximum there. -/
theorem res_v18_apply (t : Fin 1000) (b : Fin 32) (n : Fin 2048) :
    res_v18 (F := Ideal) X (ix3 t b n)
      = Cert.ScanSpec.validBit (X (ix3 t b n)) (res_v15 (F := Ideal) X (ix3 t b n)) := rfl

/-- The gap at an entry, from the shifted running maximum there. -/
theorem res_v22_apply (t : Fin 1000) (b : Fin 32) (n : Fin 2048) :
    res_v22 (F := Ideal) X (ix3 t b n)
      = Cert.ScanSpec.gap (BitVec.ofNat 32 t.val) (X (ix3 t b n)) (res_v15 (F := Ideal) X (ix3 t b n)) := rfl

theorem res_v18_apply_of (b : Fin 32) (n : Fin 2048)
    (hP : ∀ t : Fin 1000, res_v15 (F := Ideal) X (ix3 t b n) = Cert.ScanSpec.prevW (Cert.ScanSpec.col X b n) t.val)
    (t : Fin 1000) :
    res_v18 (F := Ideal) X (ix3 t b n) = Cert.ScanSpec.validW (Cert.ScanSpec.col X b n) t.val := by
  rw [res_v18_apply, hP, ← col_val X b n t]
  rfl

theorem res_v22_apply_of (b : Fin 32) (n : Fin 2048)
    (hP : ∀ t : Fin 1000, res_v15 (F := Ideal) X (ix3 t b n) = Cert.ScanSpec.prevW (Cert.ScanSpec.col X b n) t.val)
    (t : Fin 1000) :
    res_v22 (F := Ideal) X (ix3 t b n) = Cert.ScanSpec.gapW (Cert.ScanSpec.col X b n) t.val := by
  rw [res_v22_apply, hP, ← col_val X b n t]
  rfl

/-! ## The sums over time -/

/-- The host's sum over axis 0 from zero, at (b, n): the sum over time. -/
theorem sum0_apply (y : FVec Ideal S1000x32x2048 .f32) (b : Fin 32) (n : Fin 2048) :
    (Host.reduceAdd (F := Ideal) (φ := .f32) y (zeroS (F := Ideal)) reducesTo_S1000x32x2048_S32x2048_d0 h_S_ :
        FVec Ideal S32x2048 .f32) (ix2 b n)
      = ∑ t : Fin 1000, y (ix3 t b n) := by
  unfold Host.reduceAdd
  rw [Ideal.hostReduceAdd_def,
    Ideal.hostReduceAdd_single reducesTo_S1000x32x2048_S32x2048_d0 (by decide : Shape.Reduces S1000x32x2048 [0] S32x2048)]
  have hz : (zeroS (F := Ideal)) (Shape.Idx.first h_S_) = 0 := Ideal.ofBits_zero_f32
  rw [hz, zero_add]
  refine Finset.sum_congr rfl fun k _ => congrArg y ?_
  funext a
  match a with
  | ⟨0, _⟩ => exact Fin.ext rfl
  | ⟨1, _⟩ => exact Fin.ext rfl
  | ⟨2, _⟩ => exact Fin.ext rfl

/-- The sum of gaps. -/
theorem res_v26_apply_of (b : Fin 32) (n : Fin 2048)
    (hP : ∀ t : Fin 1000, res_v15 (F := Ideal) X (ix3 t b n) = Cert.ScanSpec.prevW (Cert.ScanSpec.col X b n) t.val) :
    res_v26 (F := Ideal) X (ix2 b n) = Cert.ScanSpec.sgW (Cert.ScanSpec.col X b n) := by
  unfold res_v26 Cert.ScanSpec.sgW
  rw [sum0_apply]
  exact Finset.sum_congr rfl fun t _ => res_v22_apply_of X b n hP t

/-- The sum of squared gaps. -/
theorem res_v28_apply_of (b : Fin 32) (n : Fin 2048)
    (hP : ∀ t : Fin 1000, res_v15 (F := Ideal) X (ix3 t b n) = Cert.ScanSpec.prevW (Cert.ScanSpec.col X b n) t.val) :
    res_v28 (F := Ideal) X (ix2 b n) = Cert.ScanSpec.sg2W (Cert.ScanSpec.col X b n) := by
  unfold res_v28 Cert.ScanSpec.sg2W
  rw [sum0_apply]
  refine Finset.sum_congr rfl fun t _ => ?_
  rw [← res_v22_apply_of X b n hP t]
  rfl

/-! ## The count and the closing formula -/

/-- The count's operand at an entry: the mask as a 32-bit word. -/
theorem count_operand_apply (t : Fin 1000) (b : Fin 32) (n : Fin 2048) :
    (extui 32 (res_v18 (F := Ideal) X) natLt_1_32 : Cert.ScanSpec.ShX.Idx → BitVec 32) (ix3 t b n)
      = (res_v18 (F := Ideal) X (ix3 t b n)).setWidth 32 := rfl

/-- The number of gaps at (b, n): the integer reduction there, converted. -/
theorem res_v25_apply (b : Fin 32) (n : Fin 2048) :
    res_v25 (F := Ideal) X (ix2 b n)
      = FloatOps.sitofp (F := Ideal) .f32
          ((Host.reduce IntOp.addi (extui 32 (res_v18 (F := Ideal) X) natLt_1_32) (constantI S_ 32 0#32)
            reducesTo_S1000x32x2048_S32x2048_d0 h_S_ : Cert.ScanSpec.ShBN.Idx → BitVec 32) (ix2 b n)) := rfl

/-- The coefficient of variation at (b, n) is the specification's function of the count, the sum of gaps and the sum
    of squared gaps there. -/
theorem res_v48_apply (b : Fin 32) (n : Fin 2048) :
    res_v48 (F := Ideal) X (ix2 b n)
      = Cert.ScanSpec.cvOf (res_v25 (F := Ideal) X (ix2 b n)) (res_v26 (F := Ideal) X (ix2 b n))
          (res_v28 (F := Ideal) X (ix2 b n)) := rfl

/-- The number of gaps, given the shifted running maximum and the integer reduction at (b, n) as the fold over time. -/
theorem res_v25_apply_of (b : Fin 32) (n : Fin 2048)
    (hP : ∀ t : Fin 1000, res_v15 (F := Ideal) X (ix3 t b n) = Cert.ScanSpec.prevW (Cert.ScanSpec.col X b n) t.val)
    (hR : (Host.reduce IntOp.addi (extui 32 (res_v18 (F := Ideal) X) natLt_1_32) (constantI S_ 32 0#32)
            reducesTo_S1000x32x2048_S32x2048_d0 h_S_ : Cert.ScanSpec.ShBN.Idx → BitVec 32) (ix2 b n)
          = (List.finRange 1000).foldl (fun (r : BitVec 32) (t : Fin 1000) => IntOp.addi r
              ((extui 32 (res_v18 (F := Ideal) X) natLt_1_32 : Cert.ScanSpec.ShX.Idx → BitVec 32) (ix3 t b n))) 0#32) :
    res_v25 (F := Ideal) X (ix2 b n) = Cert.ScanSpec.cntW (Cert.ScanSpec.col X b n) := by
  have hf : (fun (r : BitVec 32) (t : Fin 1000) => IntOp.addi r
        ((extui 32 (res_v18 (F := Ideal) X) natLt_1_32 : Cert.ScanSpec.ShX.Idx → BitVec 32) (ix3 t b n)))
      = fun (r : BitVec 32) (t : Fin 1000) =>
          IntOp.addi r ((Cert.ScanSpec.validW (Cert.ScanSpec.col X b n) t.val).setWidth 32) := by
    funext r t
    rw [count_operand_apply, res_v18_apply_of X b n hP t]
  rw [res_v25_apply, hR, hf]
  rfl

/-- The coefficient of variation at (b, n) is the specification's windowed one, given the running maximum as the time
    of the last spike so far and the count. -/
theorem res_v48_apply_of (b : Fin 32) (n : Fin 2048)
    (hL : ∀ u : Fin 1000, res_v12 (F := Ideal) X (ix3 u b n) = Cert.ScanSpec.lastW (Cert.ScanSpec.col X b n) u.val)
    (hC : res_v25 (F := Ideal) X (ix2 b n) = Cert.ScanSpec.cntW (Cert.ScanSpec.col X b n)) :
    res_v48 (F := Ideal) X (ix2 b n) = Cert.ScanSpec.cvWin X b n := by
  have hP := res_v15_apply_of X b n hL
  rw [res_v48_apply, hC, res_v26_apply_of X b n hP, res_v28_apply_of X b n hP]
  rfl

end Cert.ReferenceIdeal.Hand

end
-- ==== Proof.RefSide.ValuesAtA.lean ====
/-
  Three host operations read at an index of a `[1000, 32, 2048]` array, over explicit coordinates (time, batch,
  neuron): a signed-maximum window of 1000 positions along time, padded 999 in front, as a left fold over the window's
  positions; an integer sum over time as a left fold over the times; a float sum over time as a finite sum.
-/
import proofs.«161861_j30580167147909_1_alg».proof.Proof.Spec
import Idealize.ShloMosaic.PureOps.Reduce
import Idealize.ShloMosaic.PureOps.Ideal.Laws
import Idealize.ShloMosaic.Lib.ValueIdx

set_option maxRecDepth 16384

open scoped BigOperators

namespace Cert.ScanSpec

open Idealize.ShloMosaic Idealize.ShloMosaic.ValueIdx

/-- A left fold over `Fin m` is the fold over `Fin n` when `m = n`. -/
theorem foldl_finRange_cast {α : Type} {m n : ℕ} (h : m = n) (f : α → Fin m → α) (init : α) :
    (List.finRange m).foldl f init = (List.finRange n).foldl (fun r k => f r (k.cast h.symm)) init := by
  subst h; rfl

/-- The window's shape: 1000 positions along time, one along batch and neuron. -/
abbrev W3 : Shape := ⟨3, ![1000, 1, 1]⟩

theorem W3_numel : W3.numel = 1000 := by
  simp [Shape.numel, Fin.prod_univ_succ]

/-- Row-major position `m` of the window is the position `m` along time. -/
theorem W3_coord (m : Fin W3.numel) :
    (W3.rowMajor.symm m 0).val = m.val ∧ (W3.rowMajor.symm m 1).val = 0 ∧ (W3.rowMajor.symm m 2).val = 0 := by
  have h := Shape.rowMajor_val_three (d := ![1000, 1, 1]) (W3.rowMajor.symm m)
  rw [Equiv.apply_symm_apply] at h
  have h1 : (W3.rowMajor.symm m 1).val < 1 := (W3.rowMajor.symm m 1).isLt
  have h2 : (W3.rowMajor.symm m 2).val < 1 := (W3.rowMajor.symm m 2).isLt
  have e1 : (![1000, 1, 1] : Fin 3 → ℕ) 1 = 1 := rfl
  have e2 : (![1000, 1, 1] : Fin 3 → ℕ) 2 = 1 := rfl
  rw [e1, e2] at h
  omega

/-- The running signed maximum along time, read at (t, b, n): the left fold over the window's 1000 positions, position
    `k` holding the operand at time `t + k - 999` when that is a time, and the initial value otherwise. -/
theorem reduceWindow_time_at (x : ShX.Idx → BitVec 32) (init : Sh0.Idx → BitVec 32)
    (h : ShX.ReduceWindows (![1000, 1, 1] : Fin 3 → Nat) ![1, 1, 1] ![999, 0, 0] ![0, 0, 0] ShX) (hu : 0 < Sh0.numel)
    (g : ℕ → BitVec 32) (b : Fin 32) (n : Fin 2048) (hg : ∀ u (hu' : u < 1000), x (ix3 ⟨u, hu'⟩ b n) = g u)
    (t : Fin 1000) :
    Host.reduceWindow IntOp.maxsi ![1000, 1, 1] ![1, 1, 1] ![999, 0, 0] ![0, 0, 0] x init h hu (ix3 t b n)
      = (List.finRange 1000).foldl (fun r k => IntOp.maxsi r
          (if 999 ≤ t.val + k.val ∧ t.val + k.val - 999 < 1000 then g (t.val + k.val - 999)
            else init (Shape.Idx.first hu))) (init (Shape.Idx.first hu)) := by
  unfold Host.reduceWindow
  show (List.finRange W3.numel).foldl _ _ = _
  rw [foldl_finRange_cast W3_numel]
  refine List.foldl_ext _ _ _ (fun r k _ => ?_)
  obtain ⟨c0, c1, c2⟩ := W3_coord (k.cast W3_numel.symm)
  have ck : (k.cast W3_numel.symm).val = k.val := rfl
  rw [ck] at c0
  show IntOp.maxsi r (dite _ _ _) = IntOp.maxsi r (ite _ _ _)
  congr 1
  split
  · next hin =>
    have h0 : 999 ≤ t.val * 1 + (W3.rowMajor.symm (k.cast W3_numel.symm) 0).val
        ∧ t.val * 1 + (W3.rowMajor.symm (k.cast W3_numel.symm) 0).val - 999 < 1000 := hin 0
    rw [c0] at h0
    have hc : 999 ≤ t.val + k.val ∧ t.val + k.val - 999 < 1000 := by omega
    rw [if_pos hc, ← hg _ hc.2]
    refine congrArg x (funext fun a => Fin.ext ?_)
    match a with
    | ⟨0, _⟩ =>
      show t.val * 1 + (W3.rowMajor.symm (k.cast W3_numel.symm) 0).val - 999 = t.val + k.val - 999
      rw [c0]; omega
    | ⟨1, _⟩ =>
      show b.val * 1 + (W3.rowMajor.symm (k.cast W3_numel.symm) 1).val - 0 = b.val
      rw [c1]; omega
    | ⟨2, _⟩ =>
      show n.val * 1 + (W3.rowMajor.symm (k.cast W3_numel.symm) 2).val - 0 = n.val
      rw [c2]; omega
  · next hin =>
    rw [if_neg]
    intro hc
    apply hin
    intro a
    match a with
    | ⟨0, _⟩ =>
      show 999 ≤ t.val * 1 + (W3.rowMajor.symm (k.cast W3_numel.symm) 0).val
        ∧ t.val * 1 + (W3.rowMajor.symm (k.cast W3_numel.symm) 0).val - 999 < 1000
      rw [c0]; omega
    | ⟨1, _⟩ =>
      show 0 ≤ b.val * 1 + (W3.rowMajor.symm (k.cast W3_numel.symm) 1).val
        ∧ b.val * 1 + (W3.rowMajor.symm (k.cast W3_numel.symm) 1).val - 0 < 32
      rw [c1]; have := b.isLt; omega
    | ⟨2, _⟩ =>
      show 0 ≤ n.val * 1 + (W3.rowMajor.symm (k.cast W3_numel.symm) 2).val
        ∧ n.val * 1 + (W3.rowMajor.symm (k.cast W3_numel.symm) 2).val - 0 < 2048
      rw [c2]; have := n.isLt; omega

/-- A fold of a commutative, associative operation over all of `Fin n` is the left fold over `0, …, n-1`. -/
theorem fold_univ_fin {α : Type} {n : ℕ} (op : α → α → α) [Std.Commutative op] [Std.Associative op] (b0 : α)
    (f : Fin n → α) :
    (Finset.univ : Finset (Fin n)).fold op b0 f = (List.finRange n).foldl (fun r k => op r (f k)) b0 := by
  unfold Finset.fold
  rw [Fin.univ_val_map, Multiset.coe_fold_l, List.ofFn_eq_map, List.foldl_map]

/-- An integer sum over time, read at (b, n): the left fold over the 1000 times of the operand at (t, b, n), from the
    initial value. -/
theorem reduce_addi_time_at (y : ShX.Idx → BitVec 32) (c : Sh0.Idx → BitVec 32) (h' : ShX.ReducesTo [0] ShBN)
    (hu : 0 < Sh0.numel) (b : Fin 32) (n : Fin 2048) :
    Host.reduce IntOp.addi y c h' hu (ix2 b n)
      = (List.finRange 1000).foldl (fun r t => IntOp.addi r (y (ix3 t b n))) (c (Shape.Idx.first hu)) := by
  have h : ShX.Reduces [0] ShBN := by decide
  rw [Host.reduce_eq_fold_single IntOp.addi y c h' h hu (ix2 b n)]
  refine (fold_univ_fin (n := 1000) IntOp.addi (c (Shape.Idx.first hu)) (fun k => y (h.lift (ix2 b n) k))).trans ?_
  refine List.foldl_ext _ _ _ (fun r k _ => ?_)
  refine congrArg (fun z => IntOp.addi r (y z)) (funext fun a => Fin.ext ?_)
  match a with
  | ⟨0, _⟩ => rfl
  | ⟨1, _⟩ => rfl
  | ⟨2, _⟩ => rfl

end Cert.ScanSpec
-- ==== Proof.RefSide.ValuesAt.lean ====
/-
  The reference's coefficient of variation, as an array, is the specification's windowed one: the running maximum over
  time read at an entry is the window fold of the marks, the integer count read at a column is the fold of the validity
  bits over time, and the rest of the pipeline is read entry by entry.
-/
import proofs.«161861_j30580167147909_1_alg».proof.Proof.RefSide.ReadCv
import proofs.«161861_j30580167147909_1_alg».proof.Proof.RefSide.ValuesAtA

noncomputable section

namespace Cert.ReferenceIdeal.Hand

open Cert.ReferenceIdeal Cert.ReferenceIdeal.Gen Idealize.ShloMosaic Idealize.ShloMosaic.ValueIdx

variable (X : Cert.ScanSpec.ShX.Idx → EReal)

/-- The running maximum at an entry is the time of the last spike so far, as the window fold of the marks. -/
theorem res_v12_apply (b : Fin 32) (n : Fin 2048) (u : Fin 1000) :
    res_v12 (F := Ideal) X (ix3 u b n) = Cert.ScanSpec.lastW (Cert.ScanSpec.col X b n) u.val := by
  unfold res_v12
  refine (Cert.ScanSpec.reduceWindow_time_at (res_v11 (F := Ideal) X) _ _ _
    (Cert.ScanSpec.mark (Cert.ScanSpec.col X b n)) b n (fun v hv => res_v11_apply X ⟨v, hv⟩ b n) u).trans ?_
  rfl

/-- The number of gaps at a column is the specification's windowed count. -/
theorem res_v25_cnt (b : Fin 32) (n : Fin 2048) :
    res_v25 (F := Ideal) X (ix2 b n) = Cert.ScanSpec.cntW (Cert.ScanSpec.col X b n) :=
  res_v25_apply_of X b n (res_v15_apply_of X b n (res_v12_apply X b n))
    (Cert.ScanSpec.reduce_addi_time_at _ _ _ _ b n)

/-- The reference's coefficient of variation is the specification's windowed one. -/
theorem res_v48_eq : res_v48 (F := Ideal) X = Cert.ScanSpec.cvWinArr X := by
  funext j
  obtain ⟨b, n, rfl⟩ : ∃ (b : Fin 32) (n : Fin 2048), j = ix2 b n := ⟨j 0, j 1, eq_ix2 j⟩
  exact res_v48_apply_of X b n (res_v12_apply X b n) (res_v25_cnt X b n)

end Cert.ReferenceIdeal.Hand

end
-- ==== Proof.RefSide.Read.lean ====
/-
  The reference's results as the specification's arrays: every weakly fair execution of the reference program ends with
  the firing rates, the coefficients of variation (by the running maximum), the synchrony, the spike totals and the
  active-neuron counts of the input's launch contents, the input unchanged.
-/
import proofs.«161861_j30580167147909_1_alg».proof.Proof.RefSide.ReadSums
import proofs.«161861_j30580167147909_1_alg».proof.Proof.RefSide.ValuesAt

noncomputable section

namespace Cert.ReferenceIdeal.Hand

open Cert.ReferenceIdeal Cert.ReferenceIdeal.Gen Idealize.ShloMosaic Idealize.ShloMosaic.TcCoe Idealize.SL.Sem Idealize.ShloMosaic.StableHlo

/-- The run's results as the specification's arrays, given that the coefficient-of-variation stage is the
    specification's windowed one. -/
theorem run_values_of
    (h48 : ∀ X : Cert.ScanSpec.ShX.Idx → EReal, res_v48 (F := Ideal) X = Cert.ScanSpec.cvWinArr X)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v2) = Cert.ScanSpec.rates (Cert.ScanSpec.totalArr (m ((c.tc : Thread nD τ).loc main_arg0)))
      ∧ r.2.mem ((c.tc : Thread nD τ).loc main_v48) = Cert.ScanSpec.cvWinArr (m ((c.tc : Thread nD τ).loc main_arg0))
      ∧ r.2.mem ((c.tc : Thread nD τ).loc main_v77) = Cert.ScanSpec.sync (Cert.ScanSpec.popArr (m ((c.tc : Thread nD τ).loc main_arg0)))
      ∧ r.2.mem ((c.tc : Thread nD τ).loc main_v0) = Cert.ScanSpec.totalArr (m ((c.tc : Thread nD τ).loc main_arg0))
      ∧ r.2.mem ((c.tc : Thread nD τ).loc main_v6) = Cert.ScanSpec.active (Cert.ScanSpec.totalArr (m ((c.tc : Thread nD τ).loc main_arg0)))
      ∧ r.2.mem ((c.tc : Thread nD τ).loc main_arg0) = m ((c.tc : Thread nD τ).loc main_arg0)) :=
  (θ_run defs _ _).mono (fun _ h c =>
    ⟨(h c).1.trans (res_v2_eq _), (h c).2.1.trans (h48 _), (h c).2.2.1.trans (res_v77_eq _),
      (h c).2.2.2.1.trans (res_v0_eq _), (h c).2.2.2.2.1.trans (res_v6_eq _), (h c).2.2.2.2.2⟩)
    (run (F := Ideal) m ρ)

/-- The run's results as the specification's arrays. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v2) = Cert.ScanSpec.rates (Cert.ScanSpec.totalArr (m ((c.tc : Thread nD τ).loc main_arg0)))
      ∧ r.2.mem ((c.tc : Thread nD τ).loc main_v48) = Cert.ScanSpec.cvWinArr (m ((c.tc : Thread nD τ).loc main_arg0))
      ∧ r.2.mem ((c.tc : Thread nD τ).loc main_v77) = Cert.ScanSpec.sync (Cert.ScanSpec.popArr (m ((c.tc : Thread nD τ).loc main_arg0)))
      ∧ r.2.mem ((c.tc : Thread nD τ).loc main_v0) = Cert.ScanSpec.totalArr (m ((c.tc : Thread nD τ).loc main_arg0))
      ∧ r.2.mem ((c.tc : Thread nD τ).loc main_v6) = Cert.ScanSpec.active (Cert.ScanSpec.totalArr (m ((c.tc : Thread nD τ).loc main_arg0)))
      ∧ r.2.mem ((c.tc : Thread nD τ).loc main_arg0) = m ((c.tc : Thread nD τ).loc main_arg0)) :=
  run_values_of res_v48_eq m ρ

end Cert.ReferenceIdeal.Hand

end
-- ==== Proof.ScanMath.Words.lean ====
/-
  Facts about the signed order on 32-bit words used by the running-maximum formulation: the signed maximum of two words
  whose order is known, the least word as its neutral element, and the signed value of a small natural number and of
  the all-ones word. Also two list facts: a left fold over `Fin n` that only reads the index's value is the fold over
  `List.range n`, and a fold of signed maxima over a window whose first `m` positions hold the least word is the fold
  over the remaining positions.
-/
import Idealize.ShloMosaic.Lib.IdealHost
import proofs.«161861_j30580167147909_1_alg».proof.Proof.Spec

namespace Cert.ScanSpec

open Idealize.ShloMosaic Idealize.ShloMosaic.ValueIdx

/-- A natural number below 2³¹, as a 32-bit word, has itself as signed value. -/
theorem toInt_ofNat_small (u : ℕ) (h : u < 2 ^ 31) : (BitVec.ofNat 32 u).toInt = (u : ℤ) := by
  have hm : u % 2 ^ 32 = u := Nat.mod_eq_of_lt (by omega)
  rw [BitVec.toInt_eq_toNat_of_lt (by rw [BitVec.toNat_ofNat, hm]; omega), BitVec.toNat_ofNat, hm]

/-- The all-ones word is -1. -/
theorem toInt_negOne : (0xFFFFFFFF#32).toInt = -1 := by decide

/-- The least word is below every word. -/
theorem intMin_le32 (x : BitVec 32) : (BitVec.intMin 32).toInt ≤ x.toInt := by
  have := BitVec.toInt_intMin_le x
  simpa using this

/-- The signed maximum is its second operand when that one is strictly larger. -/
theorem maxsi_of_lt {x y : BitVec 32} (h : x.toInt < y.toInt) : IntOp.maxsi x y = y := by
  unfold IntOp.maxsi
  simp [BitVec.slt]
  omega

/-- The signed maximum is its first operand when the second is not larger. -/
theorem maxsi_of_le {x y : BitVec 32} (h : y.toInt ≤ x.toInt) : IntOp.maxsi x y = x := by
  unfold IntOp.maxsi
  by_cases hxy : y.slt x
  · simp [hxy]
  · simp [hxy]
    simp [BitVec.slt] at hxy
    exact BitVec.toInt_inj.mp (by omega)

/-- The least word is neutral on the left. -/
theorem maxsi_intMin_left (x : BitVec 32) : IntOp.maxsi (BitVec.intMin 32) x = x := by
  rcases lt_or_ge (BitVec.intMin 32).toInt x.toInt with h | h
  · exact maxsi_of_lt h
  · have hx : x = BitVec.intMin 32 := BitVec.toInt_inj.mp (by have := intMin_le32 x; omega)
    rw [hx]; exact maxsi_of_le (le_refl _)

/-- The least word is neutral on the right. -/
theorem maxsi_intMin_right (x : BitVec 32) : IntOp.maxsi x (BitVec.intMin 32) = x :=
  maxsi_of_le (intMin_le32 x)

/-- A left fold over `Fin n` that reads only the value of the index is the fold over `0, …, n-1`. -/
theorem foldl_finRange_val {α : Type} (n : ℕ) (f : α → ℕ → α) (init : α) :
    (List.finRange n).foldl (fun r k => f r k.val) init = (List.range n).foldl f init := by
  rw [← List.map_coe_finRange_eq_range, List.foldl_map]

/-- Positions holding the least word leave a running signed maximum that starts at the least word there. -/
theorem foldl_maxsi_neutral (g : ℕ → BitVec 32) (l : List ℕ) (hg : ∀ k ∈ l, g k = BitVec.intMin 32) :
    l.foldl (fun r k => IntOp.maxsi r (g k)) (BitVec.intMin 32) = BitVec.intMin 32 := by
  induction l with
  | nil => rfl
  | cons k l ih =>
    rw [List.foldl_cons, hg k (List.mem_cons_self), maxsi_intMin_right]
    exact ih (fun j hj => hg j (List.mem_cons_of_mem _ hj))

/-- A running signed maximum over `m + n` positions, the first `m` holding the least word and position `m + u` holding
    `h u`, is the running signed maximum of `h` over `n` positions. -/
theorem foldl_maxsi_window (g h : ℕ → BitVec 32) (m n : ℕ) (hg1 : ∀ k, k < m → g k = BitVec.intMin 32)
    (hg2 : ∀ u, u < n → g (m + u) = h u) :
    (List.range (m + n)).foldl (fun r k => IntOp.maxsi r (g k)) (BitVec.intMin 32)
      = (List.range n).foldl (fun r u => IntOp.maxsi r (h u)) (BitVec.intMin 32) := by
  rw [List.range_add, List.foldl_append, List.foldl_map,
    foldl_maxsi_neutral g (List.range m) (fun k hk => hg1 k (List.mem_range.mp hk))]
  exact List.foldl_ext _ _ _ (fun r u hu => by rw [hg2 u (List.mem_range.mp hu)])

end Cert.ScanSpec
-- ==== Proof.ScanMath.Carry.lean ====
/-
  The running signed maximum of `where(spike at u, u, -1)` over the times `u ≤ t` is the time of the most recent spike
  (or -1): exactly the word the scan carries after step `t`. Hence the word the vectorised formulation reads at time `t`
  ("the last spike strictly before `t`") is the scan's carry before step `t`.
-/
import proofs.«161861_j30580167147909_1_alg».proof.Proof.ScanMath.Words

namespace Cert.ScanSpec

open Idealize.ShloMosaic Idealize.ShloMosaic.ValueIdx

/-- Before the first step the carry is -1. -/
theorem carry_zero (a : ℕ → EReal) : (run a 0).carry = 0xFFFFFFFF#32 := rfl

/-- One step: the carry becomes the step's time at a spike and is kept otherwise. -/
theorem carry_succ (a : ℕ → EReal) (t : ℕ) :
    (run a (t + 1)).carry = Scalar.select (spk (a t)) (BitVec.ofNat 32 t) (run a t).carry := rfl

/-- The carry before step `t` is -1 or an earlier time. -/
theorem carry_inv (a : ℕ → EReal) (t : ℕ) :
    (run a t).carry = 0xFFFFFFFF#32 ∨ ∃ u, u < t ∧ (run a t).carry = BitVec.ofNat 32 u := by
  induction t with
  | zero => left; rfl
  | succ t ih =>
    rw [carry_succ]
    by_cases h : spk (a t) = 1#1
    · rw [h, select_one]; right; exact ⟨t, Nat.lt_succ_self t, rfl⟩
    · rw [eq_zero_of_ne_one h, select_zero]
      rcases ih with h0 | ⟨u, hu, he⟩
      · left; exact h0
      · right; exact ⟨u, Nat.lt_succ_of_lt hu, he⟩

/-- The signed value of the carry before step `t` is at least -1 and below `t`. -/
theorem carry_toInt (a : ℕ → EReal) (t : ℕ) (ht : t ≤ 2 ^ 31) :
    -1 ≤ (run a t).carry.toInt ∧ (run a t).carry.toInt < (t : ℤ) := by
  rcases carry_inv a t with h0 | ⟨u, hu, he⟩
  · rw [h0, toInt_negOne]; omega
  · rw [he, toInt_ofNat_small u (by omega)]; omega

/-- The running signed maximum of the marks over the times `0, …, n-1`, from the least word. -/
noncomputable def lastR (a : ℕ → EReal) (n : ℕ) : BitVec 32 :=
  (List.range n).foldl (fun r u => IntOp.maxsi r (mark a u)) (BitVec.intMin 32)

theorem lastR_zero (a : ℕ → EReal) : lastR a 0 = BitVec.intMin 32 := rfl

theorem lastR_succ (a : ℕ → EReal) (n : ℕ) : lastR a (n + 1) = IntOp.maxsi (lastR a n) (mark a n) := by
  unfold lastR
  rw [List.range_succ, List.foldl_append]
  rfl

/-- The running maximum of the marks through time `t` is the scan's carry after step `t`. -/
theorem lastR_eq_carry (a : ℕ → EReal) (t : ℕ) (ht : t < 2 ^ 31) : lastR a (t + 1) = (run a (t + 1)).carry := by
  induction t with
  | zero =>
    rw [lastR_succ, lastR_zero, maxsi_intMin_left, carry_succ, carry_zero]
    rfl
  | succ t ih =>
    rw [lastR_succ, ih (by omega), carry_succ a (t + 1)]
    have hc := carry_toInt a (t + 1) (by omega)
    unfold mark
    by_cases h : spk (a (t + 1)) = 1#1
    · rw [h, select_one, select_one]
      exact maxsi_of_lt (by rw [toInt_ofNat_small (t + 1) (by omega)]; push_cast; omega)
    · rw [eq_zero_of_ne_one h, select_zero, select_zero]
      exact maxsi_of_le (by rw [toInt_negOne]; omega)

/-- The window of 1000 positions ending at time `t`, read as in `lastW`, is the running maximum of the marks through
    time `t`: the positions before time 0 hold the least word. -/
theorem lastW_eq_lastR (a : ℕ → EReal) (t : ℕ) (ht : t < 1000) : lastW a t = lastR a (t + 1) := by
  unfold lastW lastR
  rw [foldl_finRange_val 1000 (fun r k => IntOp.maxsi r
    (if 999 ≤ t + k ∧ t + k - 999 < 1000 then mark a (t + k - 999) else BitVec.intMin 32)) (BitVec.intMin 32)]
  rw [show List.range 1000 = List.range ((999 - t) + (t + 1)) by congr 1; omega]
  refine foldl_maxsi_window (fun k => if 999 ≤ t + k ∧ t + k - 999 < 1000 then mark a (t + k - 999) else BitVec.intMin 32)
    (mark a) (999 - t) (t + 1) ?_ ?_
  · intro k hk
    show (if 999 ≤ t + k ∧ t + k - 999 < 1000 then mark a (t + k - 999) else BitVec.intMin 32) = _
    rw [if_neg (by omega)]
  · intro u hu
    show (if 999 ≤ t + (999 - t + u) ∧ t + (999 - t + u) - 999 < 1000 then mark a (t + (999 - t + u) - 999)
      else BitVec.intMin 32) = _
    rw [if_pos (by omega), show t + (999 - t + u) - 999 = u by omega]

/-- (1) The window maximum at time `t` is the scan's carry after step `t`. -/
theorem lastW_eq_carry (a : ℕ → EReal) (t : ℕ) (ht : t < 1000) : lastW a t = (run a (t + 1)).carry := by
  rw [lastW_eq_lastR a t ht, lastR_eq_carry a t (by omega)]

/-- (2) The last spike strictly before `t`, by the window, is the scan's carry before step `t`. -/
theorem prevW_eq_carry (a : ℕ → EReal) (t : ℕ) (ht : t ≤ 1000) : prevW a t = (run a t).carry := by
  unfold prevW
  rcases t with _ | s
  · rfl
  · rw [if_neg (by omega), show s + 1 - 1 = s by omega, lastW_eq_carry a s (by omega)]

/-- The gap the vectorised formulation adds at time `t` is the gap the scan's step at time `t` adds. -/
theorem gapW_eq (a : ℕ → EReal) (t : ℕ) (ht : t ≤ 1000) :
    gapW a t = gap (BitVec.ofNat 32 t) (a t) (run a t).carry := by
  unfold gapW; rw [prevW_eq_carry a t ht]

/-- The validity bit of the vectorised formulation at time `t` is the one the scan's step at time `t` uses. -/
theorem validW_eq (a : ℕ → EReal) (t : ℕ) (ht : t ≤ 1000) : validW a t = validBit (a t) (run a t).carry := by
  unfold validW; rw [prevW_eq_carry a t ht]

end Cert.ScanSpec
-- ==== Proof.ScanMath.Sums.lean ====
/-
  The three accumulators of the scan after all 1000 steps are the three sums of the vectorised formulation: the sum of
  gaps, the sum of squared gaps (each a finite sum in time, added one step at a time from zero), and the gap count (the
  scan adds the real 1 per valid step; the vectorised formulation adds the validity bits as 32-bit integers and converts
  the total, which is at most 1000 and so does not wrap).
-/
import proofs.«161861_j30580167147909_1_alg».proof.Proof.ScanMath.Carry

open scoped BigOperators

namespace Cert.ScanSpec

open Idealize.ShloMosaic Idealize.ShloMosaic.ValueIdx

/-- (3) After `N` steps the scan's sum of gaps is the sum of the first `N` gaps of the vectorised formulation. -/
theorem run_sg (a : ℕ → EReal) (N : ℕ) (hN : N ≤ 1000) : (run a N).sg = ∑ t ∈ Finset.range N, gapW a t := by
  induction N with
  | zero => rw [Finset.range_zero, Finset.sum_empty]; exact Ideal.ofBits_zero_f32
  | succ N ih =>
    rw [Finset.sum_range_succ, ← ih (by omega), gapW_eq a N (by omega)]
    rfl

/-- (3) The same for the sum of squared gaps. -/
theorem run_sg2 (a : ℕ → EReal) (N : ℕ) (hN : N ≤ 1000) :
    (run a N).sg2 = ∑ t ∈ Finset.range N, gapW a t * gapW a t := by
  induction N with
  | zero => rw [Finset.range_zero, Finset.sum_empty]; exact Ideal.ofBits_zero_f32
  | succ N ih =>
    rw [Finset.sum_range_succ, ← ih (by omega), gapW_eq a N (by omega)]
    rfl

/-- The sum of gaps of the vectorised formulation is the scan's. -/
theorem sgW_eq (a : ℕ → EReal) : sgW a = (run a 1000).sg := by
  unfold sgW
  rw [run_sg a 1000 (le_refl _)]
  exact Fin.sum_univ_eq_sum_range (fun t => gapW a t) 1000

/-- The sum of squared gaps of the vectorised formulation is the scan's. -/
theorem sg2W_eq (a : ℕ → EReal) : sg2W a = (run a 1000).sg2 := by
  unfold sg2W
  rw [run_sg2 a 1000 (le_refl _)]
  exact Fin.sum_univ_eq_sum_range (fun t => gapW a t * gapW a t) 1000

/-- The 32-bit count of the valid steps among the first `N`. -/
noncomputable def cntR (a : ℕ → EReal) (N : ℕ) : BitVec 32 :=
  (List.range N).foldl (fun r t => IntOp.addi r ((validW a t).setWidth 32)) 0#32

theorem cntR_succ (a : ℕ → EReal) (N : ℕ) : cntR a (N + 1) = IntOp.addi (cntR a N) ((validW a N).setWidth 32) := by
  unfold cntR
  rw [List.range_succ, List.foldl_append]
  rfl

/-- (4) After `N ≤ 1000` steps the 32-bit count is a natural number `c ≤ N` (no wrap-around) and the scan's count is the
    same number as a real. -/
theorem run_cnt (a : ℕ → EReal) (N : ℕ) (hN : N ≤ 1000) :
    ∃ c : ℕ, c ≤ N ∧ cntR a N = BitVec.ofNat 32 c ∧ (run a N).cnt = ((c : ℝ) : EReal) := by
  induction N with
  | zero =>
    refine ⟨0, le_refl 0, rfl, ?_⟩
    rw [Nat.cast_zero, EReal.coe_zero]; exact Ideal.ofBits_zero_f32
  | succ N ih =>
    obtain ⟨c, hc, hw, hr⟩ := ih (by omega)
    have hstep : (run a (N + 1)).cnt = (run a N).cnt + Scalar.select (validW a N)
        (Ideal.ofBits .f32 0x3F800000#32) (Ideal.ofBits .f32 0x00000000#32) := by
      rw [validW_eq a N (by omega)]; rfl
    rw [cntR_succ, hstep, hw, hr]
    by_cases h : validW a N = 1#1
    · refine ⟨c + 1, by omega, ?_, ?_⟩
      · rw [h, BitVec.ofNat_add]; rfl
      · rw [h, select_one, Ideal.ofBits_one_f32, Nat.cast_add, Nat.cast_one, EReal.coe_add, EReal.coe_one]
    · refine ⟨c, by omega, ?_, ?_⟩
      · rw [eq_zero_of_ne_one h]
        show BitVec.ofNat 32 c + (0#1).setWidth 32 = BitVec.ofNat 32 c
        rw [show (0#1).setWidth 32 = 0#32 by decide, BitVec.add_zero]
      · rw [eq_zero_of_ne_one h, select_zero, Ideal.ofBits_zero_f32, add_zero]

/-- The gap count of the vectorised formulation is the scan's. -/
theorem cntW_eq (a : ℕ → EReal) : cntW a = (run a 1000).cnt := by
  obtain ⟨c, hc, hw, hr⟩ := run_cnt a 1000 (le_refl _)
  unfold cntW
  rw [foldl_finRange_val 1000 (fun r t => IntOp.addi r ((validW a t).setWidth 32)) 0#32]
  show FloatOps.sitofp (F := Ideal) .f32 (cntR a 1000) = _
  rw [hw, hr]
  show (((BitVec.ofNat 32 c).toInt : ℝ) : EReal) = _
  rw [toInt_ofNat_small c (by omega), Int.cast_natCast]

end Cert.ScanSpec
-- ==== Proof.ScanMath.Bridge.lean ====
/-
  The coefficient of variation of a column's gaps computed by the running maximum is the one computed by the scan: the
  count, the sum and the sum of squares that enter it agree.
-/
import proofs.«161861_j30580167147909_1_alg».proof.Proof.ScanMath.Sums

namespace Cert.ScanSpec

open Idealize.ShloMosaic Idealize.ShloMosaic.ValueIdx

/-- Per column, the two formulations of the gap statistic agree. -/
theorem cvWin_eq_cvScan (X : ShX.Idx → EReal) (b : Fin 32) (n : Fin 2048) : cvWin X b n = cvScan X b n := by
  unfold cvWin cvScan
  rw [cntW_eq, sgW_eq, sg2W_eq]

/-- As arrays. -/
theorem cvWinArr_eq (X : ShX.Idx → EReal) : cvWinArr X = cvScanArr X :=
  funext fun j => cvWin_eq_cvScan X (j 0) (j 1)

end Cert.ScanSpec
-- ==== Proof.lean ====
/-
  The certificate: a spike-train statistics kernel against its vectorised reference, equal on the extended reals.

  Over a spike history X[t, b, n] (1000 time steps, 32 batch rows, 2048 neurons) both programs return the firing
  rates, the coefficient of variation of the inter-spike intervals, the synchrony of the population signal, the spike
  totals and the active-neuron counts. The kernel streams X once in 25 blocks of 40 time steps, carrying per column
  the time of the last spike and running sums of the gaps between consecutive spikes; the reference obtains the same
  gaps from a running maximum of where(spike, t, -1) shifted by one step. The two agree because the running maximum of
  the marked times IS the time of the most recent spike, so both add the same gaps in the same order; the totals and
  the population signal are the same sums taken blockwise or whole, equal in the commutative monoid of the extended
  reals; and the three host tails are the same operations applied to equal arrays. No finiteness of X is used beyond
  what the statement assumes: nothing is cancelled or distributed.

  The three frames: each kernel program runs point by point through its grid, the state between points named by a
  recurrence (the word-level program and its idealization alike: the idealization rewrote nothing, so `preserves` has
  no conjunct); the reference is a straight-line host program.
-/
import proofs.«161861_j30580167147909_1_alg».proof.Defs
import proofs.«161861_j30580167147909_1_alg».proof.Proof.Gen.Kernel
import proofs.«161861_j30580167147909_1_alg».proof.Proof.Gen.KernelIdeal
import proofs.«161861_j30580167147909_1_alg».proof.Proof.Gen.ReferenceIdeal
import proofs.«161861_j30580167147909_1_alg».proof.Proof.Gen.Pre_finite_inputs
import proofs.«161861_j30580167147909_1_alg».proof.Proof.BitsScan.Frame
import proofs.«161861_j30580167147909_1_alg».proof.Proof.IdealScan.KernelRun
import proofs.«161861_j30580167147909_1_alg».proof.Proof.RefSide.Run
import proofs.«161861_j30580167147909_1_alg».proof.Proof.RefSide.Read
import proofs.«161861_j30580167147909_1_alg».proof.Proof.ScanMath.Bridge

noncomputable section

namespace Cert.Proof

open Idealize.ShloMosaic Idealize.SL.Sem

/-- The word-level kernel program runs to the end and leaves the spike history unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- And the reference: its run with the results dropped. -/
theorem frame_ri : Cert.frame_ReferenceIdeal := fun m ρ _ =>
  (θ_run Cert.ReferenceIdeal.defs _ _).mono (fun _ h c => (h c).2.2.2.2.2) (Cert.ReferenceIdeal.Hand.run (F := Ideal) m ρ)

/-- From memories agreeing on the spike history both programs end with the same five results: the specification's
    functions of the history, the kernel's coefficient of variation by the scan and the reference's by the running
    maximum being one function. -/
theorem algebraic : Cert.algebraic_KernelIdeal_ReferenceIdeal := by
  intro m ρ m' ρ' _ hagree
  refine ⟨fun c => Cert.ScanSpec.rates (Cert.ScanSpec.totalArr (Cert.KernelIdeal.Hand.Xc m c)),
    fun c => Cert.ScanSpec.cvScanArr (Cert.KernelIdeal.Hand.Xc m c),
    fun c => Cert.ScanSpec.sync (Cert.ScanSpec.popArr (Cert.KernelIdeal.Hand.Xc m c)),
    fun c => Cert.ScanSpec.totalArr (Cert.KernelIdeal.Hand.Xc m c),
    fun c => Cert.ScanSpec.active (Cert.ScanSpec.totalArr (Cert.KernelIdeal.Hand.Xc m c)),
    Cert.KernelIdeal.Hand.run_values m ρ, ?_⟩
  refine (θ_run Cert.ReferenceIdeal.defs _ _).mono (fun _ h c => ?_) (Cert.ReferenceIdeal.Hand.run_values m' ρ')
  obtain ⟨h0, h1, h2, h3, h4, h5⟩ := h c
  have hX : m' ((c.tc : Thread Cert.ReferenceIdeal.nD Cert.ReferenceIdeal.τ).loc Cert.ReferenceIdeal.main_arg0) = Cert.KernelIdeal.Hand.Xc m c := hagree c
  rw [hX] at h0 h1 h2 h3 h4
  exact ⟨h0, h1.trans (Cert.ScanSpec.cvWinArr_eq _), h2, h3, h4, h5⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
